-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1024x64 : Shape := ⟨3, ![4, 1024, 64]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x1024x1024 .f32) (main_arg1 : FVec F S4x1024x64 .f32) (main_arg2 : FVec F S4x1024x64 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  let main_v9 : FVec F S4x1024x64 .f32 := Host.absf main_arg2
  let main_cst_2 : FVec F S_ .f32 := constant S_ .f32 0x7F800000#32
  let main_v10 : FVec F S4x1024x64 .f32 := broadcastInDim S4x1024x64 ![] bcast_S_S4x1024x64 main_cst_2
  let main_v11 : IVec S4x1024x64 1 := cmpf .olt main_v9 main_v10
  let main_c_3 : IVec S_ 1 := constantI S_ 1 1#1
  let main_v12 : IVec S_ 1 := (fun x v => Host.reduce IntOp.andi x v reducesTo_S4x1024x64_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4x1024x1024 : Shape := ⟨3, ![4, 1024, 1024]⟩
abbrev S4x1024x64 : Shape := ⟨3, ![4, 1024, 64]⟩
abbrev S1024x1024 : Shape := ⟨2, ![1024, 1024]⟩
abbrev S1024 : Shape := ⟨1, ![1024]⟩
abbrev S4x8x1024x128 : Shape := ⟨4, ![4, 8, 1024, 128]⟩
abbrev S1x1024x1024 : Shape := ⟨3, ![1, 1024, 1024]⟩
abbrev S1x1024x64 : Shape := ⟨3, ![1, 1024, 64]⟩
abbrev S1x8x1024x128 : Shape := ⟨4, ![1, 8, 1024, 128]⟩
abbrev S1024x64 : Shape := ⟨2, ![1024, 64]⟩
abbrev S1x1024 : Shape := ⟨2, ![1, 1024]⟩
abbrev S1024x32 : Shape := ⟨2, ![1024, 32]⟩
abbrev S1024x128 : Shape := ⟨2, ![1024, 128]⟩
abbrev S1x1x1024x128 : Shape := ⟨4, ![1, 1, 1024, 128]⟩
abbrev S1x1024x128 : Shape := ⟨3, ![1, 1024, 128]⟩
abbrev S1024x1 : Shape := ⟨2, ![1024, 1]⟩

abbrev nBuf : Space → Nat
  | .hbm => 19
  | .vmem => 31
  | .smem => 0
  | _ => 0

abbrev bufTy : (tb : Table) → Fin (tcTables nBuf tb) → BufTy
  | .hbm, ⟨0, _⟩ => ⟨S4x1024x1024, .f32⟩
  | .hbm, ⟨1, _⟩ => ⟨S4x1024x64, .f32⟩
  | .hbm, ⟨2, _⟩ => ⟨S4x1024x64, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S4x8x1024x128, .bf16⟩
  | .hbm, ⟨15, _⟩ => ⟨S4x8x1024x128, .bf16⟩
  | .hbm, ⟨16, _⟩ => ⟨S4x8x1024x128, .bf16⟩
  | .hbm, ⟨17, _⟩ => ⟨S4x1024x1024, .bf16⟩
  | .hbm, ⟨18, _⟩ => ⟨S4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024, .f32⟩
  | .local _ .vmem, ⟨10, _⟩ => ⟨S1024, .f32⟩
  | .local _ .vmem, ⟨11, _⟩ => ⟨S1x8x1024x128, .bf16⟩
  | .local _ .vmem, ⟨12, _⟩ => ⟨S1x8x1024x128, .bf16⟩
  | .local _ .vmem, ⟨13, _⟩ => ⟨S1x8x1024x128, .bf16⟩
  | .local _ .vmem, ⟨14, _⟩ => ⟨S1x8x1024x128, .bf16⟩
  | .local _ .vmem, ⟨15, _⟩ => ⟨S1x8x1024x128, .bf16⟩
  | .local _ .vmem, ⟨16, _⟩ => ⟨S1x8x1024x128, .bf16⟩
  | .local _ .vmem, ⟨17, _⟩ => ⟨S1x1x1024x128, .bf16⟩
  | .local _ .vmem, ⟨18, _⟩ => ⟨S1x1x1024x128, .bf16⟩
  | .local _ .vmem, ⟨19, _⟩ => ⟨S1x1x1024x128, .bf16⟩
  | .local _ .vmem, ⟨20, _⟩ => ⟨S1x1x1024x128, .bf16⟩
  | .local _ .vmem, ⟨21, _⟩ => ⟨S1x1x1024x128, .bf16⟩
  | .local _ .vmem, ⟨22, _⟩ => ⟨S1x1x1024x128, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x1024x1024, .bf16⟩
  | .local _ .vmem, ⟨26, _⟩ => ⟨S1x1024x1024, .bf16⟩
  | .local _ .vmem, ⟨27, _⟩ => ⟨S1024x1024, .bf16⟩
  | .local _ .vmem, ⟨28, _⟩ => ⟨S1024, .f32⟩
  | .local _ .vmem, ⟨29, _⟩ => ⟨S1x1024x1024, .f32⟩
  | .local _ .vmem, ⟨30, _⟩ => ⟨S1x1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  slices_S1024x1024_o0_0_S1024x64 : S1024x1024.Slices ![0, 0] S1024x64
  slices_S1024x1024_o0_64_S1024x64 : S1024x1024.Slices ![0, 64] S1024x64
  slices_S1024x64_o0_0_S1024x32 : S1024x64.Slices ![0, 0] S1024x32
  slices_S1024x64_o0_32_S1024x32 : S1024x64.Slices ![0, 32] S1024x32
  concatenates_S1024x32_S1024x32_S1024x64_d1 : Shape.Concatenates [S1024x32, S1024x32] S1024x64 1
  concatenates_S1024x64_S1024x64_S1024x128_d1 : Shape.Concatenates [S1024x64, S1024x64] S1024x128 1
  inb_S1x8x1024x128_S1x1x1024x128_0_0_0_0 : ∀ a, (![0, 0, 0, 0] : Fin 4 → Nat) a + S1x1x1024x128.size a ≤ S1x8x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  packedbf16_S1x8x1024x128_S1x1x1024x128_0_0_0_0 : (Rect.unit (s := S1x8x1024x128) ![0, 0, 0, 0] S1x1x1024x128.size inb_S1x8x1024x128_S1x1x1024x128_0_0_0_0).PackedRows (EltTy.packing .bf16)
  slices_S1024x1024_o0_128_S1024x64 : S1024x1024.Slices ![0, 128] S1024x64
  slices_S1024x1024_o0_192_S1024x64 : S1024x1024.Slices ![0, 192] S1024x64
  inb_S1x8x1024x128_S1x1x1024x128_0_1_0_0 : ∀ a, (![0, 1, 0, 0] : Fin 4 → Nat) a + S1x1x1024x128.size a ≤ S1x8x1024x128.size a
  packedbf16_S1x8x1024x128_S1x1x1024x128_0_1_0_0 : (Rect.unit (s := S1x8x1024x128) ![0, 1, 0, 0] S1x1x1024x128.size inb_S1x8x1024x128_S1x1x1024x128_0_1_0_0).PackedRows (EltTy.packing .bf16)
  slices_S1024x1024_o0_256_S1024x64 : S1024x1024.Slices ![0, 256] S1024x64
  slices_S1024x1024_o0_320_S1024x64 : S1024x1024.Slices ![0, 320] S1024x64
  inb_S1x8x1024x128_S1x1x1024x128_0_2_0_0 : ∀ a, (![0, 2, 0, 0] : Fin 4 → Nat) a + S1x1x1024x128.size a ≤ S1x8x1024x128.size a
  packedbf16_S1x8x1024x128_S1x1x1024x128_0_2_0_0 : (Rect.unit (s := S1x8x1024x128) ![0, 2, 0, 0] S1x1x1024x128.size inb_S1x8x1024x128_S1x1x1024x128_0_2_0_0).PackedRows (EltTy.packing .bf16)
  slices_S1024x1024_o0_384_S1024x64 : S1024x1024.Slices ![0, 384] S1024x64
  slices_S1024x1024_o0_448_S1024x64 : S1024x1024.Slices ![0, 448] S1024x64
  inb_S1x8x1024x128_S1x1x1024x128_0_3_0_0 : ∀ a, (![0, 3, 0, 0] : Fin 4 → Nat) a + S1x1x1024x128.size a ≤ S1x8x1024x128.size a
  packedbf16_S1x8x1024x128_S1x1x1024x128_0_3_0_0 : (Rect.unit (s := S1x8x1024x128) ![0, 3, 0, 0] S1x1x1024x128.size inb_S1x8x1024x128_S1x1x1024x128_0_3_0_0).PackedRows (EltTy.packing .bf16)
  slices_S1024x1024_o0_512_S1024x64 : S1024x1024.Slices ![0, 512] S1024x64
  slices_S1024x1024_o0_576_S1024x64 : S1024x1024.Slices ![0, 576] S1024x64
  inb_S1x8x1024x128_S1x1x1024x128_0_4_0_0 : ∀ a, (![0, 4, 0, 0] : Fin 4 → Nat) a + S1x1x1024x128.size a ≤ S1x8x1024x128.size a
  packedbf16_S1x8x1024x128_S1x1x1024x128_0_4_0_0 : (Rect.unit (s := S1x8x1024x128) ![0, 4, 0, 0] S1x1x1024x128.size inb_S1x8x1024x128_S1x1x1024x128_0_4_0_0).PackedRows (EltTy.packing .bf16)
  slices_S1024x1024_o0_640_S1024x64 : S1024x1024.Slices ![0, 640] S1024x64
  slices_S1024x1024_o0_704_S1024x64 : S1024x1024.Slices ![0, 704] S1024x64
  inb_S1x8x1024x128_S1x1x1024x128_0_5_0_0 : ∀ a, (![0, 5, 0, 0] : Fin 4 → Nat) a + S1x1x1024x128.size a ≤ S1x8x1024x128.size a
  packedbf16_S1x8x1024x128_S1x1x1024x128_0_5_0_0 : (Rect.unit (s := S1x8x1024x128) ![0, 5, 0, 0] S1x1x1024x128.size inb_S1x8x1024x128_S1x1x1024x128_0_5_0_0).PackedRows (EltTy.packing .bf16)
  slices_S1024x1024_o0_768_S1024x64 : S1024x1024.Slices ![0, 768] S1024x64
  slices_S1024x1024_o0_832_S1024x64 : S1024x1024.Slices ![0, 832] S1024x64
  inb_S1x8x1024x128_S1x1x1024x128_0_6_0_0 : ∀ a, (![0, 6, 0, 0] : Fin 4 → Nat) a + S1x1x1024x128.size a ≤ S1x8x1024x128.size a
  packedbf16_S1x8x1024x128_S1x1x1024x128_0_6_0_0 : (Rect.unit (s := S1x8x1024x128) ![0, 6, 0, 0] S1x1x1024x128.size inb_S1x8x1024x128_S1x1x1024x128_0_6_0_0).PackedRows (EltTy.packing .bf16)
  slices_S1024x1024_o0_896_S1024x64 : S1024x1024.Slices ![0, 896] S1024x64
  slices_S1024x1024_o0_960_S1024x64 : S1024x1024.Slices ![0, 960] S1024x64
  inb_S1x8x1024x128_S1x1x1024x128_0_7_0_0 : ∀ a, (![0, 7, 0, 0] : Fin 4 → Nat) a + S1x1x1024x128.size a ≤ S1x8x1024x128.size a
  packedbf16_S1x8x1024x128_S1x1x1024x128_0_7_0_0 : (Rect.unit (s := S1x8x1024x128) ![0, 7, 0, 0] S1x1x1024x128.size inb_S1x8x1024x128_S1x1x1024x128_0_7_0_0).PackedRows (EltTy.packing .bf16)
  inb_S1x1x1024x128_S1x1x1024x128_0_0_0_0 : ∀ a, (![0, 0, 0, 0] : Fin 4 → Nat) a + S1x1x1024x128.size a ≤ S1x1x1024x128.size a
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  slices_S1024x128_o0_64_S1024x64 : S1024x128.Slices ![0, 64] S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024x1024_S1x1024x1024 : S1024x1024.ShapeCasts S1x1024x1024
  dot_S1024x1024_S1024x1024_S1024x1024_1_1_0_0_n_n_wf : DotDims.WF S1024x1024 S1024x1024 S1024x1024 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x1024x64.size a
  hwx0_1 : ∀ i : grid0.Coords, EltTy.bits .f32 = 32 ∨ (Rect.block (s := S4x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x1024x64.size a
  hwx0_2 : ∀ i : grid0.Coords, EltTy.bits .f32 = 32 ∨ (Rect.block (s := S4x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x1024x128.size a ≤ S4x8x1024x128.size a
  hwx0_8 : ∀ i : grid0.Coords, EltTy.bits .bf16 = 32 ∨ (Rect.block (s := S4x8x1024x128) S1x8x1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x1024x128.size a ≤ S4x8x1024x128.size a
  hwx0_9 : ∀ i : grid0.Coords, EltTy.bits .bf16 = 32 ∨ (Rect.block (s := S4x8x1024x128) S1x8x1024x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x1024x128.size a ≤ S4x8x1024x128.size a
  hwx0_10 : ∀ i : grid0.Coords, EltTy.bits .bf16 = 32 ∨ (Rect.block (s := S4x8x1024x128) S1x8x1024x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x128.size a ≤ S4x8x1024x128.size a
  hwx1_0 : ∀ i : grid1.Coords, EltTy.bits .bf16 = 32 ∨ (Rect.block (s := S4x8x1024x128) S1x1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x128.size a ≤ S4x8x1024x128.size a
  hwx1_1 : ∀ i : grid1.Coords, EltTy.bits .bf16 = 32 ∨ (Rect.block (s := S4x8x1024x128) S1x1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x128.size a ≤ S4x8x1024x128.size a
  hwx1_2 : ∀ i : grid1.Coords, EltTy.bits .bf16 = 32 ∨ (Rect.block (s := S4x8x1024x128) S1x1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x1024x1024.size a
  hwx1_3 : ∀ i : grid1.Coords, EltTy.bits .bf16 = 32 ∨ (Rect.block (s := S4x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x1024x1024.size a
  hwx2_0 : ∀ i : grid2.Coords, EltTy.bits .bf16 = 32 ∨ (Rect.block (s := S4x1024x1024) S1x1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x1024x1024.size a
  hwx2_3 : ∀ i : grid2.Coords, EltTy.bits .f32 = 32 ∨ (Rect.block (s := S4x1024x1024) S1x1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1x8x1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1x8x1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S1x8x1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v4_0) S1x1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S4x1024x64 : Shape := ⟨3, ![4, 1024, 64]⟩
abbrev S1024x1024 : Shape := ⟨2, ![1024, 1024]⟩
abbrev S1024 : Shape := ⟨1, ![1024]⟩
abbrev S1x1x1024 : Shape := ⟨3, ![1, 1, 1024]⟩
abbrev S4x1024x16x64 : Shape := ⟨4, ![4, 1024, 16, 64]⟩
abbrev S4x16x1024x64 : Shape := ⟨4, ![4, 16, 1024, 64]⟩
abbrev S4x1x1024x64 : Shape := ⟨4, ![4, 1, 1024, 64]⟩
abbrev S4x16x1024x32 : Shape := ⟨4, ![4, 16, 1024, 32]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x64, .f32⟩
  | .hbm, ⟨2, _⟩ => ⟨S4x1024x64, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x1024x1024, .f32⟩
  | .hbm, ⟨11, _⟩ => ⟨S1x1x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S4x1024x1024, .f32⟩
  | .hbm, ⟨16, _⟩ => ⟨S1x1x1024, .f32⟩
  | .hbm, ⟨17, _⟩ => ⟨S4x1024x1024, .f32⟩
  | .hbm, ⟨18, _⟩ => ⟨S4x1024x1024, .f32⟩
  | .hbm, ⟨19, _⟩ => ⟨S4x1024x16x64, .f32⟩
  | .hbm, ⟨20, _⟩ => ⟨S4x16x1024x64, .f32⟩
  | .hbm, ⟨21, _⟩ => ⟨S4x1024x16x64, .f32⟩
  | .hbm, ⟨22, _⟩ => ⟨S4x16x1024x64, .f32⟩
  | .hbm, ⟨23, _⟩ => ⟨S4x1024x16x64, .f32⟩
  | .hbm, ⟨24, _⟩ => ⟨S4x16x1024x64, .f32⟩
  | .hbm, ⟨25, _⟩ => ⟨S4x1x1024x64, .f32⟩
  | .hbm, ⟨26, _⟩ => ⟨S4x1x1024x64, .f32⟩
  | .hbm, ⟨27, _⟩ => ⟨S4x16x1024x64, .f32⟩
  | .hbm, ⟨28, _⟩ => ⟨S4x16x1024x64, .f32⟩
  | .hbm, ⟨29, _⟩ => ⟨S4x16x1024x32, .f32⟩
  | .hbm, ⟨30, _⟩ => ⟨S4x16x1024x32, .f32⟩
  | .hbm, ⟨31, _⟩ => ⟨S4x16x1024x32, .f32⟩
  | .hbm, ⟨32, _⟩ => ⟨S4x16x1024x64, .f32⟩
  | .hbm, ⟨33, _⟩ => ⟨S4x16x1024x64, .f32⟩
  | .hbm, ⟨34, _⟩ => ⟨S4x16x1024x64, .f32⟩
  | .hbm, ⟨35, _⟩ => ⟨S4x16x1024x64, .f32⟩
  | .hbm, ⟨36, _⟩ => ⟨S4x16x1024x64, .f32⟩
  | .hbm, ⟨37, _⟩ => ⟨S4x16x1024x64, .f32⟩
  | .hbm, ⟨38, _⟩ => ⟨S4x16x1024x32, .f32⟩
  | .hbm, ⟨39, _⟩ => ⟨S4x16x1024x32, .f32⟩
  | .hbm, ⟨40, _⟩ => ⟨S4x16x1024x32, .f32⟩
  | .hbm, ⟨41, _⟩ => ⟨S4x16x1024x64, .f32⟩
  | .hbm, ⟨42, _⟩ => ⟨S4x16x1024x64, .f32⟩
  | .hbm, ⟨43, _⟩ => ⟨S4x16x1024x64, .f32⟩
  | .hbm, ⟨44, _⟩ => ⟨S4x16x1024x64, .f32⟩
  | .hbm, ⟨45, _⟩ => ⟨S4x16x1024x1024, .f32⟩
  | .hbm, ⟨46, _⟩ => ⟨S_, .f32⟩
  | .hbm, ⟨47, _⟩ => ⟨S4x16x1024x1024, .f32⟩
  | .hbm, ⟨48, _⟩ => ⟨S4x16x1024x1024, .f32⟩
  | .hbm, ⟨49, _⟩ => ⟨S_, .f32⟩
  | .hbm, ⟨50, _⟩ => ⟨S4x16x1024, .f32⟩
  | .hbm, ⟨51, _⟩ => ⟨S_, .f32⟩
  | .hbm, ⟨52, _⟩ => ⟨S4x16x1024, .f32⟩
  | .hbm, ⟨53, _⟩ => ⟨S4x16x1024, .f32⟩
  | .hbm, ⟨54, _⟩ => ⟨S4x16x1024x1, .f32⟩
  | .hbm, ⟨55, _⟩ => ⟨S4x16x1024x1024, .f32⟩
  | .hbm, ⟨56, _⟩ => ⟨S4x16x1024x1024, .f32⟩
  | .hbm, ⟨57, _⟩ => ⟨S4x16x1024x1024, .f32⟩
  | .hbm, ⟨58, _⟩ => ⟨S_, .f32⟩
  | .hbm, ⟨59, _⟩ => ⟨S4x16x1024, .f32⟩
  | .hbm, ⟨60, _⟩ => ⟨S4x16x1024x1, .f32⟩
  | .hbm, ⟨61, _⟩ => ⟨S4x16x1024x1024, .f32⟩
  | .hbm, ⟨62, _⟩ => ⟨S4x16x1024x1024, .f32⟩
  | .hbm, ⟨63, _⟩ => ⟨S4x16x1024x64, .f32⟩
  | .hbm, ⟨64, _⟩ => ⟨S4x1024x16x64, .f32⟩
  | .hbm, ⟨65, _⟩ => ⟨S4x1024x1024, .f32⟩
  | .hbm, ⟨66, _⟩ => ⟨S4x1024x1024, .f32⟩
  | .hbm, ⟨67, _⟩ => ⟨S1x1x1024, .f32⟩
  | .hbm, ⟨68, _⟩ => ⟨S4x1024x1024, .f32⟩
  | .hbm, ⟨69, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S4x1024x64_S4x1x1024x64_0_2_3 : S4x1024x64.BroadcastsInDim S4x1x1024x64 (![0, 2, 3] : Fin 3 → Fin S4x1x1024x64.rank)
  bcast_S4x1x1024x64_S4x16x1024x64_0_1_2_3 : S4x1x1024x64.BroadcastsInDim S4x16x1024x64 (![0, 1, 2, 3] : Fin 4 → Fin S4x16x1024x64.rank)
  slices_S4x16x1024x64_S4x16x1024x32_0_0_0_0 : S4x16x1024x64.Slices ![0, 0, 0, 0] S4x16x1024x32
  slices_S4x16x1024x64_S4x16x1024x32_0_0_0_32 : S4x16x1024x64.Slices ![0, 0, 0, 32] S4x16x1024x32
  concatenates_S4x16x1024x32_S4x16x1024x32_S4x16x1024x64_d3 : Shape.Concatenates [S4x16x1024x32, S4x16x1024x32] S4x16x1024x64 3
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x1024x1024_S1024x1024_S4x1024x1024_2_1_01_0_n_n_wf : DotDims.WF S4x1024x1024 S1024x1024 S4x1024x1024 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.KernelRun.lean ====
/-
  The idealized kernel's run with its result named. Every weakly fair execution of the three launches (projections and
  rotation; attention on pairs of heads; output projection) after the host's four weight casts terminates without a
  fault; the argument arrays end as they were launched, and the result array ends at what the third launch's
  write-backs leave in it: the last of the buffer contents that the run folds through its four segments.
-/
import proofs.«169902_j90718299226613_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program from any memory with zero counters: it terminates, nothing faults, the result array
    holds the last boundary's contents and every argument array is as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.ResultRun

end
-- ==== Proof.Spec.lean ====
/-
  Rotary multi-head self-attention for ONE batch entry: 1024 tokens with 1024 features (16 heads of 64 features each),
  written index by index on the extended reals, as one function of the argument arrays. (The batch index is carried
  along untouched by every step, so the four batch entries are four copies of what is written here.)

  A token's features are projected three ways (queries and values with a bias, keys without); queries and keys are
  rotated inside every head (feature `e` of a head is paired with feature `e ± 32` of the same head, the lower half
  taking the negated partner) by the per-token angles' cosines and sines; a head scores query token `i` against key
  token `k` by the dot product over the head's 64 features, scaled by 1/8; a row of scores becomes weights
  `exp (s − max s)`; the head's output for a token is the weighted combination of the value rows DIVIDED by the sum of
  the weights; a last projection with a bias gives the result.

  The division can be taken after the weighted sum (`…After`) or weight by weight before it (`…Before`): the two
  orders are the only place where the two programs compared here differ arithmetically.
-/
import Idealize.ShloMosaic.PureOps.Ideal
import Idealize.ShloMosaic.PureOps.Ideal.Laws
import Idealize.ShloMosaic.Lib.ValueIdx

noncomputable section

namespace RotaryAttention

open Idealize.ShloMosaic Idealize.ShloMosaic.ValueIdx

/-- [token, feature] of one batch entry -/
abbrev Tok := Fin 1024 → Fin 1024 → EReal
/-- [token, feature inside a head]: the rotation's cosines or sines; also ONE head's 64 features of every token -/
abbrev Ang := Fin 1024 → Fin 64 → EReal
/-- [output feature, input feature] -/
abbrev Mat := Fin 1024 → Fin 1024 → EReal
abbrev Row := Fin 1024 → EReal
/-- [token, feature inside a pair of heads]: two adjacent heads side by side, 128 features -/
abbrev Pair := Fin 1024 → Fin 128 → EReal
/-- [pair of heads, token, feature inside the pair] -/
abbrev Packed := Fin 8 → Pair

/-- The score scale 1/8, as both programs spell it. -/
def eighth : EReal := Ideal.ofBits .f32 0x3E000000#32
/-- −∞, where a row maximum starts, as both programs spell it. -/
def negInf : EReal := Ideal.ofBits .f32 0xFF800000#32

/-! ## Projections and the rotation -/

/-- `x · wᵀ`: output feature `e` of a token is the dot product of its features with row `e` of `w`. -/
def proj (x : Tok) (w : Mat) : Tok := fun n e => ∑ d : Fin 1024, x n d * w e d

def addBias (x : Tok) (β : Row) : Tok := fun n e => x n e + β e

/-- Feature `e`'s position inside its head. -/
def lane (e : Fin 1024) : Fin 64 := ⟨e.val % 64, Nat.mod_lt _ (by norm_num)⟩
/-- Feature `e`'s head. -/
def head (e : Fin 1024) : Fin 16 := ⟨e.val / 64, by have := e.isLt; omega⟩
/-- Feature `j` of head `h`. -/
def feat (h : Fin 16) (j : Fin 64) : Fin 1024 := ⟨64 * h.val + j.val, by have := h.isLt; have := j.isLt; omega⟩

/-- The rotation's partner of feature `e`: in the lower half of a head the NEGATED feature 32 places up, in the upper
    half the feature 32 places down. -/
def rotHalf (x : Tok) : Tok := fun n e =>
  if h : e.val % 64 < 32 then -(x n ⟨e.val + 32, by have := e.isLt; omega⟩)
  else x n ⟨e.val - 32, by have := e.isLt; omega⟩

/-- Rotary embedding: `x · cos + rotate_half x · sin`, the angle that of the token and of the feature's place in its head. -/
def rope (x : Tok) (cs sn : Ang) : Tok := fun n e => x n e * cs n (lane e) + rotHalf x n e * sn n (lane e)

/-- The rotated queries, the rotated keys, and the values. -/
def queries (x : Tok) (cs sn : Ang) (wq : Mat) (bq : Row) : Tok := rope (addBias (proj x wq) bq) cs sn
def keys (x : Tok) (cs sn : Ang) (wk : Mat) : Tok := rope (proj x wk) cs sn
def values (x : Tok) (wv : Mat) (bv : Row) : Tok := addBias (proj x wv) bv

/-! ## One head: `qh`, `kh` its 64 query and key features of every token, `vc` ONE value feature of every token -/

/-- The scaled score of query token `i` against key token `k`. -/
def score (qh kh : Ang) (i k : Fin 1024) : EReal := (∑ j : Fin 64, qh i j * kh k j) * eighth

/-- The largest score of query token `i` (a fold of `max` from −∞ over the key tokens). -/
def rowMax (qh kh : Ang) (i : Fin 1024) : EReal :=
  (Finset.univ : Finset (Fin 1024)).fold max negInf (fun k => score qh kh i k)

/-- The unnormalised softmax weight `exp (s − max s)`. -/
def weight (qh kh : Ang) (i k : Fin 1024) : EReal := Ideal.exp (score qh kh i k - rowMax qh kh i)

/-- The sum of a row's weights. -/
def denom (qh kh : Ang) (i : Fin 1024) : EReal := ∑ k : Fin 1024, weight qh kh i k

/-- One output feature of the head for token `i`, dividing AFTER the weighted sum of the value feature. -/
def headAfter (qh kh : Ang) (vc : Row) (i : Fin 1024) : EReal :=
  Ideal.div (∑ k : Fin 1024, weight qh kh i k * vc k) (denom qh kh i)

/-- The same, dividing every weight BEFORE the weighted sum (softmax, then the combination). -/
def headBefore (qh kh : Ang) (vc : Row) (i : Fin 1024) : EReal :=
  ∑ k : Fin 1024, Ideal.div (weight qh kh i k) (denom qh kh i) * vc k

/-! ## All sixteen heads, and the layer -/

/-- Head `h`'s 64 features of every token. -/
def headOf (x : Tok) (h : Fin 16) : Ang := fun n j => x n (feat h j)

def attnAfter (q k v : Tok) : Tok := fun i e => headAfter (headOf q (head e)) (headOf k (head e)) (fun kk => v kk e) i
def attnBefore (q k v : Tok) : Tok := fun i e => headBefore (headOf q (head e)) (headOf k (head e)) (fun kk => v kk e) i

def layerAfter (x : Tok) (cs sn : Ang) (wq : Mat) (bq : Row) (wk wv : Mat) (bv : Row) (wo : Mat) (bo : Row) : Tok :=
  addBias (proj (attnAfter (queries x cs sn wq bq) (keys x cs sn wk) (values x wv bv)) wo) bo

def layerBefore (x : Tok) (cs sn : Ang) (wq : Mat) (bq : Row) (wk wv : Mat) (bv : Row) (wo : Mat) (bo : Row) : Tok :=
  addBias (proj (attnBefore (queries x cs sn wq bq) (keys x cs sn wk) (values x wv bv)) wo) bo

/-! ## Two heads side by side -/

/-- Features `128 g … 128 g + 127` (heads `2 g` and `2 g + 1`) of every token, gathered per pair of heads. -/
def pack (x : Tok) : Packed := fun g n l => x n ⟨128 * g.val + l.val, by have := g.isLt; have := l.isLt; omega⟩

def unpack (p : Packed) : Tok := fun n e =>
  p ⟨e.val / 128, by have := e.isLt; omega⟩ n ⟨e.val % 128, Nat.mod_lt _ (by norm_num)⟩

theorem unpack_pack (x : Tok) : unpack (pack x) = x := by
  funext n e
  show x n ⟨128 * (e.val / 128) + e.val % 128, _⟩ = x n e
  congr 1
  exact Fin.ext (Nat.div_add_mod e.val 128)

/-- Inside a pair of heads, the 64 features of the head that feature `l` belongs to. -/
def halfOf (p : Pair) (l : Fin 128) : Ang := fun n j => p n ⟨64 * (l.val / 64) + j.val, by have := l.isLt; have := j.isLt; omega⟩

/-- Attention on one pair of heads, dividing after the weighted sum: output feature `l` of the pair for token `i`. -/
def pairAfter (qp kp vp : Pair) : Pair := fun i l => headAfter (halfOf qp l) (halfOf kp l) (fun kk => vp kk l) i

/-- The pair's attention is the layer's at the pair's features. -/
theorem pairAfter_pack (q k v : Tok) (g : Fin 8) : pairAfter (pack q g) (pack k g) (pack v g) = pack (attnAfter q k v) g := by
  funext i l
  have hg := g.isLt; have hl := l.isLt
  have hh : head ⟨128 * g.val + l.val, by omega⟩ = ⟨2 * g.val + l.val / 64, by omega⟩ := Fin.ext (by show (128 * g.val + l.val) / 64 = 2 * g.val + l.val / 64; omega)
  have hq : ∀ x : Tok, halfOf (pack x g) l = headOf x (head ⟨128 * g.val + l.val, by omega⟩) := by
    intro x; funext n j; rw [hh]
    show x n ⟨128 * g.val + (64 * (l.val / 64) + j.val), _⟩ = x n ⟨64 * (2 * g.val + l.val / 64) + j.val, _⟩
    congr 1; exact Fin.ext (by show 128 * g.val + (64 * (l.val / 64) + j.val) = 64 * (2 * g.val + l.val / 64) + j.val; omega)
  show headAfter (halfOf (pack q g) l) (halfOf (pack k g) l) (fun kk => pack v g kk l) i = _
  rw [hq q, hq k]; rfl

/-! ## Reading the programs' arrays by coordinates -/

/-- Batch entry `b` of a [4, 1024, 1024] array. -/
def tokOf (a : (⟨3, ![4, 1024, 1024]⟩ : Shape).Idx → EReal) (b : Fin 4) : Tok := fun n e => a (ix3 b n e)
/-- Batch entry `b` of a [4, 1024, 64] array. -/
def angOf (a : (⟨3, ![4, 1024, 64]⟩ : Shape).Idx → EReal) (b : Fin 4) : Ang := fun n j => a (ix3 b n j)
def matOf (a : (⟨2, ![1024, 1024]⟩ : Shape).Idx → EReal) : Mat := fun e d => a (ix2 e d)
def rowOf (a : (⟨1, ![1024]⟩ : Shape).Idx → EReal) : Row := fun e => a (ix1 e)
/-- Batch entry `b` of a [4, 8, 1024, 128] array. -/
def packedOf (a : (⟨4, ![4, 8, 1024, 128]⟩ : Shape).Idx → EReal) (b : Fin 4) : Packed := fun g n l => a (ix4 b g n l)

/-- A one-batch [1, 1024, 1024] block. -/
def blockTok (a : (⟨3, ![1, 1024, 1024]⟩ : Shape).Idx → EReal) : Tok := fun n e => a (ix3 0 n e)
/-- A one-batch [1, 1024, 64] block. -/
def blockAng (a : (⟨3, ![1, 1024, 64]⟩ : Shape).Idx → EReal) : Ang := fun n j => a (ix3 0 n j)
/-- A one-batch, one-pair [1, 1, 1024, 128] block. -/
def blockPair (a : (⟨4, ![1, 1, 1024, 128]⟩ : Shape).Idx → EReal) : Pair := fun n l => a (ix4 0 0 n l)

/-- The pairs' attention outputs laid back side by side along the features. -/
def attnOfPairs (qp kp vp : Packed) : Tok := unpack fun g => pairAfter (qp g) (kp g) (vp g)

theorem attnOfPairs_pack (q k v : Tok) : attnOfPairs (pack q) (pack k) (pack v) = attnAfter q k v := by
  unfold attnOfPairs
  rw [show (fun g => pairAfter (pack q g) (pack k g) (pack v g)) = pack (attnAfter q k v) from
    funext fun g => pairAfter_pack q k v g]
  exact unpack_pack _

end RotaryAttention

end
-- ==== Proof.LibSoftRow.lean ====
/-
  Soft alignment weights of one query against a finite family of keys, on the extended reals.

  For a real query `σ` and real keys `θ k` the weight of key `j` is

      w j = e^(-|σ - θ j|) / ∑ k, e^(-|σ - θ k|).

  Two ways of computing it on the extended reals are shown to give this real number when the inputs are real.

  * The factored form: `e^(-|σ - t|) = min (e^σ · e^(-t)) (e^(-σ) · e^t)`, because `e^σ · e^(-t) = e^(σ - t)`,
    `e^(-σ) · e^t = e^(-(σ - t))`, the exponential is monotone and `min x (-x) = -|x|`; the row is then divided by its sum.
  * The shifted softmax form: with `d k = max (σ - θ k) (-(σ - θ k)) = |σ - θ k|`, `M` the maximum of the `d k`,
    `x k = -d k - M`, `M'` the maximum of the `x k`, the weight is `e^(x j - M') / (0 + ∑ k, e^(x k - M'))`.
    Both maxima are maxima of finitely many (and at least one) reals, hence real, so `x k - M' = -d k + c` with one real
    `c = -M - M'` for the whole row, `e^(-d k + c) = e^(-d k) · e^c`, and the positive factor `e^c` cancels in the quotient.

  On the extended reals themselves neither identity holds at infinities (`e^⊤ · e^(-⊤)` is `⊤ · 0 = 0`, while
  `e^(-|⊤ - ⊤|)` is `e^(-⊥)`): that every input is real is what is used.
-/
import Idealize.ShloMosaic.PureOps.Ideal

noncomputable section

open scoped BigOperators

namespace Cert.LibSoftRow

open Idealize.ShloMosaic

variable {ι : Type} [Fintype ι]

/-- The image of a finite sum of reals is the sum of the images. -/
theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The embedding of the reals is monotone, so it commutes with `max` and `min`. -/
theorem coe_max (x y : ℝ) : ((max x y : ℝ) : EReal) = max (x : EReal) (y : EReal) :=
  EReal.coe_strictMono.monotone.map_max
theorem coe_min (x y : ℝ) : ((min x y : ℝ) : EReal) = min (x : EReal) (y : EReal) :=
  EReal.coe_strictMono.monotone.map_min

/-- The maximum, taken from `-∞`, of a nonempty finite family of reals is a real. -/
theorem fold_max_bot_coe [Nonempty ι] (r : ι → ℝ) :
    ∃ M : ℝ, (Finset.univ : Finset ι).fold max (⊥ : EReal) (fun k => (r k : EReal)) = (M : EReal) := by
  classical
  have key : ∀ s : Finset ι, s.Nonempty →
      ∃ M : ℝ, s.fold max (⊥ : EReal) (fun k => (r k : EReal)) = (M : EReal) := by
    intro s hs
    induction hs using Finset.Nonempty.cons_induction with
    | singleton a => exact ⟨r a, by rw [Finset.fold_singleton]; exact max_eq_left bot_le⟩
    | cons a s ha hs ih =>
      obtain ⟨M, hM⟩ := ih
      exact ⟨max (r a) M, by rw [Finset.fold_cons, hM, coe_max]⟩
  exact key _ Finset.univ_nonempty

/-- The weight of key `j`: `e^(-|σ - θ j|)` over the sum of the row. -/
def soft (σ : ℝ) (θ : ι → ℝ) (j : ι) : ℝ := Real.exp (-|σ - θ j|) / ∑ k, Real.exp (-|σ - θ k|)

theorem sum_exp_pos [Nonempty ι] (f : ι → ℝ) : 0 < ∑ k, Real.exp (f k) :=
  Finset.sum_pos (fun k _ => Real.exp_pos _) Finset.univ_nonempty

/-! ## The factored form -/

/-- `min (e^a · e^(0 - t)) (e^(0 - a) · e^t)`: the unnormalised weight in factored form. -/
def kerTerm (a t : EReal) : EReal := min (Ideal.exp a * Ideal.exp (0 - t)) (Ideal.exp (0 - a) * Ideal.exp t)

/-- The factored form divided by the sum of its row. -/
def kerRow (a : EReal) (τ : ι → EReal) (j : ι) : EReal := Ideal.div (kerTerm a (τ j)) (∑ k, kerTerm a (τ k))

/-- On the reals `min (e^x) (e^(-x)) = e^(-|x|)`. -/
theorem min_exp_exp_neg (x : ℝ) : min (Real.exp x) (Real.exp (-x)) = Real.exp (-|x|) := by
  rcases le_total 0 x with h | h
  · rw [abs_of_nonneg h, min_eq_right (Real.exp_le_exp.mpr (by linarith))]
  · rw [abs_of_nonpos h, neg_neg, min_eq_left (Real.exp_le_exp.mpr (by linarith))]

theorem kerTerm_coe (σ t : ℝ) : kerTerm (σ : EReal) (t : EReal) = ((Real.exp (-|σ - t|) : ℝ) : EReal) := by
  unfold kerTerm
  rw [zero_sub, zero_sub, ← EReal.coe_neg, ← EReal.coe_neg, Ideal.exp_coe, Ideal.exp_coe, Ideal.exp_coe, Ideal.exp_coe,
    ← EReal.coe_mul, ← EReal.coe_mul, ← coe_min, ← Real.exp_add, ← Real.exp_add,
    show σ + -t = σ - t by ring, show -σ + t = -(σ - t) by ring, min_exp_exp_neg]

/-- The ratio of two reals, the divisor not zero, on the extended reals. -/
theorem div_coe_coe (x y : ℝ) (hy : y ≠ 0) : Ideal.div (x : EReal) (y : EReal) = ((x / y : ℝ) : EReal) := by
  rw [Ideal.div_coe hy, ← EReal.coe_mul, mul_one_div]

theorem kerRow_coe [Nonempty ι] (σ : ℝ) (θ : ι → ℝ) (j : ι) :
    kerRow (σ : EReal) (fun k => (θ k : EReal)) j = ((soft σ θ j : ℝ) : EReal) := by
  unfold kerRow soft
  simp only [kerTerm_coe]
  rw [← coe_sum, div_coe_coe _ _ (sum_exp_pos _).ne']

/-! ## The shifted softmax form -/

/-- `max (a - t) (-(a - t))`: the distance. -/
def refDist (a t : EReal) : EReal := max (a - t) (-(a - t))

/-- Minus the distance, minus the row's largest distance. -/
def refShift (a : EReal) (τ : ι → EReal) (j : ι) : EReal :=
  -(refDist a (τ j)) - Finset.univ.fold max ⊥ (fun k => refDist a (τ k))

/-- The exponential of the shifted value less the row's largest shifted value. -/
def refExp (a : EReal) (τ : ι → EReal) (j : ι) : EReal :=
  Ideal.exp (refShift a τ j - max ⊥ (Finset.univ.fold max ⊥ (fun k => refShift a τ k)))

/-- The shifted softmax form: that exponential over zero plus the sum of its row. -/
def refRow (a : EReal) (τ : ι → EReal) (j : ι) : EReal := Ideal.div (refExp a τ j) (0 + ∑ k, refExp a τ k)

theorem refDist_coe (σ t : ℝ) : refDist (σ : EReal) (t : EReal) = ((|σ - t| : ℝ) : EReal) := by
  unfold refDist
  rw [← EReal.coe_sub, ← EReal.coe_neg, ← coe_max, abs_eq_max_neg]

theorem refRow_coe [Nonempty ι] (σ : ℝ) (θ : ι → ℝ) (j : ι) :
    refRow (σ : EReal) (fun k => (θ k : EReal)) j = ((soft σ θ j : ℝ) : EReal) := by
  obtain ⟨M, hM⟩ := fold_max_bot_coe (fun k => |σ - θ k|)
  have hshift : ∀ k, refShift (σ : EReal) (fun k => (θ k : EReal)) k = ((-|σ - θ k| - M : ℝ) : EReal) := by
    intro k
    unfold refShift
    simp only [refDist_coe]
    rw [hM, ← EReal.coe_neg, ← EReal.coe_sub]
  obtain ⟨M', hM'⟩ := fold_max_bot_coe (fun k => -|σ - θ k| - M)
  have hexp : ∀ k, refExp (σ : EReal) (fun k => (θ k : EReal)) k
      = ((Real.exp (-|σ - θ k|) * Real.exp (-M - M') : ℝ) : EReal) := by
    intro k
    unfold refExp
    simp only [hshift]
    rw [hM', max_eq_right bot_le, ← EReal.coe_sub, Ideal.exp_coe, ← Real.exp_add]
    congr 2
    ring
  unfold refRow soft
  simp only [hexp]
  rw [zero_add, ← coe_sum, ← Finset.sum_mul,
    div_coe_coe _ _ (mul_pos (sum_exp_pos _) (Real.exp_pos _)).ne',
    mul_div_mul_right _ _ (Real.exp_pos _).ne']

end Cert.LibSoftRow

end
-- ==== Proof.RealEntries.lean ====
/-
  Real inputs give real intermediate values.

  An extended real is called real here when it is the image of a real number. The sum and the product of two reals,
  the negation of a real, and a finite sum of reals are real (the embedding of the reals carries +, *, - and finite
  sums to the same operations on the extended reals).

  Consequently, when the tokens, the cosines and sines of the angles, the weight matrices and the biases are real:
  a projected entry is a finite sum of products of reals, a biased entry adds a real to it, the rotation's partner is
  an entry or a negated entry, and a rotated entry is a sum of two products of such entries with a cosine and a sine.
  So every entry of the queries, of the keys and of the values is real, and so are the 64 features of any one head.
-/
import proofs.«169902_j90718299226613_2_alg».proof.Proof.Spec
import proofs.«169902_j90718299226613_2_alg».proof.Proof.LibSoftRow

noncomputable section

open scoped BigOperators

namespace RotaryAttention

open Idealize.ShloMosaic Cert.LibSoftRow

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_neg {a : EReal} (ha : ∃ r : ℝ, a = (r : EReal)) : ∃ r : ℝ, -a = (r : EReal) := by
  obtain ⟨r, rfl⟩ := ha
  exact ⟨-r, (EReal.coe_neg r).symm⟩

/-- A finite sum of reals is real: choose the real behind every term and sum those. -/
theorem real_sum {ι : Type} [Fintype ι] (f : ι → EReal) (hf : ∀ i, ∃ r : ℝ, f i = (r : EReal)) :
    ∃ r : ℝ, ∑ i, f i = (r : EReal) := by
  choose g hg using hf
  refine ⟨∑ i, g i, ?_⟩
  rw [coe_sum]
  exact Finset.sum_congr rfl (fun i _ => hg i)

theorem proj_real (x : Tok) (w : Mat) (hx : ∀ n d, ∃ r : ℝ, x n d = (r : EReal))
    (hw : ∀ e d, ∃ r : ℝ, w e d = (r : EReal)) (n e : Fin 1024) : ∃ r : ℝ, proj x w n e = (r : EReal) := by
  unfold proj
  exact real_sum _ (fun d => real_mul (hx n d) (hw e d))

theorem addBias_real (x : Tok) (β : Row) (hx : ∀ n e, ∃ r : ℝ, x n e = (r : EReal))
    (hβ : ∀ e, ∃ r : ℝ, β e = (r : EReal)) (n e : Fin 1024) : ∃ r : ℝ, addBias x β n e = (r : EReal) := by
  unfold addBias
  exact real_add (hx n e) (hβ e)

theorem rotHalf_real (x : Tok) (hx : ∀ n e, ∃ r : ℝ, x n e = (r : EReal)) (n e : Fin 1024) :
    ∃ r : ℝ, rotHalf x n e = (r : EReal) := by
  unfold rotHalf
  split_ifs
  · exact real_neg (hx _ _)
  · exact hx _ _

theorem rope_real (x : Tok) (cs sn : Ang) (hx : ∀ n e, ∃ r : ℝ, x n e = (r : EReal))
    (hcs : ∀ n j, ∃ r : ℝ, cs n j = (r : EReal)) (hsn : ∀ n j, ∃ r : ℝ, sn n j = (r : EReal)) (n e : Fin 1024) :
    ∃ r : ℝ, rope x cs sn n e = (r : EReal) := by
  unfold rope
  exact real_add (real_mul (hx n e) (hcs n _)) (real_mul (rotHalf_real x hx n e) (hsn n _))

theorem queries_real (x : Tok) (cs sn : Ang) (wq : Mat) (bq : Row) (hx : ∀ n e, ∃ r : ℝ, x n e = (r : EReal))
    (hcs : ∀ n j, ∃ r : ℝ, cs n j = (r : EReal)) (hsn : ∀ n j, ∃ r : ℝ, sn n j = (r : EReal))
    (hwq : ∀ e d, ∃ r : ℝ, wq e d = (r : EReal)) (hbq : ∀ e, ∃ r : ℝ, bq e = (r : EReal)) (n e : Fin 1024) :
    ∃ r : ℝ, queries x cs sn wq bq n e = (r : EReal) := by
  unfold queries
  exact rope_real _ cs sn (addBias_real _ bq (proj_real x wq hx hwq) hbq) hcs hsn n e

theorem keys_real (x : Tok) (cs sn : Ang) (wk : Mat) (hx : ∀ n e, ∃ r : ℝ, x n e = (r : EReal))
    (hcs : ∀ n j, ∃ r : ℝ, cs n j = (r : EReal)) (hsn : ∀ n j, ∃ r : ℝ, sn n j = (r : EReal))
    (hwk : ∀ e d, ∃ r : ℝ, wk e d = (r : EReal)) (n e : Fin 1024) :
    ∃ r : ℝ, keys x cs sn wk n e = (r : EReal) := by
  unfold keys
  exact rope_real _ cs sn (proj_real x wk hx hwk) hcs hsn n e

theorem values_real (x : Tok) (wv : Mat) (bv : Row) (hx : ∀ n e, ∃ r : ℝ, x n e = (r : EReal))
    (hwv : ∀ e d, ∃ r : ℝ, wv e d = (r : EReal)) (hbv : ∀ e, ∃ r : ℝ, bv e = (r : EReal)) (n e : Fin 1024) :
    ∃ r : ℝ, values x wv bv n e = (r : EReal) := by
  unfold values
  exact addBias_real _ bv (proj_real x wv hx hwv) hbv n e

/-- The 64 features of one head are entries of the whole array. -/
theorem headOf_real (x : Tok) (hx : ∀ n e, ∃ r : ℝ, x n e = (r : EReal)) (h : Fin 16) (n : Fin 1024) (j : Fin 64) :
    ∃ r : ℝ, headOf x h n j = (r : EReal) :=
  hx n (feat h j)

end RotaryAttention

end
-- ==== Proof.DivideOrder.lean ====
/-
  Dividing after the weighted sum equals dividing every weight before it, when everything is real.

  Fix one head and one query token. With real queries and keys every score is real: a finite sum of products of
  reals, times the scale, which is the real 1/8. The row's maximum is a maximum, started from the least extended
  real, of 1024 reals, hence a real M. A weight is the exponential of the real s k - M, a positive real p k, and the
  denominator D is the sum of 1024 positive reals, positive and in particular not zero.

  With the value feature real as well, both orders of division are computations in the reals:

      (∑ k, p k * v k) / D = ∑ k, (p k * v k) / D = ∑ k, (p k / D) * v k,

  the first step distributing the division over the finite sum and the second moving the divisor inside a product.
  (On the extended reals themselves the law fails: with D = ⊤ or D = 0 the two sides differ. That the denominator
  is a nonzero real is what is used.)

  The layer: real tokens, angles, weights and biases make the queries, keys and values real entry by entry, so the
  law holds for every head, token and value feature; the two layers apply the same last projection and bias to
  attention outputs that are then equal.
-/
import proofs.«169902_j90718299226613_2_alg».proof.Proof.Spec
import proofs.«169902_j90718299226613_2_alg».proof.Proof.LibSoftRow
import proofs.«169902_j90718299226613_2_alg».proof.Proof.RealEntries

noncomputable section

open scoped BigOperators

namespace RotaryAttention

open Idealize.ShloMosaic Cert.LibSoftRow

/-- The word a row maximum starts from is the least extended real. -/
theorem negInf_eq_bot : negInf = ⊥ := by
  simp [negInf, Ideal.ofBits, Ideal.ieee]

/-- The score scale is a real number (it is 1/8). -/
theorem eighth_real : ∃ r : ℝ, eighth = (r : EReal) := by
  refine ⟨1 / 8, ?_⟩
  simp [eighth, Ideal.ofBits, Ideal.ieee, -EReal.coe_mul]
  norm_num

/-- A score of real queries against real keys is real. -/
theorem score_real (qh kh : Ang) (hq : ∀ n j, ∃ r : ℝ, qh n j = (r : EReal))
    (hk : ∀ n j, ∃ r : ℝ, kh n j = (r : EReal)) (i k : Fin 1024) : ∃ r : ℝ, score qh kh i k = (r : EReal) := by
  unfold score
  exact real_mul (real_sum _ (fun j => real_mul (hq i j) (hk k j))) eighth_real

/-- The law in the reals, read on the extended reals: real weights, real values, a real divisor that is not zero. -/
theorem div_sum_coe {ι : Type} [Fintype ι] (p v : ι → ℝ) (d : ℝ) (hd : d ≠ 0) :
    Ideal.div (∑ k, (p k : EReal) * (v k : EReal)) (d : EReal)
      = ∑ k, Ideal.div (p k : EReal) (d : EReal) * (v k : EReal) := by
  have hl : (∑ k, (p k : EReal) * (v k : EReal)) = ((∑ k, p k * v k : ℝ) : EReal) := by
    rw [coe_sum]
    exact Finset.sum_congr rfl (fun k _ => (EReal.coe_mul _ _).symm)
  have hr : (∑ k, Ideal.div (p k : EReal) (d : EReal) * (v k : EReal)) = ((∑ k, p k / d * v k : ℝ) : EReal) := by
    rw [coe_sum]
    exact Finset.sum_congr rfl (fun k _ => by rw [div_coe_coe _ _ hd, ← EReal.coe_mul])
  rw [hl, hr, div_coe_coe _ _ hd, Finset.sum_div]
  congr 1
  exact Finset.sum_congr rfl (fun k _ => (div_mul_eq_mul_div _ _ _).symm)

theorem head_divide_order (qh kh : Ang) (vc : Row) (hq : ∀ n j, ∃ r : ℝ, qh n j = (r : EReal))
    (hk : ∀ n j, ∃ r : ℝ, kh n j = (r : EReal)) (hv : ∀ k, ∃ r : ℝ, vc k = (r : EReal)) (i : Fin 1024) :
    headAfter qh kh vc i = headBefore qh kh vc i := by
  choose v hv using hv
  choose s hs using fun k => score_real qh kh hq hk i k
  obtain ⟨M, hM⟩ := fold_max_bot_coe s
  have hmax : rowMax qh kh i = (M : EReal) := by
    unfold rowMax
    rw [negInf_eq_bot, show (fun k => score qh kh i k) = fun k => (s k : EReal) from funext hs]
    exact hM
  have hw : ∀ k, weight qh kh i k = ((Real.exp (s k - M) : ℝ) : EReal) := by
    intro k
    unfold weight
    rw [hs, hmax, ← EReal.coe_sub, Ideal.exp_coe]
  have hd : denom qh kh i = ((∑ k, Real.exp (s k - M) : ℝ) : EReal) := by
    unfold denom
    rw [coe_sum]
    exact Finset.sum_congr rfl (fun k _ => hw k)
  unfold headAfter headBefore
  rw [hd, show (fun k => weight qh kh i k * vc k) = fun k => ((Real.exp (s k - M) : ℝ) : EReal) * (v k : EReal) from
      funext fun k => by rw [hw, hv],
    show (fun k => Ideal.div (weight qh kh i k) ((∑ k, Real.exp (s k - M) : ℝ) : EReal) * vc k)
        = fun k => Ideal.div ((Real.exp (s k - M) : ℝ) : EReal) ((∑ k, Real.exp (s k - M) : ℝ) : EReal) * (v k : EReal) from
      funext fun k => by rw [hw, hv]]
  exact div_sum_coe _ _ _ (sum_exp_pos _).ne'

theorem layer_divide_order (x : Tok) (cs sn : Ang) (wq : Mat) (bq : Row) (wk wv : Mat) (bv : Row) (wo : Mat) (bo : Row)
    (hx : ∀ n e, ∃ r : ℝ, x n e = (r : EReal)) (hcs : ∀ n j, ∃ r : ℝ, cs n j = (r : EReal))
    (hsn : ∀ n j, ∃ r : ℝ, sn n j = (r : EReal))
    (hwq : ∀ e d, ∃ r : ℝ, wq e d = (r : EReal)) (hbq : ∀ e, ∃ r : ℝ, bq e = (r : EReal))
    (hwk : ∀ e d, ∃ r : ℝ, wk e d = (r : EReal))
    (hwv : ∀ e d, ∃ r : ℝ, wv e d = (r : EReal)) (hbv : ∀ e, ∃ r : ℝ, bv e = (r : EReal)) :
    layerAfter x cs sn wq bq wk wv bv wo bo = layerBefore x cs sn wq bq wk wv bv wo bo := by
  have hQ := queries_real x cs sn wq bq hx hcs hsn hwq hbq
  have hK := keys_real x cs sn wk hx hcs hsn hwk
  have hV := values_real x wv bv hx hwv hbv
  have h : attnAfter (queries x cs sn wq bq) (keys x cs sn wk) (values x wv bv)
      = attnBefore (queries x cs sn wq bq) (keys x cs sn wk) (values x wv bv) := by
    funext i e
    show headAfter (headOf (queries x cs sn wq bq) (head e)) (headOf (keys x cs sn wk) (head e))
        (fun kk => values x wv bv kk e) i
      = headBefore (headOf (queries x cs sn wq bq) (head e)) (headOf (keys x cs sn wk) (head e))
        (fun kk => values x wv bv kk e) i
    exact head_divide_order _ _ _ (headOf_real _ hQ (head e)) (headOf_real _ hK (head e)) (fun kk => hV kk e) i
  unfold layerAfter layerBefore
  rw [h]

end RotaryAttention

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.RopePiece.lean ====
/-
  The rotary embedding of one pair of heads, computed on blocks of 1024 tokens by 64 features and stored as a
  [1, 1, 1024, 128] piece, read at one entry.

  A head's 64 features of every token sit in a block a. The rotation of the block is a * cos + r * sin, taken entry by
  entry, where r is the block with its two halves of 32 features exchanged and the half that moves to the front
  negated: column j of r is 0 − a[j + 32] for j below 32 and a[j − 32] from 32 on. Two rotated blocks — two adjacent
  heads — are laid side by side into 128 features, the format is narrowed (the identity on the extended reals) and two
  unit axes are put in front (a shape cast keeps row-major positions, so entry (0, 0, n, l) is entry (n, l)).

  If the two blocks are columns o … o + 63 and o + 64 … o + 127 of a token array P, with o a multiple of 128, and the
  cosine and sine blocks are the per-token angles' tables, then entry (n, l) of the piece is the rotary embedding of P
  at token n, feature o + l: the feature's place inside its head is l mod 64, its partner is 32 features up (negated)
  in the lower half of the head and 32 features down in the upper half, and 0 − x = −x.
-/
import Idealize.ShloMosaic.Lib.Pipeline.Value
import Idealize.ShloMosaic.Lib.ValueIdx
import Idealize.ShloMosaic.Lib.ValueLayout
import Idealize.ShloMosaic.PureOps.Ideal.Laws
import proofs.«169902_j90718299226613_2_alg».proof.Proof.Spec
import proofs.«169902_j90718299226613_2_alg».proof.Proof.LibSideBySide

noncomputable section

namespace Cert.RopePiece

open Idealize.ShloMosaic Idealize.ShloMosaic.ValueIdx RotaryAttention

/-- One head's rotation on a 1024 × 64 block a, with the cosines c4 and the sines c6 as blocks of the same shape:
    a * c4 + (the halves of a exchanged, the front one negated as 0 − ·) * c6. -/
abbrev rot (c4 c6 a : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1) :
    FVec Ideal ⟨2, ![1024, 64]⟩ .f32 :=
  addf (mulf a c4) (mulf (concatenate ⟨2, ![1024, 64]⟩ 1
    [⟨⟨2, ![1024, 32]⟩, subf (broadcast ⟨2, ![1024, 32]⟩ (Scalar.ofBits .f32 0x00000000#32))
        (extractStridedSlice ⟨2, ![1024, 32]⟩ ![0, 32] a hhi)⟩,
     ⟨⟨2, ![1024, 32]⟩, extractStridedSlice ⟨2, ![1024, 32]⟩ ![0, 0] a hlo⟩] hc) c6)

/-- The stored piece: two rotated blocks side by side, narrowed, with two unit axes in front. -/
abbrev piece (c4 c6 a0 a1 : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1)
    (hcc : Shape.Concatenates [(⟨2, ![1024, 64]⟩ : Shape), ⟨2, ![1024, 64]⟩] ⟨2, ![1024, 128]⟩ 1)
    (hb : FTy.bits .bf16 < FTy.bits .f32)
    (hsc : (⟨2, ![1024, 128]⟩ : Shape).ShapeCasts ⟨4, ![1, 1, 1024, 128]⟩) :
    FVec Ideal ⟨4, ![1, 1, 1024, 128]⟩ .bf16 :=
  shapeCast ⟨4, ![1, 1, 1024, 128]⟩ (truncf .bf16 (concatenate ⟨2, ![1024, 128]⟩ 1
    [⟨⟨2, ![1024, 64]⟩, rot c4 c6 a0 hlo hhi hc⟩, ⟨⟨2, ![1024, 64]⟩, rot c4 c6 a1 hlo hhi hc⟩] hcc) hb) hsc

/-- The exchanged block at column j below 32: the negated column j + 32. -/
theorem swapped_low (a : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1)
    (n : Fin 1024) (j : Fin 64) (hj : j.val < 32) (k : Fin 64) (hk : k.val = j.val + 32) :
    concatenate ⟨2, ![1024, 64]⟩ 1
      [⟨⟨2, ![1024, 32]⟩, subf (broadcast ⟨2, ![1024, 32]⟩ (Scalar.ofBits .f32 0x00000000#32))
          (extractStridedSlice ⟨2, ![1024, 32]⟩ ![0, 32] a hhi)⟩,
       ⟨⟨2, ![1024, 32]⟩, extractStridedSlice ⟨2, ![1024, 32]⟩ ![0, 0] a hlo⟩] hc (ix2 n j)
      = -(a (ix2 n k)) := by
  rw [Cert.LibSideBySide.pair_cols_left _ _ hc n (⟨j.val, hj⟩ : Fin 32) j rfl]
  show Ideal.ofBits .f32 0x00000000#32 - extractStridedSlice ⟨2, ![1024, 32]⟩ ![0, 32] a hhi (ix2 n (⟨j.val, hj⟩ : Fin 32)) = _
  rw [Ideal.ofBits_zero_f32, zero_sub, slice2_axis1_apply 32 a hhi n (⟨j.val, hj⟩ : Fin 32) k (by rw [hk]; exact Nat.add_comm _ _)]

/-- The exchanged block at column j from 32 on: column j − 32. -/
theorem swapped_high (a : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1)
    (n : Fin 1024) (j : Fin 64) (hj : 32 ≤ j.val) (k : Fin 64) (hk : k.val = j.val - 32) :
    concatenate ⟨2, ![1024, 64]⟩ 1
      [⟨⟨2, ![1024, 32]⟩, subf (broadcast ⟨2, ![1024, 32]⟩ (Scalar.ofBits .f32 0x00000000#32))
          (extractStridedSlice ⟨2, ![1024, 32]⟩ ![0, 32] a hhi)⟩,
       ⟨⟨2, ![1024, 32]⟩, extractStridedSlice ⟨2, ![1024, 32]⟩ ![0, 0] a hlo⟩] hc (ix2 n j)
      = a (ix2 n k) := by
  have hj' : j.val - 32 < 32 := by have := j.isLt; omega
  rw [Cert.LibSideBySide.pair_cols_right _ _ hc n (⟨j.val - 32, hj'⟩ : Fin 32) j (by show j.val = 32 + (j.val - 32); omega)]
  exact slice2_axis1_apply 0 a hlo n (⟨j.val - 32, hj'⟩ : Fin 32) k (by rw [hk]; exact (Nat.zero_add _).symm)

/-- A rotated block at an entry: if the block is columns o' … o' + 63 of P, o' a multiple of 64, entry (n, j) is the
    rotary embedding of P at token n, feature o' + j. -/
theorem rot_apply (c4 c6 a : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1)
    (P : Tok) (cs sn : Ang) (o' : ℕ) (ho' : o' % 64 = 0)
    (ha : ∀ (n : Fin 1024) (j : Fin 64) (e : Fin 1024), e.val = o' + j.val → a (ix2 n j) = P n e)
    (hcs : ∀ (n : Fin 1024) (j : Fin 64), c4 (ix2 n j) = cs n j)
    (hsn : ∀ (n : Fin 1024) (j : Fin 64), c6 (ix2 n j) = sn n j)
    (n : Fin 1024) (j : Fin 64) (e : Fin 1024) (he : e.val = o' + j.val) :
    rot c4 c6 a hlo hhi hc (ix2 n j) = rope P cs sn n e := by
  have hj := j.isLt
  have hel := e.isLt
  have hlane : lane e = j := Fin.ext (by show e.val % 64 = j.val; omega)
  show a (ix2 n j) * c4 (ix2 n j) + concatenate ⟨2, ![1024, 64]⟩ 1
      [⟨⟨2, ![1024, 32]⟩, subf (broadcast ⟨2, ![1024, 32]⟩ (Scalar.ofBits .f32 0x00000000#32))
          (extractStridedSlice ⟨2, ![1024, 32]⟩ ![0, 32] a hhi)⟩,
       ⟨⟨2, ![1024, 32]⟩, extractStridedSlice ⟨2, ![1024, 32]⟩ ![0, 0] a hlo⟩] hc (ix2 n j) * c6 (ix2 n j)
    = P n e * cs n (lane e) + rotHalf P n e * sn n (lane e)
  rw [hlane, hcs, hsn, ha n j e he]
  congr 2
  unfold rotHalf
  by_cases h : j.val < 32
  · have h' : e.val % 64 < 32 := by omega
    rw [dif_pos h', swapped_low a hlo hhi hc n j h ⟨j.val + 32, by omega⟩ rfl]
    rw [ha n ⟨j.val + 32, by omega⟩ ⟨e.val + 32, by omega⟩ (by show e.val + 32 = o' + (j.val + 32); omega)]
  · have h' : ¬ e.val % 64 < 32 := by omega
    rw [dif_neg h', swapped_high a hlo hhi hc n j (by omega) ⟨j.val - 32, by omega⟩ rfl]
    rw [ha n ⟨j.val - 32, by omega⟩ ⟨e.val - 32, by omega⟩ (by show e.val - 32 = o' + (j.val - 32); omega)]

/-- THE PIECE AT AN ENTRY. If the two blocks are columns o … o + 63 and o + 64 … o + 127 of P, o a multiple of 128, and
    the cosine and sine blocks are the tables cs and sn, then entry (0, 0, n, l) of the stored piece is the rotary
    embedding of P at token n, feature o + l. -/
theorem piece_apply (c4 c6 a0 a1 : FVec Ideal ⟨2, ![1024, 64]⟩ .f32)
    (hlo : (⟨2, ![1024, 64]⟩ : Shape).Slices ![0, 0] ⟨2, ![1024, 32]⟩)
    (hhi : (⟨2, ![1024, 64]⟩ : Shape).Slices ![0, 32] ⟨2, ![1024, 32]⟩)
    (hc : Shape.Concatenates [(⟨2, ![1024, 32]⟩ : Shape), ⟨2, ![1024, 32]⟩] ⟨2, ![1024, 64]⟩ 1)
    (hcc : Shape.Concatenates [(⟨2, ![1024, 64]⟩ : Shape), ⟨2, ![1024, 64]⟩] ⟨2, ![1024, 128]⟩ 1)
    (hb : FTy.bits .bf16 < FTy.bits .f32)
    (hsc : (⟨2, ![1024, 128]⟩ : Shape).ShapeCasts ⟨4, ![1, 1, 1024, 128]⟩)
    (P : Tok) (cs sn : Ang) (o : ℕ) (ho : o % 128 = 0)
    (h0 : ∀ (n : Fin 1024) (j : Fin 64) (e : Fin 1024), e.val = o + j.val → a0 (ix2 n j) = P n e)
    (h1 : ∀ (n : Fin 1024) (j : Fin 64) (e : Fin 1024), e.val = o + 64 + j.val → a1 (ix2 n j) = P n e)
    (hcs : ∀ (n : Fin 1024) (j : Fin 64), c4 (ix2 n j) = cs n j)
    (hsn : ∀ (n : Fin 1024) (j : Fin 64), c6 (ix2 n j) = sn n j)
    (n : Fin 1024) (l : Fin 128) (e : Fin 1024) (he : e.val = o + l.val) :
    piece c4 c6 a0 a1 hlo hhi hc hcc hb hsc (ix4 (0 : Fin 1) (0 : Fin 1) n l) = rope P cs sn n e := by
  have hl := l.isLt
  refine (shapeCast_apply _ hsc (ix4 (0 : Fin 1) (0 : Fin 1) n l) (ix2 n l) (by
    rw [Shape.rowMajor_val_two, Shape.rowMajor_val_four]
    show n.val * 128 + l.val = ((0 * 1 + 0) * 1024 + n.val) * 128 + l.val
    omega)).trans ?_
  show concatenate ⟨2, ![1024, 128]⟩ 1
    [⟨⟨2, ![1024, 64]⟩, rot c4 c6 a0 hlo hhi hc⟩, ⟨⟨2, ![1024, 64]⟩, rot c4 c6 a1 hlo hhi hc⟩] hcc (ix2 n l) = _
  by_cases h : l.val < 64
  · rw [Cert.LibSideBySide.pair_cols_left _ _ hcc n (⟨l.val, h⟩ : Fin 64) l rfl]
    exact rot_apply c4 c6 a0 hlo hhi hc P cs sn o (by omega) h0 hcs hsn n ⟨l.val, h⟩ e he
  · rw [Cert.LibSideBySide.pair_cols_right _ _ hcc n (⟨l.val - 64, by omega⟩ : Fin 64) l (by show l.val = 64 + (l.val - 64); omega)]
    exact rot_apply c4 c6 a1 hlo hhi hc P cs sn (o + 64) (by omega) h1 hcs hsn n ⟨l.val - 64, by omega⟩ e
      (by show e.val = o + 64 + (l.val - 64); omega)

end Cert.RopePiece

end
-- ==== Proof.LibTransposedMatmul.lean ====
/-
  A matrix product `[M, K] · [N, K]ᵀ` on the extended reals — both operands contracted on their LAST axis —
  accumulated into the zero matrix, read at the entry `(p, q)`: the sum over `k : Fin K` of `l (p, k) · r (q, k)`.

  The library states a `tpu.matmul` at an output index as a sum over the contraction shape's index set, with the
  operands read at `lhsIdx` / `rhsIdx`; for the dimension numbers `⟨[1], [1], [0], [0], [], []⟩` that index set is
  one axis of extent `K`, the left index is `(p, k)` and the right index is `(q, k)`. The statement takes any
  dimension record equal to `DotDims.transposedRhs M K N` (a record is determined by its six lists, so a printed one
  with these lists is equal to it by `rfl`).
-/
import Idealize.ShloMosaic.PureOps.Ideal.Laws
import Idealize.ShloMosaic.Lib.ValueIdx

noncomputable section

open scoped BigOperators

namespace Cert.LibTransposedMatmul

open Idealize.ShloMosaic Idealize.ShloMosaic.ValueIdx

/-- The left operand's index at output `(p, q)` and contraction coordinate `k` is `(p, k)`. -/
theorem transposedRhs_lhsIdx {M K N : ℕ} (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index there is `(q, k)`. -/
theorem transposedRhs_rhsIdx {M K N : ℕ} (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- `[M, K] · [N, K]ᵀ` into the zero accumulator, at `(p, q)`, is `∑ k, l (p, k) · r (q, k)`. -/
theorem matmul_transposedRhs_zero_apply {M K N : ℕ} {φ₁ φ₂ : FTy}
    (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (p : Fin M) (q : Fin N) :
    FloatOps.matmul D prec l r (constant ⟨2, ![M, N]⟩ .f32 0x00000000#32) (ix2 p q)
      = ∑ k : Fin K, l (ix2 p k) * r (ix2 q k) := by
  subst hD
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.LibTransposedMatmul

end
-- ==== Proof.QueryBlock.lean ====
/-
  The query block of the first kernel: what the kernel leaves in its first output window — eight stored pieces, one per
  pair of heads — read at an entry, is the rotated, biased query projection of the token block at that entry.

  Entry (0, g, n, l) of the window lies under exactly the piece stored at pair g (the pieces sit at offsets (0, k, 0, 0),
  k = 0 … 7, each of extent [1, 1, 1024, 128]), at its entry (0, 0, n, l). Every piece is the same expression of two
  column slices of ONE 1024 × 1024 matrix: the product of the token block with the transposed query weights, summed over
  the 1024 input features, plus the bias row repeated over the tokens (entry (n, e) is Σ_d x[n, d] · w[e, d] + b[e]); the
  slices are its columns 128 g … 128 g + 63 and 128 g + 64 … 128 g + 127. The two slices are rotated by the per-token
  cosines and sines (the angle blocks with their unit batch axis dropped), laid side by side and stored, so the entry
  is the rotary embedding of the biased projection at token n, feature 128 g + l.
-/
import proofs.«169902_j90718299226613_2_alg».proof.Proof.Gen.KernelIdeal.Frame
import proofs.«169902_j90718299226613_2_alg».proof.Proof.Spec
import proofs.«169902_j90718299226613_2_alg».proof.Proof.RopePiece
import proofs.«169902_j90718299226613_2_alg».proof.Proof.LibTransposedMatmul
import Idealize.ShloMosaic.Lib.ValueLayout

set_option maxRecDepth 16384

noncomputable section

namespace Cert.KernelIdeal.QueryBlock

open Idealize.ShloMosaic Idealize.ShloMosaic.TcCoe Idealize.ShloMosaic.ValueIdx RotaryAttention
open Cert.KernelIdeal Cert.KernelIdeal.Gen

/-! ## The loads of whole blocks -/

/-- A load through the whole token block reads it. -/
theorem ld0 (x0 : Vec Ideal S1x1024x1024 .f32) : View.ld x0 r0_0 = x0 :=
  View.ld_unit_zero (funext fun a => by match a with | ⟨0, _⟩ => rfl | ⟨1, _⟩ => rfl | ⟨2, _⟩ => rfl) _ x0
/-- A load through a whole angle block reads it. -/
theorem ld1 (x1 : Vec Ideal S1x1024x64 .f32) : View.ld x1 r0_1 = x1 :=
  View.ld_unit_zero (funext fun a => by match a with | ⟨0, _⟩ => rfl | ⟨1, _⟩ => rfl | ⟨2, _⟩ => rfl) _ x1
/-- A load through a whole weight matrix reads it. -/
theorem ld2 (x3 : Vec Ideal S1024x1024 .bf16) : View.ld x3 r0_2 = x3 :=
  View.ld_unit_zero (funext fun a => by match a with | ⟨0, _⟩ => rfl | ⟨1, _⟩ => rfl) _ x3
/-- A load through a whole bias vector reads it. -/
theorem ld3 (x6 : Vec Ideal S1024 .f32) : View.ld x6 r0_3 = x6 :=
  View.ld_unit_zero (funext fun a => by match a with | ⟨0, _⟩ => rfl) _ x6

/-! ## The angles and the projection at an entry -/

/-- The cosine block with its unit axis dropped, at (n, j). -/
theorem ang4 (x1 : Vec Ideal S1x1024x64 .f32) (n : Fin 1024) (j : Fin 64) :
    k0_pay4 (F := Ideal) (View.ld x1 r0_1) (ix2 n j) = blockAng x1 n j := by
  rw [ld1]
  exact shapeCast_1ab_ab_apply x1 _ n j

/-- The sine block with its unit axis dropped, at (n, j). -/
theorem ang5 (x2 : Vec Ideal S1x1024x64 .f32) (n : Fin 1024) (j : Fin 64) :
    k0_pay5 (F := Ideal) (View.ld x2 r0_1) (ix2 n j) = blockAng x2 n j := by
  rw [ld1]
  exact shapeCast_1ab_ab_apply x2 _ n j

/-- The query projection with its bias at (n, e): the sum over the input features of token n's feature times row e
    of the weights, plus entry e of the bias. -/
theorem proj6 (x0 : Vec Ideal S1x1024x1024 .f32) (x3 : Vec Ideal S1024x1024 .bf16) (x6 : Vec Ideal S1024 .f32)
    (n e : Fin 1024) :
    k0_pay6 (F := Ideal) (View.ld x0 r0_0) (View.ld x3 r0_2) (View.ld x6 r0_3) (ix2 n e)
      = addBias (proj (blockTok x0) (matOf x3)) (rowOf x6) n e := by
  rw [ld0, ld2, ld3]
  show FloatOps.matmul dot_S1024x1024_S1024x1024_S1024x1024_1_1_0_0_n_n none (k0_pay3 x0)
        (shapeCast S1024x1024 x3 shapeCasts_S1024x1024_S1024x1024) (constant S1024x1024 .f32 0x00000000#32) (ix2 n e)
      + broadcastTo S1024x1024 (shapeCast S1x1024 x6 shapeCasts_S1024_S1x1024) broadcasts_S1x1024_S1024x1024 (ix2 n e) = _
  rw [Cert.LibTransposedMatmul.matmul_transposedRhs_zero_apply (M := 1024) (K := 1024) (N := 1024)
    dot_S1024x1024_S1024x1024_S1024x1024_1_1_0_0_n_n rfl none (k0_pay3 x0)
    (shapeCast S1024x1024 x3 shapeCasts_S1024x1024_S1024x1024) n e]
  show _ = (∑ d : Fin 1024, blockTok x0 n d * matOf x3 e d) + rowOf x6 e
  congr 1
  · refine Finset.sum_congr rfl fun d _ => ?_
    congr 1
    · exact shapeCast_1ab_ab_apply x0 _ n d
    · exact congrFun (shapeCast_self x3 _) (ix2 e d)
  · rw [broadcastTo_1b_ab_apply]
    exact shapeCast_a_1a_apply x6 _ 0 e

/-! ## One stored piece at an entry -/

/-- The piece made of the projection's columns o0 … o0 + 63 and o1 = o0 + 64 … o0 + 127, o0 a multiple of 128, at
    (0, 0, n, l): the rotated query at token n, feature o0 + l. -/
theorem piece_of_slices (x0 : Vec Ideal S1x1024x1024 .f32) (x1 x2 : Vec Ideal S1x1024x64 .f32)
    (x3 : Vec Ideal S1024x1024 .bf16) (x6 : Vec Ideal S1024 .f32) (o0 o1 : ℕ) (ho : o0 % 128 = 0) (h01 : o1 = o0 + 64)
    (hs0 : S1024x1024.Slices ![0, o0] S1024x64) (hs1 : S1024x1024.Slices ![0, o1] S1024x64)
    (n : Fin 1024) (l : Fin 128) (e : Fin 1024) (he : e.val = o0 + l.val) :
    Cert.RopePiece.piece (k0_pay4 (F := Ideal) (View.ld x1 r0_1)) (k0_pay5 (F := Ideal) (View.ld x2 r0_1))
        (extractStridedSlice S1024x64 ![0, o0] (k0_pay6 (F := Ideal) (View.ld x0 r0_0) (View.ld x3 r0_2) (View.ld x6 r0_3)) hs0)
        (extractStridedSlice S1024x64 ![0, o1] (k0_pay6 (F := Ideal) (View.ld x0 r0_0) (View.ld x3 r0_2) (View.ld x6 r0_3)) hs1)
        slices_S1024x64_o0_0_S1024x32 slices_S1024x64_o0_32_S1024x32 concatenates_S1024x32_S1024x32_S1024x64_d1
        concatenates_S1024x64_S1024x64_S1024x128_d1 bitsLt_bf16_f32 shapeCasts_S1024x128_S1x1x1024x128
        (ix4 (0 : Fin 1) (0 : Fin 1) n l)
      = queries (blockTok x0) (blockAng x1) (blockAng x2) (matOf x3) (rowOf x6) n e := by
  subst h01
  exact Cert.RopePiece.piece_apply _ _ _ _ _ _ _ _ _ _
    (addBias (proj (blockTok x0) (matOf x3)) (rowOf x6)) (blockAng x1) (blockAng x2) o0 ho
    (fun n j e he => (slice2_axis1_apply o0 _ hs0 n j e he).trans (proj6 x0 x3 x6 n e))
    (fun n j e he => (slice2_axis1_apply (o0 + 64) _ hs1 n j e he).trans (proj6 x0 x3 x6 n e))
    (ang4 x1) (ang5 x2) n l e he

/-! ## The window's eight pieces at an entry -/

/-- A piece stored at another pair of heads does not cover entry (0, g, n, l). -/
theorem canon_skip {off : Fin 4 → ℕ} {inb : ∀ a, off a + S1x1x1024x128.size a ≤ S1x8x1024x128.size a}
    (w : (Rect.unit (s := S1x8x1024x128) off S1x1x1024x128.size inb).shape.Idx → Elt Ideal .bf16)
    (L : List (View.Piece (Elt Ideal) S1x8x1024x128 .bf16)) (g : Fin 8) (n : Fin 1024) (l : Fin 128)
    (h : off 1 ≠ g.val) :
    View.canon (⟨Rect.unit (s := S1x8x1024x128) off S1x1x1024x128.size inb, w⟩ :: L) (ix4 (0 : Fin 1) g n l)
      = View.canon L (ix4 (0 : Fin 1) g n l) :=
  View.canon_cons_of_not_mem _ _ (fun hm => h (by
    have hm' : ix4 (0 : Fin 1) g n l ∈ (Rect.unit (s := S1x8x1024x128) off S1x1x1024x128.size inb).set := hm
    have h1 : off 1 ≤ g.val ∧ g.val < off 1 + 1 := (Rect.mem_set_unit.mp hm') 1
    omega))

/-- The piece stored at pair g, when it is the last store, is what entry (0, g, n, l) reads, at its entry (0, 0, n, l). -/
theorem canon_hit {off : Fin 4 → ℕ} {inb : ∀ a, off a + S1x1x1024x128.size a ≤ S1x8x1024x128.size a}
    (w : (Rect.unit (s := S1x8x1024x128) off S1x1x1024x128.size inb).shape.Idx → Elt Ideal .bf16)
    (L : List (View.Piece (Elt Ideal) S1x8x1024x128 .bf16)) (g : Fin 8) (n : Fin 1024) (l : Fin 128)
    (h0 : off 0 = 0) (h1 : off 1 = g.val) (h2 : off 2 = 0) (h3 : off 3 = 0) :
    View.canon (⟨Rect.unit (s := S1x8x1024x128) off S1x1x1024x128.size inb, w⟩ :: L) (ix4 (0 : Fin 1) g n l)
      = w (ix4 (0 : Fin 1) (0 : Fin 1) n l) := by
  have e : (Rect.unit (s := S1x8x1024x128) off S1x1x1024x128.size inb).emb (ix4 (0 : Fin 1) (0 : Fin 1) n l)
      = ix4 (0 : Fin 1) g n l := funext fun a => Fin.ext (by
    rw [Rect.emb_apply]
    match a with
    | ⟨0, _⟩ => show off 0 + 1 * 0 = 0; omega
    | ⟨1, _⟩ => show off 1 + 1 * 0 = g.val; omega
    | ⟨2, _⟩ => show off 2 + 1 * n.val = n.val; omega
    | ⟨3, _⟩ => show off 3 + 1 * l.val = l.val; omega)
  rw [← e]
  exact View.canon_cons_emb _ w L _

/-- THE QUERY BLOCK. Entry (0, g, n, l) of what the kernel leaves in its first output window is the rotated query of
    pair g at token n, feature l of the pair. -/
theorem queryBlock_apply (x0 : Vec Ideal S1x1024x1024 .f32) (x1 x2 : Vec Ideal S1x1024x64 .f32)
    (x3 x4 x5 : Vec Ideal S1024x1024 .bf16) (x6 x7 : Vec Ideal S1024 .f32) (g : Fin 8) (n : Fin 1024) (l : Fin 128) :
    Cert.KernelIdeal.Gen.out0_8 (F := Ideal) x0 x1 x2 x3 x4 x5 x6 x7 (ix4 0 g n l)
      = pack (queries (blockTok x0) (blockAng x1) (blockAng x2) (matOf x3) (rowOf x6)) g n l := by
  have hl := l.isLt
  unfold out0_8
  match g with
  | ⟨7, _⟩ =>
    refine (canon_hit _ _ _ n l rfl rfl rfl rfl).trans ?_
    exact piece_of_slices x0 x1 x2 x3 x6 896 960 (by norm_num) rfl slices_S1024x1024_o0_896_S1024x64 slices_S1024x1024_o0_960_S1024x64 n l _ rfl
  | ⟨6, _⟩ =>
    refine (canon_skip _ _ _ n l (by show (7 : ℕ) ≠ 6; decide)).trans ?_
    refine (canon_hit _ _ _ n l rfl rfl rfl rfl).trans ?_
    exact piece_of_slices x0 x1 x2 x3 x6 768 832 (by norm_num) rfl slices_S1024x1024_o0_768_S1024x64 slices_S1024x1024_o0_832_S1024x64 n l _ rfl
  | ⟨5, _⟩ =>
    refine (canon_skip _ _ _ n l (by show (7 : ℕ) ≠ 5; decide)).trans ?_
    refine (canon_skip _ _ _ n l (by show (6 : ℕ) ≠ 5; decide)).trans ?_
    refine (canon_hit _ _ _ n l rfl rfl rfl rfl).trans ?_
    exact piece_of_slices x0 x1 x2 x3 x6 640 704 (by norm_num) rfl slices_S1024x1024_o0_640_S1024x64 slices_S1024x1024_o0_704_S1024x64 n l _ rfl
  | ⟨4, _⟩ =>
    refine (canon_skip _ _ _ n l (by show (7 : ℕ) ≠ 4; decide)).trans ?_
    refine (canon_skip _ _ _ n l (by show (6 : ℕ) ≠ 4; decide)).trans ?_
    refine (canon_skip _ _ _ n l (by show (5 : ℕ) ≠ 4; decide)).trans ?_
    refine (canon_hit _ _ _ n l rfl rfl rfl rfl).trans ?_
    exact piece_of_slices x0 x1 x2 x3 x6 512 576 (by norm_num) rfl slices_S1024x1024_o0_512_S1024x64 slices_S1024x1024_o0_576_S1024x64 n l _ rfl
  | ⟨3, _⟩ =>
    refine (canon_skip _ _ _ n l (by show (7 : ℕ) ≠ 3; decide)).trans ?_
    refine (canon_skip _ _ _ n l (by show (6 : ℕ) ≠ 3; decide)).trans ?_
    refine (canon_skip _ _ _ n l (by show (5 : ℕ) ≠ 3; decide)).trans ?_
    refine (canon_skip _ _ _ n l (by show (4 : ℕ) ≠ 3; decide)).trans ?_
    refine (canon_hit _ _ _ n l rfl rfl rfl rfl).trans ?_
    exact piece_of_slices x0 x1 x2 x3 x6 384 448 (by norm_num) rfl slices_S1024x1024_o0_384_S1024x64 slices_S1024x1024_o0_448_S1024x64 n l _ rfl
  | ⟨2, _⟩ =>
    refine (canon_skip _ _ _ n l (by show (7 : ℕ) ≠ 2; decide)).trans ?_
    refine (canon_skip _ _ _ n l (by show (6 : ℕ) ≠ 2; decide)).trans ?_
    refine (canon_skip _ _ _ n l (by show (5 : ℕ) ≠ 2; decide)).trans ?_
    refine (canon_skip _ _ _ n l (by show (4 : ℕ) ≠ 2; decide)).trans ?_
    refine (canon_skip _ _ _ n l (by show (3 : ℕ) ≠ 2; decide)).trans ?_
    refine (canon_hit _ _ _ n l rfl rfl rfl rfl).trans ?_
    exact piece_of_slices x0 x1 x2 x3 x6 256 320 (by norm_num) rfl slices_S1024x1024_o0_256_S1024x64 slices_S1024x1024_o0_320_S1024x64 n l _ rfl
  | ⟨1, _⟩ =>
    refine (canon_skip _ _ _ n l (by show (7 : ℕ) ≠ 1; decide)).trans ?_
    refine (canon_skip _ _ _ n l (by show (6 : ℕ) ≠ 1; decide)).trans ?_
    refine (canon_skip _ _ _ n l (by show (5 : ℕ) ≠ 1; decide)).trans ?_
    refine (canon_skip _ _ _ n l (by show (4 : ℕ) ≠ 1; decide)).trans ?_
    refine (canon_skip _ _ _ n l (by show (3 : ℕ) ≠ 1; decide)).trans ?_
    refine (canon_skip _ _ _ n l (by show (2 : ℕ) ≠ 1; decide)).trans ?_
    refine (canon_hit _ _ _ n l rfl rfl rfl rfl).trans ?_
    exact piece_of_slices x0 x1 x2 x3 x6 128 192 (by norm_num) rfl slices_S1024x1024_o0_128_S1024x64 slices_S1024x1024_o0_192_S1024x64 n l _ rfl
  | ⟨0, _⟩ =>
    refine (canon_skip _ _ _ n l (by show (7 : ℕ) ≠ 0; decide)).trans ?_
    refine (canon_skip _ _ _ n l (by show (6 : ℕ) ≠ 0; decide)).trans ?_
    refine (canon_skip _ _ _ n l (by show (5 : ℕ) ≠ 0; decide)).trans ?_
    refine (canon_skip _ _ _ n l (by show (4 : ℕ) ≠ 0; decide)).trans ?_
    refine (canon_skip _ _ _ n l (by show (3 : ℕ) ≠ 0; decide)).trans ?_
    refine (canon_skip _ _ _ n l (by show (2 : ℕ) ≠ 0; decide)).trans ?_
    refine (canon_skip _ _ _ n l (by show (1 : ℕ) ≠ 0; decide)).trans ?_
    refine (canon_hit _ _ _ n l rfl rfl rfl rfl).trans ?_
    exact piece_of_slices x0 x1 x2 x3 x6 0 64 (by norm_num) rfl slices_S1024x1024_o0_0_S1024x64 slices_S1024x1024_o0_64_S1024x64 n l _ rfl

end Cert.KernelIdeal.QueryBlock

end
-- ==== Proof.KeyBlock.lean ====
/-
  The rotated keys of one batch entry, as the first kernel leaves them in its second output block, read at one entry.

  The block is a [1, 8, 1024, 128] array filled by eight stores, one per pair of adjacent heads: store `g` writes the
  [1, 1, 1024, 128] rectangle at pair coordinate `g`. The claim is that entry `(0, g, n, l)` is the rotated key of
  token `n` at feature `128 g + l`.

  Every store's value comes from ONE token-by-feature array, the key projection: entry `(n, e)` is the dot product
  over the 1024 input features of token `n`'s features (narrowed, which changes nothing on the extended reals) with
  row `e` of the key weights, with no bias. That is a matrix product of a [1024, 1024] array with the transpose of a
  [1024, 1024] array into the zero matrix, so an entry is the sum over the contracted axis of the products; the
  token block is first cast from [1, 1024, 1024] to [1024, 1024], which keeps row-major positions.

  Store `g` takes columns `128 g … 128 g + 63` and `128 g + 64 … 128 g + 127` of the projection (two heads), rotates
  each by the per-token cosines and sines, lays the two side by side, narrows and puts two unit axes in front. By the
  rotation of one such piece read at an entry (the module this one imports for it), its entry `(0, 0, n, l)` is the
  rotary embedding of the projection at token `n`, feature `128 g + l`: the cosine and sine tables are the angle
  blocks cast from [1, 1024, 64] to [1024, 64], and a run of 64 columns from column `o` read at `(n, j)` is the array at
  `(n, o + j)`.

  So all eight stored values are tiles of one function of the block's index, `(0, g, n, l) ↦` the rotated key of token
  `n` at feature `128 g + l`: the rectangle of store `g` places its entry `(0, 0, n, l)` at `(0, g, n, l)`. Eight
  rectangles that tile the block and whose values are tiles of one function leave that function, whatever the order
  of the stores.
-/
import proofs.«169902_j90718299226613_2_alg».proof.Proof.Spec
import proofs.«169902_j90718299226613_2_alg».proof.Proof.Gen.KernelIdeal.Frame
import proofs.«169902_j90718299226613_2_alg».proof.Proof.LibTransposedMatmul
import proofs.«169902_j90718299226613_2_alg».proof.Proof.RopePiece
import Idealize.ShloMosaic.Lib.ValueLayout
import Idealize.ShloMosaic.Lib.Pipeline.Value

noncomputable section

open Idealize.ShloMosaic Idealize.ShloMosaic.TcCoe Idealize.ShloMosaic.ValueIdx RotaryAttention

namespace Cert.KernelIdeal.KeyBlock

open Cert.KernelIdeal Cert.KernelIdeal.Gen

/-- The zero offsets of a rank-3 (rank-2) whole-block access, as constant functions. -/
theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

/-- The key projection at token `n`, output feature `e`: the dot product of the token's features with row `e`
    of the key weights (no bias). -/
theorem keyProj_apply (x0 : Vec Ideal S1x1024x1024 .f32) (x4 : Vec Ideal S1024x1024 .bf16) (n e : Fin 1024) :
    Gen.k0_pay23 (F := Ideal) (Gen.k0_pay3 (View.ld x0 Gen.r0_0)) (View.ld x4 Gen.r0_2) (ix2 n e)
      = proj (blockTok x0) (matOf x4) n e := by
  unfold Gen.k0_pay23 Gen.k0_pay3
  dsimp only
  rw [View.ld_unit_zero (S := S1x1024x1024) zeros3, View.ld_unit_zero (S := S1024x1024) zeros2, shapeCast_self]
  refine (Cert.LibTransposedMatmul.matmul_transposedRhs_zero_apply (M := 1024) (K := 1024) (N := 1024) (φ₁ := .bf16) (φ₂ := .bf16)
    dot_S1024x1024_S1024x1024_S1024x1024_1_1_0_0_n_n rfl none _ _ n e).trans ?_
  unfold proj
  refine Finset.sum_congr rfl fun d _ => ?_
  rw [truncf_apply, shapeCast_1ab_ab_apply]
  rfl

/-- The cosines (and sines) block cast to a matrix: entry `(n, j)` is the block's entry at token `n`, lane `j`. -/
theorem cos_apply (x1 : Vec Ideal S1x1024x64 .f32) (n : Fin 1024) (j : Fin 64) :
    Gen.k0_pay4 (F := Ideal) (View.ld x1 Gen.r0_1) (ix2 n j) = blockAng x1 n j := by
  unfold Gen.k0_pay4
  rw [View.ld_unit_zero (S := S1x1024x64) zeros3, shapeCast_1ab_ab_apply]
  rfl

/-- The same for the sines. -/
theorem sin_apply (x2 : Vec Ideal S1x1024x64 .f32) (n : Fin 1024) (j : Fin 64) :
    Gen.k0_pay5 (F := Ideal) (View.ld x2 Gen.r0_1) (ix2 n j) = blockAng x2 n j := by
  unfold Gen.k0_pay5
  rw [View.ld_unit_zero (S := S1x1024x64) zeros3, shapeCast_1ab_ab_apply]
  rfl

/-- The function of the index all eight stored pieces are tiles of. -/
def keyArr (x0 : Vec Ideal S1x1024x1024 .f32) (x1 x2 : Vec Ideal S1x1024x64 .f32) (x4 : Vec Ideal S1024x1024 .bf16) : S1x8x1024x128.Idx → EReal :=
  fun y => pack (keys (blockTok x0) (blockAng x1) (blockAng x2) (matOf x4)) (y 1) (y 2) (y 3)

/-- An index of a one-pair block is its token and its feature inside the pair. -/
theorem exists_ix4 (x : S1x1x1024x128.Idx) : ∃ (n' : Fin 1024) (l' : Fin 128), x = ix4 0 0 n' l' :=
  ⟨x 2, x 3, funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl
    | ⟨3, _⟩ => rfl)⟩

/-- Pair `g`'s block sits in the packed array at pair coordinate `g`, tokens and features unchanged. -/
theorem emb_piece {o : Nat} (inb : ∀ a, (![0, o, 0, 0] : Fin 4 → Nat) a + S1x1x1024x128.size a ≤ S1x8x1024x128.size a)
    (n' : Fin 1024) (l' : Fin 128) (g : Fin 8) (hg : g.val = o) :
    (Rect.unit (s := S1x8x1024x128) ![0, o, 0, 0] S1x1x1024x128.size inb).emb (ix4 0 0 n' l') = ix4 0 g n' l' :=
  funext fun a => Fin.ext (by
    match a with
    | ⟨0, _⟩ => rfl
    | ⟨1, _⟩ => show o + 1 * 0 = g.val; omega
    | ⟨2, _⟩ => show 0 + 1 * n'.val = n'.val; omega
    | ⟨3, _⟩ => show 0 + 1 * l'.val = l'.val; omega)

/-- Pair 0: features 0 … 127 of the rotated keys. -/
theorem piece0 (x0 : Vec Ideal S1x1024x1024 .f32) (x1 x2 : Vec Ideal S1x1024x64 .f32) (x4 : Vec Ideal S1024x1024 .bf16) (n : Fin 1024) (l : Fin 128) :
    (Gen.k0_pay25 (Gen.k0_pay24 (Gen.k0_pay3 (View.ld x0 Gen.r0_0)) (Gen.k0_pay4 (View.ld x1 Gen.r0_1)) (Gen.k0_pay5 (View.ld x2 Gen.r0_1)) (View.ld x4 Gen.r0_2)) : FVec Ideal S1x1x1024x128 .bf16) (ix4 0 0 n l)
      = pack (keys (blockTok x0) (blockAng x1) (blockAng x2) (matOf x4)) 0 n l := by
  have hl := l.isLt
  exact Cert.RopePiece.piece_apply _ _ _ _ _ _ _ _ _ _ (proj (blockTok x0) (matOf x4)) (blockAng x1) (blockAng x2) 0 rfl
    (fun n j e he => (slice2_axis1_apply 0 _ _ n j e he).trans (keyProj_apply x0 x4 n e))
    (fun n j e he => (slice2_axis1_apply 64 _ _ n j e he).trans (keyProj_apply x0 x4 n e))
    (cos_apply x1) (sin_apply x2) n l ⟨0 + l.val, by omega⟩ rfl

/-- Pair 1: features 128 … 255 of the rotated keys. -/
theorem piece1 (x0 : Vec Ideal S1x1024x1024 .f32) (x1 x2 : Vec Ideal S1x1024x64 .f32) (x4 : Vec Ideal S1024x1024 .bf16) (n : Fin 1024) (l : Fin 128) :
    (Gen.k0_pay26 (Gen.k0_pay4 (View.ld x1 Gen.r0_1)) (Gen.k0_pay5 (View.ld x2 Gen.r0_1)) (Gen.k0_pay23 (Gen.k0_pay3 (View.ld x0 Gen.r0_0)) (View.ld x4 Gen.r0_2)) : FVec Ideal S1x1x1024x128 .bf16) (ix4 0 0 n l)
      = pack (keys (blockTok x0) (blockAng x1) (blockAng x2) (matOf x4)) 1 n l := by
  have hl := l.isLt
  exact Cert.RopePiece.piece_apply _ _ _ _ _ _ _ _ _ _ (proj (blockTok x0) (matOf x4)) (blockAng x1) (blockAng x2) 128 rfl
    (fun n j e he => (slice2_axis1_apply 128 _ _ n j e he).trans (keyProj_apply x0 x4 n e))
    (fun n j e he => (slice2_axis1_apply 192 _ _ n j e he).trans (keyProj_apply x0 x4 n e))
    (cos_apply x1) (sin_apply x2) n l ⟨128 + l.val, by omega⟩ rfl

/-- Pair 2: features 256 … 383 of the rotated keys. -/
theorem piece2 (x0 : Vec Ideal S1x1024x1024 .f32) (x1 x2 : Vec Ideal S1x1024x64 .f32) (x4 : Vec Ideal S1024x1024 .bf16) (n : Fin 1024) (l : Fin 128) :
    (Gen.k0_pay28 (Gen.k0_pay27 (Gen.k0_pay4 (View.ld x1 Gen.r0_1)) (Gen.k0_pay5 (View.ld x2 Gen.r0_1)) (Gen.k0_pay23 (Gen.k0_pay3 (View.ld x0 Gen.r0_0)) (View.ld x4 Gen.r0_2))) : FVec Ideal S1x1x1024x128 .bf16) (ix4 0 0 n l)
      = pack (keys (blockTok x0) (blockAng x1) (blockAng x2) (matOf x4)) 2 n l := by
  have hl := l.isLt
  exact Cert.RopePiece.piece_apply _ _ _ _ _ _ _ _ _ _ (proj (blockTok x0) (matOf x4)) (blockAng x1) (blockAng x2) 256 rfl
    (fun n j e he => (slice2_axis1_apply 256 _ _ n j e he).trans (keyProj_apply x0 x4 n e))
    (fun n j e he => (slice2_axis1_apply 320 _ _ n j e he).trans (keyProj_apply x0 x4 n e))
    (cos_apply x1) (sin_apply x2) n l ⟨256 + l.val, by omega⟩ rfl

/-- Pair 3: features 384 … 511 of the rotated keys. -/
theorem piece3 (x0 : Vec Ideal S1x1024x1024 .f32) (x1 x2 : Vec Ideal S1x1024x64 .f32) (x4 : Vec Ideal S1024x1024 .bf16) (n : Fin 1024) (l : Fin 128) :
    (Gen.k0_pay29 (Gen.k0_pay4 (View.ld x1 Gen.r0_1)) (Gen.k0_pay5 (View.ld x2 Gen.r0_1)) (Gen.k0_pay23 (Gen.k0_pay3 (View.ld x0 Gen.r0_0)) (View.ld x4 Gen.r0_2)) : FVec Ideal S1x1x1024x128 .bf16) (ix4 0 0 n l)
      = pack (keys (blockTok x0) (blockAng x1) (blockAng x2) (matOf x4)) 3 n l := by
  have hl := l.isLt
  exact Cert.RopePiece.piece_apply _ _ _ _ _ _ _ _ _ _ (proj (blockTok x0) (matOf x4)) (blockAng x1) (blockAng x2) 384 rfl
    (fun n j e he => (slice2_axis1_apply 384 _ _ n j e he).trans (keyProj_apply x0 x4 n e))
    (fun n j e he => (slice2_axis1_apply 448 _ _ n j e he).trans (keyProj_apply x0 x4 n e))
    (cos_apply x1) (sin_apply x2) n l ⟨384 + l.val, by omega⟩ rfl

/-- Pair 4: features 512 … 639 of the rotated keys. -/
theorem piece4 (x0 : Vec Ideal S1x1024x1024 .f32) (x1 x2 : Vec Ideal S1x1024x64 .f32) (x4 : Vec Ideal S1024x1024 .bf16) (n : Fin 1024) (l : Fin 128) :
    (Gen.k0_pay31 (Gen.k0_pay30 (Gen.k0_pay4 (View.ld x1 Gen.r0_1)) (Gen.k0_pay5 (View.ld x2 Gen.r0_1)) (Gen.k0_pay23 (Gen.k0_pay3 (View.ld x0 Gen.r0_0)) (View.ld x4 Gen.r0_2))) : FVec Ideal S1x1x1024x128 .bf16) (ix4 0 0 n l)
      = pack (keys (blockTok x0) (blockAng x1) (blockAng x2) (matOf x4)) 4 n l := by
  have hl := l.isLt
  exact Cert.RopePiece.piece_apply _ _ _ _ _ _ _ _ _ _ (proj (blockTok x0) (matOf x4)) (blockAng x1) (blockAng x2) 512 rfl
    (fun n j e he => (slice2_axis1_apply 512 _ _ n j e he).trans (keyProj_apply x0 x4 n e))
    (fun n j e he => (slice2_axis1_apply 576 _ _ n j e he).trans (keyProj_apply x0 x4 n e))
    (cos_apply x1) (sin_apply x2) n l ⟨512 + l.val, by omega⟩ rfl

/-- Pair 5: features 640 … 767 of the rotated keys. -/
theorem piece5 (x0 : Vec Ideal S1x1024x1024 .f32) (x1 x2 : Vec Ideal S1x1024x64 .f32) (x4 : Vec Ideal S1024x1024 .bf16) (n : Fin 1024) (l : Fin 128) :
    (Gen.k0_pay32 (Gen.k0_pay4 (View.ld x1 Gen.r0_1)) (Gen.k0_pay5 (View.ld x2 Gen.r0_1)) (Gen.k0_pay23 (Gen.k0_pay3 (View.ld x0 Gen.r0_0)) (View.ld x4 Gen.r0_2)) : FVec Ideal S1x1x1024x128 .bf16) (ix4 0 0 n l)
      = pack (keys (blockTok x0) (blockAng x1) (blockAng x2) (matOf x4)) 5 n l := by
  have hl := l.isLt
  exact Cert.RopePiece.piece_apply _ _ _ _ _ _ _ _ _ _ (proj (blockTok x0) (matOf x4)) (blockAng x1) (blockAng x2) 640 rfl
    (fun n j e he => (slice2_axis1_apply 640 _ _ n j e he).trans (keyProj_apply x0 x4 n e))
    (fun n j e he => (slice2_axis1_apply 704 _ _ n j e he).trans (keyProj_apply x0 x4 n e))
    (cos_apply x1) (sin_apply x2) n l ⟨640 + l.val, by omega⟩ rfl

/-- Pair 6: features 768 … 895 of the rotated keys. -/
theorem piece6 (x0 : Vec Ideal S1x1024x1024 .f32) (x1 x2 : Vec Ideal S1x1024x64 .f32) (x4 : Vec Ideal S1024x1024 .bf16) (n : Fin 1024) (l : Fin 128) :
    (Gen.k0_pay34 (Gen.k0_pay33 (Gen.k0_pay4 (View.ld x1 Gen.r0_1)) (Gen.k0_pay5 (View.ld x2 Gen.r0_1)) (Gen.k0_pay23 (Gen.k0_pay3 (View.ld x0 Gen.r0_0)) (View.ld x4 Gen.r0_2))) : FVec Ideal S1x1x1024x128 .bf16) (ix4 0 0 n l)
      = pack (keys (blockTok x0) (blockAng x1) (blockAng x2) (matOf x4)) 6 n l := by
  have hl := l.isLt
  exact Cert.RopePiece.piece_apply _ _ _ _ _ _ _ _ _ _ (proj (blockTok x0) (matOf x4)) (blockAng x1) (blockAng x2) 768 rfl
    (fun n j e he => (slice2_axis1_apply 768 _ _ n j e he).trans (keyProj_apply x0 x4 n e))
    (fun n j e he => (slice2_axis1_apply 832 _ _ n j e he).trans (keyProj_apply x0 x4 n e))
    (cos_apply x1) (sin_apply x2) n l ⟨768 + l.val, by omega⟩ rfl

/-- Pair 7: features 896 … 1023 of the rotated keys. -/
theorem piece7 (x0 : Vec Ideal S1x1024x1024 .f32) (x1 x2 : Vec Ideal S1x1024x64 .f32) (x4 : Vec Ideal S1024x1024 .bf16) (n : Fin 1024) (l : Fin 128) :
    (Gen.k0_pay35 (Gen.k0_pay4 (View.ld x1 Gen.r0_1)) (Gen.k0_pay5 (View.ld x2 Gen.r0_1)) (Gen.k0_pay23 (Gen.k0_pay3 (View.ld x0 Gen.r0_0)) (View.ld x4 Gen.r0_2)) : FVec Ideal S1x1x1024x128 .bf16) (ix4 0 0 n l)
      = pack (keys (blockTok x0) (blockAng x1) (blockAng x2) (matOf x4)) 7 n l := by
  have hl := l.isLt
  exact Cert.RopePiece.piece_apply _ _ _ _ _ _ _ _ _ _ (proj (blockTok x0) (matOf x4)) (blockAng x1) (blockAng x2) 896 rfl
    (fun n j e he => (slice2_axis1_apply 896 _ _ n j e he).trans (keyProj_apply x0 x4 n e))
    (fun n j e he => (slice2_axis1_apply 960 _ _ n j e he).trans (keyProj_apply x0 x4 n e))
    (cos_apply x1) (sin_apply x2) n l ⟨896 + l.val, by omega⟩ rfl

theorem keyBlock_apply (x0 : Vec Ideal S1x1024x1024 .f32) (x1 x2 : Vec Ideal S1x1024x64 .f32) (x3 x4 x5 : Vec Ideal S1024x1024 .bf16) (x6 x7 : Vec Ideal S1024 .f32) (g : Fin 8) (n : Fin 1024) (l : Fin 128) :
    Cert.KernelIdeal.Gen.out0_9 (F := Ideal) x0 x1 x2 x3 x4 x5 x6 x7 (ix4 0 g n l)
      = pack (keys (blockTok x0) (blockAng x1) (blockAng x2) (matOf x4)) g n l := by
  unfold Gen.out0_9
  refine (View.canon_apply_of_pieces (keyArr x0 x1 x2 x4) _ ?_ (ix4 0 g n l) (Gen.cover0_9 _ _ _ _ _ _ _ _ _)).trans rfl
  intro p hp
  simp only [List.mem_cons, List.not_mem_nil, or_false] at hp
  rcases hp with rfl | rfl | rfl | rfl | rfl | rfl | rfl | rfl
  · intro x
    obtain ⟨n', l', rfl⟩ := exists_ix4 x
    exact (piece7 x0 x1 x2 x4 n' l').trans
      ((show pack (keys (blockTok x0) (blockAng x1) (blockAng x2) (matOf x4)) 7 n' l' = keyArr x0 x1 x2 x4 (ix4 0 7 n' l') from rfl).trans
        (congrArg (keyArr x0 x1 x2 x4) (emb_piece (o := 7) Gen.inb_S1x8x1024x128_S1x1x1024x128_0_7_0_0 n' l' 7 rfl).symm))
  · intro x
    obtain ⟨n', l', rfl⟩ := exists_ix4 x
    exact (piece6 x0 x1 x2 x4 n' l').trans
      ((show pack (keys (blockTok x0) (blockAng x1) (blockAng x2) (matOf x4)) 6 n' l' = keyArr x0 x1 x2 x4 (ix4 0 6 n' l') from rfl).trans
        (congrArg (keyArr x0 x1 x2 x4) (emb_piece (o := 6) Gen.inb_S1x8x1024x128_S1x1x1024x128_0_6_0_0 n' l' 6 rfl).symm))
  · intro x
    obtain ⟨n', l', rfl⟩ := exists_ix4 x
    exact (piece5 x0 x1 x2 x4 n' l').trans
      ((show pack (keys (blockTok x0) (blockAng x1) (blockAng x2) (matOf x4)) 5 n' l' = keyArr x0 x1 x2 x4 (ix4 0 5 n' l') from rfl).trans
        (congrArg (keyArr x0 x1 x2 x4) (emb_piece (o := 5) Gen.inb_S1x8x1024x128_S1x1x1024x128_0_5_0_0 n' l' 5 rfl).symm))
  · intro x
    obtain ⟨n', l', rfl⟩ := exists_ix4 x
    exact (piece4 x0 x1 x2 x4 n' l').trans
      ((show pack (keys (blockTok x0) (blockAng x1) (blockAng x2) (matOf x4)) 4 n' l' = keyArr x0 x1 x2 x4 (ix4 0 4 n' l') from rfl).trans
        (congrArg (keyArr x0 x1 x2 x4) (emb_piece (o := 4) Gen.inb_S1x8x1024x128_S1x1x1024x128_0_4_0_0 n' l' 4 rfl).symm))
  · intro x
    obtain ⟨n', l', rfl⟩ := exists_ix4 x
    exact (piece3 x0 x1 x2 x4 n' l').trans
      ((show pack (keys (blockTok x0) (blockAng x1) (blockAng x2) (matOf x4)) 3 n' l' = keyArr x0 x1 x2 x4 (ix4 0 3 n' l') from rfl).trans
        (congrArg (keyArr x0 x1 x2 x4) (emb_piece (o := 3) Gen.inb_S1x8x1024x128_S1x1x1024x128_0_3_0_0 n' l' 3 rfl).symm))
  · intro x
    obtain ⟨n', l', rfl⟩ := exists_ix4 x
    exact (piece2 x0 x1 x2 x4 n' l').trans
      ((show pack (keys (blockTok x0) (blockAng x1) (blockAng x2) (matOf x4)) 2 n' l' = keyArr x0 x1 x2 x4 (ix4 0 2 n' l') from rfl).trans
        (congrArg (keyArr x0 x1 x2 x4) (emb_piece (o := 2) Gen.inb_S1x8x1024x128_S1x1x1024x128_0_2_0_0 n' l' 2 rfl).symm))
  · intro x
    obtain ⟨n', l', rfl⟩ := exists_ix4 x
    exact (piece1 x0 x1 x2 x4 n' l').trans
      ((show pack (keys (blockTok x0) (blockAng x1) (blockAng x2) (matOf x4)) 1 n' l' = keyArr x0 x1 x2 x4 (ix4 0 1 n' l') from rfl).trans
        (congrArg (keyArr x0 x1 x2 x4) (emb_piece (o := 1) Gen.inb_S1x8x1024x128_S1x1x1024x128_0_1_0_0 n' l' 1 rfl).symm))
  · intro x
    obtain ⟨n', l', rfl⟩ := exists_ix4 x
    exact (piece0 x0 x1 x2 x4 n' l').trans
      ((show pack (keys (blockTok x0) (blockAng x1) (blockAng x2) (matOf x4)) 0 n' l' = keyArr x0 x1 x2 x4 (ix4 0 0 n' l') from rfl).trans
        (congrArg (keyArr x0 x1 x2 x4) (emb_piece (o := 0) Gen.inb_S1x8x1024x128_S1x1x1024x128_0_0_0_0 n' l' 0 rfl).symm))

end Cert.KernelIdeal.KeyBlock

end
-- ==== Proof.ValueBlock.lean ====
/-
  The values of one batch entry, gathered per pair of heads.

  The first kernel's value output is a [1, 8, 1024, 128] block: for each of the 8 pairs of adjacent heads, every token's
  128 value features of that pair. Entry (pair g, token n, feature l of the pair) depends on row n of the token block,
  on row 128 g + l of the value weights and on entry 128 g + l of the value bias only: it is feature 128 g + l of the
  token's value row, that is the dot product over the 1024 input features of the token's row with that weight row, plus
  that bias entry.

  The body computes the whole [1024, 1024] value matrix once (a matrix product with both operands contracted on their
  last axis, accumulated into the zero matrix, plus the bias row copied to every token), and then, for each pair of
  heads, cuts the two 64-column slices that start at columns 128 g and 128 g + 64, lays them side by side, and stores
  the 128 columns under two unit leading axes at pair g of the block. Two adjacent 64-column slices side by side are
  the 128 consecutive columns from 128 g on. The eight stores tile the block, so the block afterwards is, at every
  index, the value of the one store whose rectangle holds the index.
-/
import proofs.«169902_j90718299226613_2_alg».proof.Proof.Spec
import proofs.«169902_j90718299226613_2_alg».proof.Proof.Gen.KernelIdeal.Frame
import proofs.«169902_j90718299226613_2_alg».proof.Proof.LibTransposedMatmul
import proofs.«169902_j90718299226613_2_alg».proof.Proof.LibSideBySide
import Idealize.ShloMosaic.Lib.ValueLayout
import Idealize.ShloMosaic.Lib.Pipeline.Value

noncomputable section

namespace Cert.KernelIdeal.ValueBlock

open Idealize.ShloMosaic Idealize.ShloMosaic.TcCoe Idealize.ShloMosaic.ValueIdx RotaryAttention
open Cert.KernelIdeal

/-- The zero offsets of a rank-3 buffer, however they are spelt. -/
theorem zero3 : (![0, 0, 0] : Fin 3 → Nat) = fun _ => 0 := funext fun a => by fin_cases a <;> rfl
/-- The zero offsets of a rank-2 buffer. -/
theorem zero2 : (![0, 0] : Fin 2 → Nat) = fun _ => 0 := funext fun a => by fin_cases a <;> rfl
/-- The zero offset of a rank-1 buffer. -/
theorem zero1 : (![0] : Fin 1 → Nat) = fun _ => 0 := funext fun a => by fin_cases a; rfl

/-- An `[a, b]` array cast to `[1, 1, a, b]` reads, at `(u, v, i, j)`, the operand at `(i, j)`: both arrays hold
    entry `(i, j)` at row-major position `i * b + j`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- A matrix read by coordinates as [token, feature]. -/
def matTok (V : (⟨2, ![1024, 1024]⟩ : Shape).Idx → EReal) : Tok := fun n e => V (ix2 n e)

/-- A [token, feature] array laid out per pair of heads, as a function of the block's index. -/
def laid (T : Tok) : S1x8x1024x128.Idx → EReal := fun y => pack T (y 1) (y 2) (y 3)

/-- The value matrix at (token n, feature e): the token's row against row e of the weights, plus entry e of the bias. -/
theorem valueMat_apply (x0 : Vec Ideal S1x1024x1024 .f32) (x5 : Vec Ideal S1024x1024 .bf16) (x7 : Vec Ideal S1024 .f32)
    (n e : Fin 1024) :
    Gen.k0_pay36 (F := Ideal) (Gen.k0_pay3 x0) x5 x7 (ix2 n e) = values (blockTok x0) (matOf x5) (rowOf x7) n e := by
  unfold Gen.k0_pay36 Gen.k0_pay3
  simp only [matmul]
  rw [addf_apply, broadcastTo_1b_ab_apply, shapeCast_a_1a_apply,
    Cert.LibTransposedMatmul.matmul_transposedRhs_zero_apply (M := 1024) (K := 1024) (N := 1024)
      dot_S1024x1024_S1024x1024_S1024x1024_1_1_0_0_n_n rfl]
  show _ = (∑ d : Fin 1024, x0 (ix3 0 n d) * x5 (ix2 e d)) + x7 (ix1 e)
  congr 1
  refine Finset.sum_congr rfl fun d _ => ?_
  rw [truncf_apply, shapeCast_1ab_ab_apply, shapeCast_self]

/-- Two 64-column slices of a matrix, the second starting 64 columns after the first, laid side by side: column `l` of
    the 128 is column `o₁ + l` of the matrix. -/
theorem pair_apply (o₁ o₂ : ℕ) (ho₂ : o₂ = o₁ + 64) (V : (⟨2, ![1024, 1024]⟩ : Shape).Idx → EReal)
    (h₁ : (⟨2, ![1024, 1024]⟩ : Shape).Slices ![0, o₁] ⟨2, ![1024, 64]⟩)
    (h₂ : (⟨2, ![1024, 1024]⟩ : Shape).Slices ![0, o₂] ⟨2, ![1024, 64]⟩)
    (hc : Shape.Concatenates [(⟨2, ![1024, 64]⟩ : Shape), ⟨2, ![1024, 64]⟩] ⟨2, ![1024, 128]⟩ 1)
    (n : Fin 1024) (l : Fin 128) (k : Fin 1024) (hk : k.val = o₁ + l.val) :
    concatenate ⟨2, ![1024, 128]⟩ 1
        [⟨⟨2, ![1024, 64]⟩, extractStridedSlice ⟨2, ![1024, 64]⟩ ![0, o₁] V h₁⟩,
         ⟨⟨2, ![1024, 64]⟩, extractStridedSlice ⟨2, ![1024, 64]⟩ ![0, o₂] V h₂⟩] hc (ix2 n l)
      = V (ix2 n k) := by
  by_cases hl : l.val < 64
  · rw [Cert.LibSideBySide.pair_cols_left _ _ hc n ⟨l.val, hl⟩ l rfl, slice2_axis1_apply o₁ V h₁ n _ k hk]
  · rw [Cert.LibSideBySide.pair_cols_right _ _ hc n ⟨l.val - 64, by have := l.isLt; omega⟩ l
        (by show l.val = 64 + (l.val - 64); omega),
      slice2_axis1_apply o₂ V h₂ n _ k (by subst ho₂; show k.val = o₁ + 64 + (l.val - 64); omega)]

/-- One store of the value block: the 128 columns from `128 k` on of the value matrix, under two unit leading axes,
    written at pair `k` of the block, is the per-pair layout of the matrix there. -/
theorem relaid_apply (o₁ o₂ k : ℕ) (ho₁ : o₁ = 128 * k) (ho₂ : o₂ = o₁ + 64) (hk : k < 8)
    (V : (⟨2, ![1024, 1024]⟩ : Shape).Idx → EReal)
    (h₁ : (⟨2, ![1024, 1024]⟩ : Shape).Slices ![0, o₁] ⟨2, ![1024, 64]⟩)
    (h₂ : (⟨2, ![1024, 1024]⟩ : Shape).Slices ![0, o₂] ⟨2, ![1024, 64]⟩)
    (hc : Shape.Concatenates [(⟨2, ![1024, 64]⟩ : Shape), ⟨2, ![1024, 64]⟩] ⟨2, ![1024, 128]⟩ 1)
    (hb : FTy.bf16.bits < FTy.f32.bits)
    (hs : (⟨2, ![1024, 128]⟩ : Shape).ShapeCasts ⟨4, ![1, 1, 1024, 128]⟩)
    (inb : ∀ a, (![0, k, 0, 0] : Fin 4 → ℕ) a + S1x1x1024x128.size a ≤ S1x8x1024x128.size a)
    (x : S1x1x1024x128.Idx) :
    shapeCast ⟨4, ![1, 1, 1024, 128]⟩
        (truncf (F := Ideal) .bf16 (concatenate ⟨2, ![1024, 128]⟩ 1
          [⟨⟨2, ![1024, 64]⟩, extractStridedSlice ⟨2, ![1024, 64]⟩ ![0, o₁] V h₁⟩,
           ⟨⟨2, ![1024, 64]⟩, extractStridedSlice ⟨2, ![1024, 64]⟩ ![0, o₂] V h₂⟩] hc) hb) hs x
      = laid (matTok V) ((Rect.unit (s := S1x8x1024x128) ![0, k, 0, 0] S1x1x1024x128.size inb).emb x) := by
  obtain ⟨u, v, n, l, rfl⟩ : ∃ (u v : Fin 1) (n : Fin 1024) (l : Fin 128), x = ix4 u v n l :=
    ⟨x 0, x 1, x 2, x 3, eq_ix4 x⟩
  have hidx : (Rect.unit (s := S1x8x1024x128) ![0, k, 0, 0] S1x1x1024x128.size inb).emb (ix4 u v n l)
      = ix4 (0 : Fin 1) (⟨k, hk⟩ : Fin 8) n l := funext fun a => Fin.ext (by
    match a with
    | ⟨0, _⟩ => show 0 + 1 * u.val = 0; omega
    | ⟨1, _⟩ => show k + 1 * v.val = k; omega
    | ⟨2, _⟩ => show 0 + 1 * n.val = n.val; omega
    | ⟨3, _⟩ => show 0 + 1 * l.val = l.val; omega)
  rw [hidx, shapeCast_ab_11ab_apply, truncf_apply,
    pair_apply o₁ o₂ ho₂ V h₁ h₂ hc n l ⟨128 * k + l.val, by have := l.isLt; omega⟩ (by subst ho₁; rfl)]
  rfl

theorem valueBlock_apply (x0 : Vec Ideal S1x1024x1024 .f32) (x1 x2 : Vec Ideal S1x1024x64 .f32) (x3 x4 x5 : Vec Ideal S1024x1024 .bf16) (x6 x7 : Vec Ideal S1024 .f32) (g : Fin 8) (n : Fin 1024) (l : Fin 128) :
    Cert.KernelIdeal.Gen.out0_10 (F := Ideal) x0 x1 x2 x3 x4 x5 x6 x7 (ix4 0 g n l)
      = pack (values (blockTok x0) (matOf x5) (rowOf x7)) g n l := by
  have hV : matTok (Gen.k0_pay36 (F := Ideal) (Gen.k0_pay3 x0) x5 x7) = values (blockTok x0) (matOf x5) (rowOf x7) :=
    funext fun n => funext fun e => valueMat_apply x0 x5 x7 n e
  rw [← hV]
  unfold Gen.out0_10
  simp only [View.ld_unit_zero (S := S1x1024x1024) zero3, View.ld_unit_zero (S := S1024x1024) zero2,
    View.ld_unit_zero (S := S1024) zero1]
  refine (View.canon_apply_of_pieces (laid (matTok (Gen.k0_pay36 (F := Ideal) (Gen.k0_pay3 x0) x5 x7))) _ ?_ _
    (Gen.cover0_10 _ _ _ _ _ _ _ _ _)).trans rfl
  intro p hp
  simp only [List.mem_cons, List.mem_nil_iff, or_false] at hp
  rcases hp with rfl | rfl | rfl | rfl | rfl | rfl | rfl | rfl
  · exact relaid_apply 896 960 7 (by norm_num) (by norm_num) (by norm_num) _
      Facts₀.slices_S1024x1024_o0_896_S1024x64 Facts₀.slices_S1024x1024_o0_960_S1024x64
      Facts₀.concatenates_S1024x64_S1024x64_S1024x128_d1 Facts₀.bitsLt_bf16_f32 Facts₀.shapeCasts_S1024x128_S1x1x1024x128
      Facts₀.inb_S1x8x1024x128_S1x1x1024x128_0_7_0_0
  · exact relaid_apply 768 832 6 (by norm_num) (by norm_num) (by norm_num) _
      Facts₀.slices_S1024x1024_o0_768_S1024x64 Facts₀.slices_S1024x1024_o0_832_S1024x64
      Facts₀.concatenates_S1024x64_S1024x64_S1024x128_d1 Facts₀.bitsLt_bf16_f32 Facts₀.shapeCasts_S1024x128_S1x1x1024x128
      Facts₀.inb_S1x8x1024x128_S1x1x1024x128_0_6_0_0
  · exact relaid_apply 640 704 5 (by norm_num) (by norm_num) (by norm_num) _
      Facts₀.slices_S1024x1024_o0_640_S1024x64 Facts₀.slices_S1024x1024_o0_704_S1024x64
      Facts₀.concatenates_S1024x64_S1024x64_S1024x128_d1 Facts₀.bitsLt_bf16_f32 Facts₀.shapeCasts_S1024x128_S1x1x1024x128
      Facts₀.inb_S1x8x1024x128_S1x1x1024x128_0_5_0_0
  · exact relaid_apply 512 576 4 (by norm_num) (by norm_num) (by norm_num) _
      Facts₀.slices_S1024x1024_o0_512_S1024x64 Facts₀.slices_S1024x1024_o0_576_S1024x64
      Facts₀.concatenates_S1024x64_S1024x64_S1024x128_d1 Facts₀.bitsLt_bf16_f32 Facts₀.shapeCasts_S1024x128_S1x1x1024x128
      Facts₀.inb_S1x8x1024x128_S1x1x1024x128_0_4_0_0
  · exact relaid_apply 384 448 3 (by norm_num) (by norm_num) (by norm_num) _
      Facts₀.slices_S1024x1024_o0_384_S1024x64 Facts₀.slices_S1024x1024_o0_448_S1024x64
      Facts₀.concatenates_S1024x64_S1024x64_S1024x128_d1 Facts₀.bitsLt_bf16_f32 Facts₀.shapeCasts_S1024x128_S1x1x1024x128
      Facts₀.inb_S1x8x1024x128_S1x1x1024x128_0_3_0_0
  · exact relaid_apply 256 320 2 (by norm_num) (by norm_num) (by norm_num) _
      Facts₀.slices_S1024x1024_o0_256_S1024x64 Facts₀.slices_S1024x1024_o0_320_S1024x64
      Facts₀.concatenates_S1024x64_S1024x64_S1024x128_d1 Facts₀.bitsLt_bf16_f32 Facts₀.shapeCasts_S1024x128_S1x1x1024x128
      Facts₀.inb_S1x8x1024x128_S1x1x1024x128_0_2_0_0
  · exact relaid_apply 128 192 1 (by norm_num) (by norm_num) (by norm_num) _
      Facts₀.slices_S1024x1024_o0_128_S1024x64 Facts₀.slices_S1024x1024_o0_192_S1024x64
      Facts₀.concatenates_S1024x64_S1024x64_S1024x128_d1 Facts₀.bitsLt_bf16_f32 Facts₀.shapeCasts_S1024x128_S1x1x1024x128
      Facts₀.inb_S1x8x1024x128_S1x1x1024x128_0_1_0_0
  · exact relaid_apply 0 64 0 (by norm_num) (by norm_num) (by norm_num) _
      Facts₀.slices_S1024x1024_o0_0_S1024x64 Facts₀.slices_S1024x1024_o0_64_S1024x64
      Facts₀.concatenates_S1024x64_S1024x64_S1024x128_d1 Facts₀.bitsLt_bf16_f32 Facts₀.shapeCasts_S1024x128_S1x1x1024x128
      Facts₀.inb_S1x8x1024x128_S1x1x1024x128_0_0_0_0

end Cert.KernelIdeal.ValueBlock

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibPayload.lean ====
/- General facts about a kernel's pure values at the ideal semantics, read at an index: a plain matrix product into the
   zero accumulator, a column broadcast, a vector cast to a one-column matrix, the f32 words of 1.0 and of minus infinity,
   and the row sum and row maximum of a matrix. Every index is written with ix1 / ix2 over literal Fin coordinates. -/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx

/-! ## A plain matrix product read at an index -/

/-- The dimension numbers of a plain product [m, K] · [K, n] → [m, n]: the left operand's axis 1 contracted with the
    right operand's axis 0, no batch axes. Any record with these six lists is this one (its well-formedness is a proof). -/
abbrev plainDims {m K n : ℕ}
    (wf : DotDims.WF (⟨2, ![m, K]⟩ : Shape) ⟨2, ![K, n]⟩ ⟨2, ![m, n]⟩ [1] [0] [0] [1] [] []) :
    DotDims ⟨2, ![m, K]⟩ ⟨2, ![K, n]⟩ ⟨2, ![m, n]⟩ :=
  ⟨[1], [0], [0], [1], [], [], wf⟩

/-- A plain matrix product into the zero accumulator, read at (p, q), is the sum over k of lhs (p, k) * rhs (k, q): the
    sum over the one-axis contraction index re-indexed by its coordinate, the operands' indices read off coordinate by
    coordinate. -/
theorem matmul_plain_zero_apply {m K n : ℕ} {φ₁ φ₂ : FTy}
    (wf : DotDims.WF (⟨2, ![m, K]⟩ : Shape) ⟨2, ![K, n]⟩ ⟨2, ![m, n]⟩ [1] [0] [0] [1] [] [])
    (prec : Option ContractPrecision) (lhs : FVec Ideal ⟨2, ![m, K]⟩ φ₁) (rhs : FVec Ideal ⟨2, ![K, n]⟩ φ₂)
    (p : Fin m) (q : Fin n) :
    FloatOps.matmul (plainDims wf) prec lhs rhs (constant ⟨2, ![m, n]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, h0⟩ =>
        have hb : ¬(⟨0, h0⟩ : Fin (Shape.rank ⟨2, ![m, K]⟩)) ∈ (plainDims wf).lhsBatch := List.not_mem_nil
        have hn : (⟨0, h0⟩ : Fin (Shape.rank ⟨2, ![m, K]⟩)) ∈ (plainDims wf).lhsNonContracting :=
          List.mem_singleton.2 rfl
        unfold DotDims.lhsIdx
        rw [dif_neg hb, dif_pos hn]
        rfl
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, h1⟩ =>
        have hb : ¬(⟨1, h1⟩ : Fin (Shape.rank ⟨2, ![K, n]⟩)) ∈ (plainDims wf).rhsBatch := List.not_mem_nil
        have hn : (⟨1, h1⟩ : Fin (Shape.rank ⟨2, ![K, n]⟩)) ∈ (plainDims wf).rhsNonContracting :=
          List.mem_singleton.2 rfl
        unfold DotDims.rhsIdx
        rw [dif_neg hb, dif_pos hn]
        rfl)
  rw [el, er]

/-! ## Layout operations at an index -/

section Layout
variable {α : Type}

/-- An [a, 1] column broadcast to [a, b] reads, at (p, c), the operand's one column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Two f32 words -/

/-- The f32 word of 1.0 is the extended real 1. -/
theorem ofBits_one_f32 : Ideal.ofBits .f32 0x3F800000#32 = 1 := by
  simp [Ideal.ofBits, Ideal.ieee, -EReal.coe_mul]; norm_num

/-- The f32 word of minus infinity is the least extended real. -/
theorem ofBits_neg_inf_f32 : Ideal.ofBits .f32 0xFF800000#32 = ⊥ := by
  simp [Ideal.ofBits, Ideal.ieee]

/-! ## A matrix reduced along its rows -/

/-- The reduced index p of an [a, b] matrix reduced over its second axis, with the coordinate k put back, is (p, k). -/
theorem lift_rows_ix1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over the second axis of an [a, b] matrix from the accumulator 0, read at p, is the row's sum. -/
theorem multiReduction_add_rows_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_rows_ix1 h p k)

/-- The fold of max from the least element over all of Fin n is the supremum. -/
theorem fold_max_bot_eq_sup {n : ℕ} (f : Fin n → EReal) :
    (Finset.univ : Finset (Fin n)).fold max ⊥ f = Finset.univ.sup f := rfl

/-- A float maximum over the second axis of an [a, b] matrix from the accumulator minus infinity, read at p, is the row's
    supremum. -/
theorem multiReduction_maximumf_rows_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = Finset.univ.sup fun k : Fin b => src (ix2 p k) := by
  refine (Ideal.multiReduction_maximumf_single src 0xFF800000#32 h hφ hacc (ix1 p)).trans ?_
  have hf : (src ∘ h.lift (ix1 p)) = fun k : Fin b => src (ix2 p k) :=
    funext fun k => congrArg src (lift_rows_ix1 h p k)
  show (Finset.univ : Finset (Fin b)).fold max (Ideal.ofBits .f32 0xFF800000#32) (src ∘ h.lift (ix1 p)) = _
  rw [hf, ofBits_neg_inf_f32]
  exact fold_max_bot_eq_sup _

end Cert.KernelIdeal.Pay

end
-- ==== Proof.AttentionHead.lean ====
/-
  One attention head on the extended reals, read entry by entry.

  From three [1024, 64] arrays q, k, v (a head's query, key and value features of every token) the program forms the
  [1024, 1024] scores s (i, t) = (∑ j, q (i, j) · k (t, j)) · 1/8, each row's maximum m (i) (a fold of max from −∞ over
  the key tokens), the weights p (i, t) = exp (s (i, t) − m (i)), each row's sum d (i) = ∑ t, p (i, t), and the output
  o (i, j) = (∑ t, p (i, t) · v (t, j)) / d (i): the division comes after the weighted sum. Format changes are the
  identity on the extended reals, so o (i, j) is the specification's one-head attention (division last) of the rows of
  q and k and of column j of v, at token i. Entry (i, j) of the output depends on row i of q, on all of k, and on
  column j of v.

  Each step is read at an index by the law of its operation: a product against a transposed right operand is a sum
  over the shared last axis; a row maximum is a fold of max from the accumulator's word; a row sum is a finite sum; a
  column kept as a [1024, 1] array and broadcast along the rows reads the column's entry of that row; a plain matrix
  product is a sum over the left operand's columns.
-/
import proofs.«169902_j90718299226613_2_alg».proof.Proof.Spec
import proofs.«169902_j90718299226613_2_alg».proof.Proof.Gen.KernelIdeal.Skeleton
import proofs.«169902_j90718299226613_2_alg».proof.Proof.LibTransposedMatmul
import proofs.«169902_j90718299226613_2_alg».proof.Proof.LibPlainMatmul
import proofs.«169902_j90718299226613_2_alg».proof.Proof.LibPayload

noncomputable section

namespace Cert.KernelIdeal.AttentionHead

open Idealize.ShloMosaic Idealize.ShloMosaic.TcCoe Idealize.ShloMosaic.ValueIdx RotaryAttention
open Cert.KernelIdeal Cert.KernelIdeal.Facts₀

/-- A [1024, 64] array by its two coordinates. -/
def rowsOf (a : FVec Ideal S1024x64 .bf16) : Ang := fun n j => a (ix2 n j)

/-- Column j of a [1024, 64] array. -/
def colOf (a : FVec Ideal S1024x64 .bf16) (j : Fin 64) : Row := fun n => a (ix2 n j)

/-- The scaled scores as the program forms them. -/
def scoresV (q k : FVec Ideal S1024x64 .bf16) : FVec Ideal S1024x1024 .f32 :=
  mulf (matmul dot_S1024x64_S1024x64_S1024x1024_1_1_0_0_n_n none q k (constant (F := Ideal) S1024x1024 .f32 0x00000000#32))
    (broadcast S1024x1024 (Scalar.ofBits (F := Ideal) .f32 0x3E000000#32))

/-- The row maxima. -/
def maxV (q k : FVec Ideal S1024x64 .bf16) : FVec Ideal S1024 .f32 :=
  multiReduction (F := Ideal) .maximumf [1] S1024 (scoresV q k) 0xFF800000#32 reduces_S1024x1024_S1024 (.inl rfl) rfl

/-- The weights exp (s − m). -/
def weightsV (q k : FVec Ideal S1024x64 .bf16) : FVec Ideal S1024x1024 .f32 :=
  exp (subf (scoresV q k)
    (broadcastTo S1024x1024 (shapeCast S1024x1 (maxV q k) shapeCasts_S1024_S1024x1) broadcasts_S1024x1_S1024x1024))

/-- The row sums of the weights, kept as a column. -/
def denomV (q k : FVec Ideal S1024x64 .bf16) : FVec Ideal S1024x1 .f32 :=
  shapeCast S1024x1
    (multiReduction (F := Ideal) .add [1] S1024 (weightsV q k) 0x00000000#32 reduces_S1024x1024_S1024 (.inl rfl) rfl)
    shapeCasts_S1024_S1024x1

/-- The weighted sum of the value rows divided by the row sums, from the weights and the row sums. -/
def combineV (p : FVec Ideal S1024x1024 .f32) (d : FVec Ideal S1024x1 .f32) (v : FVec Ideal S1024x64 .bf16) :
    FVec Ideal S1024x64 .bf16 :=
  truncf .bf16
    (divf (matmul dot_S1024x1024_S1024x64_S1024x64_1_0_0_1_n_n none (truncf .bf16 p bitsLt_bf16_f32) v
        (constant (F := Ideal) S1024x64 .f32 0x00000000#32))
      (broadcastTo S1024x64 d broadcasts_S1024x1_S1024x64)) bitsLt_bf16_f32

/-- One head's output. -/
def headV (q k v : FVec Ideal S1024x64 .bf16) : FVec Ideal S1024x64 .bf16 := combineV (weightsV q k) (denomV q k) v

theorem scoresV_apply (q k : FVec Ideal S1024x64 .bf16) (i t : Fin 1024) :
    scoresV q k (ix2 i t) = score (rowsOf q) (rowsOf k) i t := by
  have e := Cert.LibTransposedMatmul.matmul_transposedRhs_zero_apply (M := 1024) (K := 64) (N := 1024)
    dot_S1024x64_S1024x64_S1024x1024_1_1_0_0_n_n rfl none q k i t
  exact congrArg (fun z : EReal => z * Ideal.ofBits .f32 0x3E000000#32) e

theorem maxV_apply (q k : FVec Ideal S1024x64 .bf16) (i : Fin 1024) :
    maxV q k (ix1 i) = rowMax (rowsOf q) (rowsOf k) i := by
  unfold maxV
  refine (Ideal.multiReduction_maximumf_single (scoresV q k) 0xFF800000#32 reduces_S1024x1024_S1024 (.inl rfl) rfl (ix1 i)).trans ?_
  have hf : (scoresV q k ∘ (reduces_S1024x1024_S1024).lift (ix1 i)) = fun t : Fin 1024 => score (rowsOf q) (rowsOf k) i t :=
    funext fun t => (congrArg (scoresV q k) (Cert.KernelIdeal.Pay.lift_rows_ix1 reduces_S1024x1024_S1024 i t)).trans (scoresV_apply q k i _)
  show (Finset.univ : Finset (Fin 1024)).fold max (Ideal.ofBits .f32 0xFF800000#32) (scoresV q k ∘ (reduces_S1024x1024_S1024).lift (ix1 i)) = _
  rw [hf]
  rfl

theorem weightsV_apply (q k : FVec Ideal S1024x64 .bf16) (i t : Fin 1024) :
    weightsV q k (ix2 i t) = weight (rowsOf q) (rowsOf k) i t := by
  unfold weightsV
  show Ideal.exp (subf (scoresV q k) _ (ix2 i t)) = _
  rw [subf_apply, Cert.KernelIdeal.Pay.broadcastTo_a1_ab_apply, Cert.KernelIdeal.Pay.shapeCast_a_a1_apply, scoresV_apply, maxV_apply]
  rfl

theorem denomV_apply (q k : FVec Ideal S1024x64 .bf16) (i : Fin 1024) (u : Fin 1) :
    denomV q k (ix2 i u) = denom (rowsOf q) (rowsOf k) i := by
  unfold denomV
  rw [Cert.KernelIdeal.Pay.shapeCast_a_a1_apply, Cert.KernelIdeal.Pay.multiReduction_add_rows_apply]
  exact Finset.sum_congr rfl fun t _ => weightsV_apply q k i t

theorem combineV_apply (p : FVec Ideal S1024x1024 .f32) (d : FVec Ideal S1024x1 .f32) (v : FVec Ideal S1024x64 .bf16)
    (i : Fin 1024) (j : Fin 64) :
    combineV p d v (ix2 i j) = Ideal.div (∑ t : Fin 1024, p (ix2 i t) * v (ix2 t j)) (d (ix2 i (0 : Fin 1))) := by
  have e := Cert.LibPlainMatmul.matmul_plain_zero_apply (M := 1024) (K := 1024) (N := 64)
    dot_S1024x1024_S1024x64_S1024x64_1_0_0_1_n_n rfl none (truncf (F := Ideal) .bf16 p bitsLt_bf16_f32) v i j
  unfold combineV
  rw [truncf_apply, divf_apply, Cert.KernelIdeal.Pay.broadcastTo_a1_ab_apply]
  exact congrArg (fun z : EReal => Ideal.div z (d (ix2 i (0 : Fin 1)))) e

/-- One head's output at (i, j) is the specification's head (division last) of the rows of q and k and column j of v. -/
theorem headV_apply (q k v : FVec Ideal S1024x64 .bf16) (i : Fin 1024) (j : Fin 64) :
    headV q k v (ix2 i j) = headAfter (rowsOf q) (rowsOf k) (colOf v j) i := by
  unfold headV
  rw [combineV_apply, denomV_apply]
  unfold headAfter
  congr 1
  exact Finset.sum_congr rfl fun t _ => by rw [weightsV_apply]; rfl

end Cert.KernelIdeal.AttentionHead

end
-- ==== Proof.AttentionBlock.lean ====
/-
  Softmax attention on one pair of heads, read entry by entry.

  The block's three inputs are [1, 1, 1024, 128] arrays: the queries, keys and values of two adjacent heads side by
  side (columns 0..63 the first head, 64..127 the second) for the 1024 tokens. The program cuts each into its two
  [1024, 64] halves, runs one head's attention on the left halves and on the right halves, and lays the two [1024, 64]
  results side by side again. Entry (n, l) of the result therefore lies in the half l / 64, and is that head's output at
  token n and column l − 64 · (l / 64): it depends on row n of that half of the queries, on all of that half of the keys,
  and on column l of the values. By the one-head reading this is the specification's attention on the pair at (n, l).
-/
import proofs.«169902_j90718299226613_2_alg».proof.Proof.Spec
import proofs.«169902_j90718299226613_2_alg».proof.Proof.Gen.KernelIdeal.Frame
import proofs.«169902_j90718299226613_2_alg».proof.Proof.AttentionHead
import proofs.«169902_j90718299226613_2_alg».proof.Proof.LibSideBySide

noncomputable section

namespace Cert.KernelIdeal.AttentionBlock

open Idealize.ShloMosaic Idealize.ShloMosaic.TcCoe Idealize.ShloMosaic.ValueIdx RotaryAttention
open Cert.KernelIdeal Cert.KernelIdeal.Facts₀ Cert.KernelIdeal.AttentionHead

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The left half (columns 0..63) of a block, as a [1024, 64] array. -/
def leftHalf (x : Vec Ideal S1x1x1024x128 .bf16) : FVec Ideal S1024x64 .bf16 :=
  extractStridedSlice S1024x64 ![0, 0] (shapeCast S1024x128 x shapeCasts_S1x1x1024x128_S1024x128) slices_S1024x128_o0_0_S1024x64

/-- The right half (columns 64..127) of a block, as a [1024, 64] array. -/
def rightHalf (x : Vec Ideal S1x1x1024x128 .bf16) : FVec Ideal S1024x64 .bf16 :=
  extractStridedSlice S1024x64 ![0, 64] (shapeCast S1024x128 x shapeCasts_S1x1x1024x128_S1024x128) slices_S1024x128_o0_64_S1024x64

/-- A block cast to [1024, 128] and cut along its columns from o: entry (n, j) is the block's entry (0, 0, n, o + j). -/
theorem half_apply (x : Vec Ideal S1x1x1024x128 .bf16) (o : Nat) (h : S1024x128.Slices ![0, o] S1024x64)
    (n : Fin 1024) (j : Fin 64) (k : Fin 128) (hk : k.val = o + j.val) :
    extractStridedSlice S1024x64 ![0, o] (shapeCast S1024x128 x shapeCasts_S1x1x1024x128_S1024x128) h (ix2 n j)
      = x (ix4 0 0 n k) := by
  rw [slice2_axis1_apply o _ h n j k hk]
  exact shapeCast_apply x _ _ _ (by
    rw [Shape.rowMajor_val_four, Shape.rowMajor_val_two]
    show ((0 * 1 + 0) * 1024 + n.val) * 128 + k.val = n.val * 128 + k.val
    omega)

/-- What the body stores, as the two heads side by side. -/
theorem stored_eq (v0 v2 v4 : Vec Ideal S1x1x1024x128 .bf16) :
    Gen.k1_pay1 (F := Ideal) (Gen.k1_pay5 v0 v2 v4) (Gen.k1_pay6 v4) (Gen.k1_pay7 v0 v2) (Gen.k1_pay8 v0 v2)
      = shapeCast S1x1024x128
          (concatenate S1024x128 1
            [⟨S1024x64, headV (leftHalf v0) (leftHalf v2) (leftHalf v4)⟩,
             ⟨S1024x64, headV (rightHalf v0) (rightHalf v2) (rightHalf v4)⟩]
            concatenates_S1024x64_S1024x64_S1024x128_d1)
          shapeCasts_S1024x128_S1x1024x128 := rfl

theorem attentionBlock_apply (x0 x1 x2 : Vec Ideal S1x1x1024x128 .bf16) (n : Fin 1024) (l : Fin 128) :
    Cert.KernelIdeal.Gen.out1_3 (F := Ideal) x0 x1 x2 (ix3 0 n l) = pairAfter (blockPair x0) (blockPair x1) (blockPair x2) n l := by
  unfold Gen.out1_3
  rw [View.canon_unit_zero zeros3]
  simp only [View.ld_unit_zero (S := S1x1x1024x128) zeros4]
  rw [stored_eq, shapeCast_ab_1ab_apply]
  show _ = headAfter (halfOf (blockPair x0) l) (halfOf (blockPair x1) l) (fun kk => blockPair x2 kk l) n
  have hl := l.isLt
  by_cases hlt : l.val < 64
  · rw [Cert.LibSideBySide.pair_cols_left _ _ _ n ⟨l.val, hlt⟩ l rfl, headV_apply]
    have hr : ∀ x : Vec Ideal S1x1x1024x128 .bf16, rowsOf (leftHalf x) = halfOf (blockPair x) l := fun x =>
      funext fun n' => funext fun j =>
        half_apply x 0 slices_S1024x128_o0_0_S1024x64 n' j ⟨64 * (l.val / 64) + j.val, by have := j.isLt; omega⟩
          (by have := j.isLt; show 64 * (l.val / 64) + j.val = 0 + j.val; omega)
    have hc : colOf (leftHalf x2) ⟨l.val, hlt⟩ = fun kk => blockPair x2 kk l := funext fun kk =>
      half_apply x2 0 slices_S1024x128_o0_0_S1024x64 kk ⟨l.val, hlt⟩ l (by show l.val = 0 + l.val; omega)
    rw [hr x0, hr x1, hc]
  · have hge : 64 ≤ l.val := Nat.le_of_not_lt hlt
    rw [Cert.LibSideBySide.pair_cols_right _ _ _ n ⟨l.val - 64, by omega⟩ l (by show l.val = 64 + (l.val - 64); omega), headV_apply]
    have hr : ∀ x : Vec Ideal S1x1x1024x128 .bf16, rowsOf (rightHalf x) = halfOf (blockPair x) l := fun x =>
      funext fun n' => funext fun j =>
        half_apply x 64 slices_S1024x128_o0_64_S1024x64 n' j ⟨64 * (l.val / 64) + j.val, by have := j.isLt; omega⟩
          (by have := j.isLt; show 64 * (l.val / 64) + j.val = 64 + j.val; omega)
    have hc : colOf (rightHalf x2) ⟨l.val - 64, by omega⟩ = fun kk => blockPair x2 kk l := funext fun kk =>
      half_apply x2 64 slices_S1024x128_o0_64_S1024x64 kk ⟨l.val - 64, by omega⟩ l (by show l.val = 64 + (l.val - 64); omega)
    rw [hr x0, hr x1, hc]

end Cert.KernelIdeal.AttentionBlock

end
-- ==== Proof.OutputBlock.lean ====
/-
  The last projection, on one batch entry's block.

  The third kernel reads a [1, 1024, 1024] block of attention outputs (token, feature), a [1024, 1024] weight matrix
  (output feature, input feature) and a bias row, and writes one [1, 1024, 1024] block. Entry (token n, output feature e)
  of what it writes depends on row n of the block, on row e of the weights and on entry e of the bias only: it is the dot
  product over the 1024 input features of the token's row with the weight's row, plus the bias entry.

  The body is a matrix product with both operands contracted on their last axis, accumulated into the zero matrix, so an
  entry of the product is that dot product; the bias row is copied to every token; the unit leading axis is dropped from
  the block before the product and put back after the sum, neither of which moves an entry. The block is written by one
  store that covers the whole buffer, so the buffer afterwards is the store's value.
-/
import proofs.«169902_j90718299226613_2_alg».proof.Proof.Spec
import proofs.«169902_j90718299226613_2_alg».proof.Proof.Gen.KernelIdeal.Frame
import proofs.«169902_j90718299226613_2_alg».proof.Proof.LibTransposedMatmul
import Idealize.ShloMosaic.Lib.ValueLayout
import Idealize.ShloMosaic.Lib.Pipeline.Value

noncomputable section

namespace Cert.KernelIdeal.OutputBlock

open Idealize.ShloMosaic Idealize.ShloMosaic.TcCoe Idealize.ShloMosaic.ValueIdx RotaryAttention
open Cert.KernelIdeal

/-- The zero offsets of a rank-3 buffer, however they are spelt. -/
theorem zero3 : (![0, 0, 0] : Fin 3 → Nat) = fun _ => 0 := funext fun a => by fin_cases a <;> rfl
/-- The zero offsets of a rank-2 buffer. -/
theorem zero2 : (![0, 0] : Fin 2 → Nat) = fun _ => 0 := funext fun a => by fin_cases a <;> rfl
/-- The zero offset of a rank-1 buffer. -/
theorem zero1 : (![0] : Fin 1 → Nat) = fun _ => 0 := funext fun a => by fin_cases a; rfl

/-- The stored value at (token n, output feature e): the token's row against the weight's row, plus the bias entry. -/
theorem pay_apply (v0 : Vec Ideal S1x1024x1024 .bf16) (v2 : Vec Ideal S1024x1024 .bf16) (v5 : Vec Ideal S1024 .f32)
    (n e : Fin 1024) :
    Gen.k2_pay1 (F := Ideal) v0 v2 v5 (ix3 0 n e)
      = (∑ d : Fin 1024, v0 (ix3 0 n d) * v2 (ix2 e d)) + v5 (ix1 e) := by
  unfold Gen.k2_pay1
  simp only [matmul]
  rw [shapeCast_ab_1ab_apply, addf_apply, broadcastTo_1b_ab_apply, shapeCast_a_1a_apply,
    Cert.LibTransposedMatmul.matmul_transposedRhs_zero_apply (M := 1024) (K := 1024) (N := 1024)
      dot_S1024x1024_S1024x1024_S1024x1024_1_1_0_0_n_n rfl]
  congr 1
  refine Finset.sum_congr rfl fun d _ => ?_
  rw [shapeCast_1ab_ab_apply, shapeCast_self]

theorem outputBlock_apply (x0 : Vec Ideal S1x1024x1024 .bf16) (x1 : Vec Ideal S1024x1024 .bf16) (x2 : Vec Ideal S1024 .f32) (n e : Fin 1024) :
    Cert.KernelIdeal.Gen.out2_3 (F := Ideal) x0 x1 x2 (ix3 0 n e) = addBias (proj (blockTok x0) (matOf x1)) (rowOf x2) n e := by
  unfold Gen.out2_3
  rw [View.canon_unit_zero zero3]
  simp only [View.ld_unit_zero (S := S1x1024x1024) zero3, View.ld_unit_zero (S := S1024x1024) zero2,
    View.ld_unit_zero (S := S1024) zero1]
  rw [pay_apply]
  rfl

end Cert.KernelIdeal.OutputBlock

end
-- ==== Proof.ProjectionArrays.lean ====
/-
  From the block one grid point writes to the whole arrays, for the region that projects and rotates.

  The region runs over four grid points, one per batch entry. At grid point t the windows of the tokens, of the
  cosines and of the sines hold batch entry t of their arrays (block index (t, 0, 0), a block one batch entry long);
  the windows of the three weight matrices and of the two bias rows hold the whole array at every point (block index
  0 on every axis); each of the three output windows writes back, at every point, a block of one batch entry,
  [1, 8, 1024, 128] of [4, 8, 1024, 128], at block index (t, 0, 0, 0). These block indices are decided once over the
  four points.

  An element of a block sits in its array, on each axis, at block index × block size + its own coordinate. So reading
  an input block at a coordinate reads the array at batch entry t and the same remaining coordinates; element
  (0, g, n, l) of an output block lands at (t, g, n, l); and every index (b, g, n, l) of an output array is in the
  block of the point t = b, which writes back. Hence, when the block a point writes is, entry by entry, a function P
  of that point's input blocks, the array after the region is, batch entry by batch entry, P of the input arrays'
  batch entries: the packed rotated queries, the packed rotated keys, the packed values.

  What the body computes on one block (that each output block is the packed queries, keys or values of the input
  blocks) is a hypothesis of the three theorems.
-/
import proofs.«169902_j90718299226613_2_alg».proof.Proof.Gen.KernelIdeal.Frame
import proofs.«169902_j90718299226613_2_alg».proof.Proof.Spec
import Idealize.ShloMosaic.Lib.Pipeline.Value

set_option maxRecDepth 16384

noncomputable section

namespace Cert.KernelIdeal.ProjectionArrays

open Idealize.ShloMosaic Idealize.ShloMosaic.TcCoe Idealize.ShloMosaic.ValueIdx Idealize.SL.Sem RotaryAttention
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The batch entry a grid point works on: the point's own number. -/
def entry (t : Fin cfg0.N) : Fin 4 := ⟨t.val, lt_of_lt_of_eq t.isLt N_0⟩

/-- A [4, 8, 1024, 128] array given batch entry by batch entry. -/
def ofEntries (P : Fin 4 → Packed) : S4x8x1024x128.Idx → EReal := fun i => P (i 0) (i 1) (i 2) (i 3)

theorem packedOf_ofEntries (P : Fin 4 → Packed) (b : Fin 4) : packedOf (ofEntries P) b = P b := rfl

/-! ## Where each window's block sits: decided once over the four grid points -/

theorem index_win0_0 : ∀ t : Fin cfg0.N,
    win0_0.index t (0 : Fin 3) = t.val ∧ win0_0.index t (1 : Fin 3) = 0 ∧ win0_0.index t (2 : Fin 3) = 0 :=
  (by decide +kernel : ∀ t : Fin grid0.N, _)
theorem index_win0_1 : ∀ t : Fin cfg0.N,
    win0_1.index t (0 : Fin 3) = t.val ∧ win0_1.index t (1 : Fin 3) = 0 ∧ win0_1.index t (2 : Fin 3) = 0 :=
  (by decide +kernel : ∀ t : Fin grid0.N, _)
theorem index_win0_2 : ∀ t : Fin cfg0.N,
    win0_2.index t (0 : Fin 3) = t.val ∧ win0_2.index t (1 : Fin 3) = 0 ∧ win0_2.index t (2 : Fin 3) = 0 :=
  (by decide +kernel : ∀ t : Fin grid0.N, _)
theorem index_win0_3 : ∀ t : Fin cfg0.N, win0_3.index t (0 : Fin 2) = 0 ∧ win0_3.index t (1 : Fin 2) = 0 :=
  (by decide +kernel : ∀ t : Fin grid0.N, _)
theorem index_win0_4 : ∀ t : Fin cfg0.N, win0_4.index t (0 : Fin 2) = 0 ∧ win0_4.index t (1 : Fin 2) = 0 :=
  (by decide +kernel : ∀ t : Fin grid0.N, _)
theorem index_win0_5 : ∀ t : Fin cfg0.N, win0_5.index t (0 : Fin 2) = 0 ∧ win0_5.index t (1 : Fin 2) = 0 :=
  (by decide +kernel : ∀ t : Fin grid0.N, _)
theorem index_win0_6 : ∀ t : Fin cfg0.N, win0_6.index t (0 : Fin 1) = 0 :=
  (by decide +kernel : ∀ t : Fin grid0.N, _)
theorem index_win0_7 : ∀ t : Fin cfg0.N, win0_7.index t (0 : Fin 1) = 0 :=
  (by decide +kernel : ∀ t : Fin grid0.N, _)
theorem index_win0_8 : ∀ t : Fin cfg0.N,
    win0_8.index t (0 : Fin 4) = t.val ∧ win0_8.index t (1 : Fin 4) = 0 ∧ win0_8.index t (2 : Fin 4) = 0
    ∧ win0_8.index t (3 : Fin 4) = 0 :=
  (by decide +kernel : ∀ t : Fin grid0.N, _)
theorem index_win0_9 : ∀ t : Fin cfg0.N,
    win0_9.index t (0 : Fin 4) = t.val ∧ win0_9.index t (1 : Fin 4) = 0 ∧ win0_9.index t (2 : Fin 4) = 0
    ∧ win0_9.index t (3 : Fin 4) = 0 :=
  (by decide +kernel : ∀ t : Fin grid0.N, _)
theorem index_win0_10 : ∀ t : Fin cfg0.N,
    win0_10.index t (0 : Fin 4) = t.val ∧ win0_10.index t (1 : Fin 4) = 0 ∧ win0_10.index t (2 : Fin 4) = 0
    ∧ win0_10.index t (3 : Fin 4) = 0 :=
  (by decide +kernel : ∀ t : Fin grid0.N, _)

/-! ## The input blocks at a grid point -/

/-- The tokens' block at a grid point is the point's batch entry of the tokens. -/
theorem tok_block (t : Fin cfg0.N) :
    blockTok (iblk0 (F := Ideal) V c 0 t) = tokOf (V c main_arg0) (entry t) := by
  obtain ⟨e0, e1, e2⟩ := index_win0_0 t
  funext n e
  show iblk0 (F := Ideal) V c 0 t (ix3 0 n e) = V c main_arg0 (ix3 (entry t) n e)
  unfold iblk0
  rw [View.read_apply]
  show V c main_arg0 _ = V c main_arg0 _
  refine congrArg (V c main_arg0) ?_
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 1024 + 1 * e.val = e.val; omega

/-- The cosines' block at a grid point is the point's batch entry of the cosines. -/
theorem cos_block (t : Fin cfg0.N) :
    blockAng (iblk0 (F := Ideal) V c 1 t) = angOf (V c main_arg1) (entry t) := by
  obtain ⟨e0, e1, e2⟩ := index_win0_1 t
  funext n e
  show iblk0 (F := Ideal) V c 1 t (ix3 0 n e) = V c main_arg1 (ix3 (entry t) n e)
  unfold iblk0
  rw [View.read_apply]
  show V c main_arg1 _ = V c main_arg1 _
  refine congrArg (V c main_arg1) ?_
  funext a
  apply Fin.ext
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 64 + 1 * e.val = e.val; omega

/-- The sines' block at a grid point is the point's batch entry of the sines. -/
theorem sin_block (t : Fin cfg0.N) :
    blockAng (iblk0 (F := Ideal) V c 2 t) = angOf (V c main_arg2) (entry t) := by
  obtain ⟨e0, e1, e2⟩ := index_win0_2 t
  funext n e
  show iblk0 (F := Ideal) V c 2 t (ix3 0 n e) = V c main_arg2 (ix3 (entry t) n e)
  unfold iblk0
  rw [View.read_apply]
  show V c main_arg2 _ = V c main_arg2 _
  refine congrArg (V c main_arg2) ?_
  funext a
  apply Fin.ext
  match a with
  | ⟨0, _⟩ => show win0_2.index t (0 : Fin 3) * 1 + 1 * 0 = t.val; omega
  | ⟨1, _⟩ => show win0_2.index t (1 : Fin 3) * 1024 + 1 * n.val = n.val; omega
  | ⟨2, _⟩ => show win0_2.index t (2 : Fin 3) * 64 + 1 * e.val = e.val; omega

/-- The query weights' block at every grid point is the whole matrix. -/
theorem wq_block (t : Fin cfg0.N) : matOf (iblk0 (F := Ideal) V c 3 t) = matOf (V c main_v0) := by
  obtain ⟨e0, e1⟩ := index_win0_3 t
  funext e d
  show iblk0 (F := Ideal) V c 3 t (ix2 e d) = V c main_v0 (ix2 e d)
  unfold iblk0
  rw [View.read_apply]
  show V c main_v0 _ = V c main_v0 _
  refine congrArg (V c main_v0) ?_
  funext a
  apply Fin.ext
  match a with
  | ⟨0, _⟩ => show win0_3.index t (0 : Fin 2) * 1024 + 1 * e.val = e.val; omega
  | ⟨1, _⟩ => show win0_3.index t (1 : Fin 2) * 1024 + 1 * d.val = d.val; omega

/-- The key weights' block at every grid point is the whole matrix. -/
theorem wk_block (t : Fin cfg0.N) : matOf (iblk0 (F := Ideal) V c 4 t) = matOf (V c main_v1) := by
  obtain ⟨e0, e1⟩ := index_win0_4 t
  funext e d
  show iblk0 (F := Ideal) V c 4 t (ix2 e d) = V c main_v1 (ix2 e d)
  unfold iblk0
  rw [View.read_apply]
  show V c main_v1 _ = V c main_v1 _
  refine congrArg (V c main_v1) ?_
  funext a
  apply Fin.ext
  match a with
  | ⟨0, _⟩ => show win0_4.index t (0 : Fin 2) * 1024 + 1 * e.val = e.val; omega
  | ⟨1, _⟩ => show win0_4.index t (1 : Fin 2) * 1024 + 1 * d.val = d.val; omega

/-- The value weights' block at every grid point is the whole matrix. -/
theorem wv_block (t : Fin cfg0.N) : matOf (iblk0 (F := Ideal) V c 5 t) = matOf (V c main_v2) := by
  obtain ⟨e0, e1⟩ := index_win0_5 t
  funext e d
  show iblk0 (F := Ideal) V c 5 t (ix2 e d) = V c main_v2 (ix2 e d)
  unfold iblk0
  rw [View.read_apply]
  show V c main_v2 _ = V c main_v2 _
  refine congrArg (V c main_v2) ?_
  funext a
  apply Fin.ext
  match a with
  | ⟨0, _⟩ => show win0_5.index t (0 : Fin 2) * 1024 + 1 * e.val = e.val; omega
  | ⟨1, _⟩ => show win0_5.index t (1 : Fin 2) * 1024 + 1 * d.val = d.val; omega

/-- The query bias's block at every grid point is the whole row. -/
theorem bq_block (t : Fin cfg0.N) : rowOf (iblk0 (F := Ideal) V c 6 t) = rowOf (V c main_arg4) := by
  have e0 := index_win0_6 t
  funext e
  show iblk0 (F := Ideal) V c 6 t (ix1 e) = V c main_arg4 (ix1 e)
  unfold iblk0
  rw [View.read_apply]
  show V c main_arg4 _ = V c main_arg4 _
  refine congrArg (V c main_arg4) ?_
  funext a
  apply Fin.ext
  match a with
  | ⟨0, _⟩ => show win0_6.index t (0 : Fin 1) * 1024 + 1 * e.val = e.val; omega

/-- The value bias's block at every grid point is the whole row. -/
theorem bv_block (t : Fin cfg0.N) : rowOf (iblk0 (F := Ideal) V c 7 t) = rowOf (V c main_arg7) := by
  have e0 := index_win0_7 t
  funext e
  show iblk0 (F := Ideal) V c 7 t (ix1 e) = V c main_arg7 (ix1 e)
  unfold iblk0
  rw [View.read_apply]
  show V c main_arg7 _ = V c main_arg7 _
  refine congrArg (V c main_arg7) ?_
  funext a
  apply Fin.ext
  match a with
  | ⟨0, _⟩ => show win0_7.index t (0 : Fin 1) * 1024 + 1 * e.val = e.val; omega

/-! ## The output blocks, the cover, the arrays -/

/-- What a grid point writes back to the array of the packed queries is its own batch entry of the array `ofEntries P`, once the
    point's block is known to be `P` at the point's batch entry: an element of the block sits in the array at the
    point's batch entry and at its own other three coordinates. -/
theorem flushed_8 (P : Fin 4 → Packed)
    (hP : ∀ (t : Fin cfg0.N) g n l, out0_8 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l)
    (t : Fin cfg0.N) :
    (dat0 (F := Ideal) V c).flushed 8 t = ((cfg0.win 8).blk t).view.read (Elt Ideal) (ofEntries P) := by
  show (cfg0.win 8).cut (grid0.coords t) ((dat0 (F := Ideal) V c).after 8 t) = _
  rw [after0_8]
  obtain ⟨e0, e1, e2, e3⟩ := index_win0_8 t
  funext j
  rw [View.read_apply]
  have hj0 : (j 0).val < 1 := (j 0).isLt
  have hj1 : (j 1).val < 8 := (j 1).isLt
  have hj2 : (j 2).val < 1024 := (j 2).isLt
  have hj3 : (j 3).val < 128 := (j 3).isLt
  have hx : (cfg0.win 8).xinj (grid0.coords t) j
      = ix4 (0 : Fin 1) (⟨(j 1).val, hj1⟩ : Fin 8) (⟨(j 2).val, hj2⟩ : Fin 1024) (⟨(j 3).val, hj3⟩ : Fin 128) := by
    funext a
    apply Fin.ext
    match a with
    | ⟨0, _⟩ => show (j 0).val = 0; omega
    | ⟨1, _⟩ => rfl
    | ⟨2, _⟩ => rfl
    | ⟨3, _⟩ => rfl
  have hemb : ((cfg0.win 8).blk t).view.emb j
      = ix4 (entry t) (⟨(j 1).val, hj1⟩ : Fin 8) (⟨(j 2).val, hj2⟩ : Fin 1024) (⟨(j 3).val, hj3⟩ : Fin 128) := by
    funext a
    apply Fin.ext
    match a with
    | ⟨0, _⟩ => show win0_8.index t (0 : Fin 4) * 1 + 1 * (j 0).val = t.val; omega
    | ⟨1, _⟩ => show win0_8.index t (1 : Fin 4) * 8 + 1 * (j 1).val = (j 1).val; omega
    | ⟨2, _⟩ => show win0_8.index t (2 : Fin 4) * 1024 + 1 * (j 2).val = (j 2).val; omega
    | ⟨3, _⟩ => show win0_8.index t (3 : Fin 4) * 128 + 1 * (j 3).val = (j 3).val; omega
  show out0_8 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) ((cfg0.win 8).xinj (grid0.coords t) j) = ofEntries P (((cfg0.win 8).blk t).view.emb j)
  rw [hx, hemb]
  exact hP t _ _ _

/-- Every index of the array of the packed queries is in the block of the grid point numbered by the index's batch entry. -/
theorem cover_8 (i : S4x8x1024x128.Idx) :
    ∃ t : Fin cfg0.N, (cfg0.win 8).flush t = true ∧ i ∈ ((cfg0.win 8).blk t).view.set := by
  have hi0 : (i 0).val < 4 := (i 0).isLt
  have hi1 : (i 1).val < 8 := (i 1).isLt
  have hi2 : (i 2).val < 1024 := (i 2).isLt
  have hi3 : (i 3).val < 128 := (i 3).isLt
  obtain ⟨t, ht⟩ : ∃ t : Fin cfg0.N, t.val = (i 0).val := ⟨⟨(i 0).val, lt_of_lt_of_eq hi0 N_0.symm⟩, rfl⟩
  obtain ⟨e0, e1, e2, e3⟩ := index_win0_8 t
  refine ⟨t, flush0_8 t, ?_⟩
  show i ∈ ((View.whole main_v4_0).slice (win0_8.rect t)).set
  rw [View.set_slice_whole, Rect.mem_set_unit]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 1024 ≤ (i 2).val ∧ (i 2).val < win0_8.index t (2 : Fin 4) * 1024 + 1024; omega
  | ⟨3, _⟩ => show win0_8.index t (3 : Fin 4) * 128 ≤ (i 3).val ∧ (i 3).val < win0_8.index t (3 : Fin 4) * 128 + 128; omega

/-- The array of the packed queries after the region is `ofEntries P`. -/
theorem final_8 (P : Fin 4 → Packed)
    (hP : ∀ (t : Fin cfg0.N) g n l, out0_8 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l) :
    (dat0 (F := Ideal) V c).arrAt 8 cfg0.N = ofEntries P :=
  (dat0 (F := Ideal) V c).arrAt_eq_of_cover 8 (ofEntries P) (fun t _ => flushed_8 V c P hP t) (cover_8)

/-- What a grid point writes back to the array of the packed keys is its own batch entry of the array `ofEntries P`, once the
    point's block is known to be `P` at the point's batch entry: an element of the block sits in the array at the
    point's batch entry and at its own other three coordinates. -/
theorem flushed_9 (P : Fin 4 → Packed)
    (hP : ∀ (t : Fin cfg0.N) g n l, out0_9 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l)
    (t : Fin cfg0.N) :
    (dat0 (F := Ideal) V c).flushed 9 t = ((cfg0.win 9).blk t).view.read (Elt Ideal) (ofEntries P) := by
  show (cfg0.win 9).cut (grid0.coords t) ((dat0 (F := Ideal) V c).after 9 t) = _
  rw [after0_9]
  obtain ⟨e0, e1, e2, e3⟩ := index_win0_9 t
  funext j
  rw [View.read_apply]
  have hj0 : (j 0).val < 1 := (j 0).isLt
  have hj1 : (j 1).val < 8 := (j 1).isLt
  have hj2 : (j 2).val < 1024 := (j 2).isLt
  have hj3 : (j 3).val < 128 := (j 3).isLt
  have hx : (cfg0.win 9).xinj (grid0.coords t) j
      = ix4 (0 : Fin 1) (⟨(j 1).val, hj1⟩ : Fin 8) (⟨(j 2).val, hj2⟩ : Fin 1024) (⟨(j 3).val, hj3⟩ : Fin 128) := by
    funext a
    apply Fin.ext
    match a with
    | ⟨0, _⟩ => show (j 0).val = 0; omega
    | ⟨1, _⟩ => rfl
    | ⟨2, _⟩ => rfl
    | ⟨3, _⟩ => rfl
  have hemb : ((cfg0.win 9).blk t).view.emb j
      = ix4 (entry t) (⟨(j 1).val, hj1⟩ : Fin 8) (⟨(j 2).val, hj2⟩ : Fin 1024) (⟨(j 3).val, hj3⟩ : Fin 128) := by
    funext a
    apply Fin.ext
    match a with
    | ⟨0, _⟩ => show win0_9.index t (0 : Fin 4) * 1 + 1 * (j 0).val = t.val; omega
    | ⟨1, _⟩ => show win0_9.index t (1 : Fin 4) * 8 + 1 * (j 1).val = (j 1).val; omega
    | ⟨2, _⟩ => show win0_9.index t (2 : Fin 4) * 1024 + 1 * (j 2).val = (j 2).val; omega
    | ⟨3, _⟩ => show win0_9.index t (3 : Fin 4) * 128 + 1 * (j 3).val = (j 3).val; omega
  show out0_9 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) ((cfg0.win 9).xinj (grid0.coords t) j) = ofEntries P (((cfg0.win 9).blk t).view.emb j)
  rw [hx, hemb]
  exact hP t _ _ _

/-- Every index of the array of the packed keys is in the block of the grid point numbered by the index's batch entry. -/
theorem cover_9 (i : S4x8x1024x128.Idx) :
    ∃ t : Fin cfg0.N, (cfg0.win 9).flush t = true ∧ i ∈ ((cfg0.win 9).blk t).view.set := by
  have hi0 : (i 0).val < 4 := (i 0).isLt
  have hi1 : (i 1).val < 8 := (i 1).isLt
  have hi2 : (i 2).val < 1024 := (i 2).isLt
  have hi3 : (i 3).val < 128 := (i 3).isLt
  obtain ⟨t, ht⟩ : ∃ t : Fin cfg0.N, t.val = (i 0).val := ⟨⟨(i 0).val, lt_of_lt_of_eq hi0 N_0.symm⟩, rfl⟩
  obtain ⟨e0, e1, e2, e3⟩ := index_win0_9 t
  refine ⟨t, flush0_9 t, ?_⟩
  show i ∈ ((View.whole main_v4_1).slice (win0_9.rect t)).set
  rw [View.set_slice_whole, Rect.mem_set_unit]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 1024 ≤ (i 2).val ∧ (i 2).val < win0_9.index t (2 : Fin 4) * 1024 + 1024; omega
  | ⟨3, _⟩ => show win0_9.index t (3 : Fin 4) * 128 ≤ (i 3).val ∧ (i 3).val < win0_9.index t (3 : Fin 4) * 128 + 128; omega

/-- The array of the packed keys after the region is `ofEntries P`. -/
theorem final_9 (P : Fin 4 → Packed)
    (hP : ∀ (t : Fin cfg0.N) g n l, out0_9 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l) :
    (dat0 (F := Ideal) V c).arrAt 9 cfg0.N = ofEntries P :=
  (dat0 (F := Ideal) V c).arrAt_eq_of_cover 9 (ofEntries P) (fun t _ => flushed_9 V c P hP t) (cover_9)

/-- What a grid point writes back to the array of the packed values is its own batch entry of the array `ofEntries P`, once the
    point's block is known to be `P` at the point's batch entry: an element of the block sits in the array at the
    point's batch entry and at its own other three coordinates. -/
theorem flushed_10 (P : Fin 4 → Packed)
    (hP : ∀ (t : Fin cfg0.N) g n l, out0_10 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l)
    (t : Fin cfg0.N) :
    (dat0 (F := Ideal) V c).flushed 10 t = ((cfg0.win 10).blk t).view.read (Elt Ideal) (ofEntries P) := by
  show (cfg0.win 10).cut (grid0.coords t) ((dat0 (F := Ideal) V c).after 10 t) = _
  rw [after0_10]
  obtain ⟨e0, e1, e2, e3⟩ := index_win0_10 t
  funext j
  rw [View.read_apply]
  have hj0 : (j 0).val < 1 := (j 0).isLt
  have hj1 : (j 1).val < 8 := (j 1).isLt
  have hj2 : (j 2).val < 1024 := (j 2).isLt
  have hj3 : (j 3).val < 128 := (j 3).isLt
  have hx : (cfg0.win 10).xinj (grid0.coords t) j
      = ix4 (0 : Fin 1) (⟨(j 1).val, hj1⟩ : Fin 8) (⟨(j 2).val, hj2⟩ : Fin 1024) (⟨(j 3).val, hj3⟩ : Fin 128) := by
    funext a
    apply Fin.ext
    match a with
    | ⟨0, _⟩ => show (j 0).val = 0; omega
    | ⟨1, _⟩ => rfl
    | ⟨2, _⟩ => rfl
    | ⟨3, _⟩ => rfl
  have hemb : ((cfg0.win 10).blk t).view.emb j
      = ix4 (entry t) (⟨(j 1).val, hj1⟩ : Fin 8) (⟨(j 2).val, hj2⟩ : Fin 1024) (⟨(j 3).val, hj3⟩ : Fin 128) := by
    funext a
    apply Fin.ext
    match a with
    | ⟨0, _⟩ => show win0_10.index t (0 : Fin 4) * 1 + 1 * (j 0).val = t.val; omega
    | ⟨1, _⟩ => show win0_10.index t (1 : Fin 4) * 8 + 1 * (j 1).val = (j 1).val; omega
    | ⟨2, _⟩ => show win0_10.index t (2 : Fin 4) * 1024 + 1 * (j 2).val = (j 2).val; omega
    | ⟨3, _⟩ => show win0_10.index t (3 : Fin 4) * 128 + 1 * (j 3).val = (j 3).val; omega
  show out0_10 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) ((cfg0.win 10).xinj (grid0.coords t) j) = ofEntries P (((cfg0.win 10).blk t).view.emb j)
  rw [hx, hemb]
  exact hP t _ _ _

/-- Every index of the array of the packed values is in the block of the grid point numbered by the index's batch entry. -/
theorem cover_10 (i : S4x8x1024x128.Idx) :
    ∃ t : Fin cfg0.N, (cfg0.win 10).flush t = true ∧ i ∈ ((cfg0.win 10).blk t).view.set := by
  have hi0 : (i 0).val < 4 := (i 0).isLt
  have hi1 : (i 1).val < 8 := (i 1).isLt
  have hi2 : (i 2).val < 1024 := (i 2).isLt
  have hi3 : (i 3).val < 128 := (i 3).isLt
  obtain ⟨t, ht⟩ : ∃ t : Fin cfg0.N, t.val = (i 0).val := ⟨⟨(i 0).val, lt_of_lt_of_eq hi0 N_0.symm⟩, rfl⟩
  obtain ⟨e0, e1, e2, e3⟩ := index_win0_10 t
  refine ⟨t, flush0_10 t, ?_⟩
  show i ∈ ((View.whole main_v4_2).slice (win0_10.rect t)).set
  rw [View.set_slice_whole, Rect.mem_set_unit]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 8 ≤ (i 1).val ∧ (i 1).val < win0_10.index t (1 : Fin 4) * 8 + 8; omega
  | ⟨2, _⟩ => show win0_10.index t (2 : Fin 4) * 1024 ≤ (i 2).val ∧ (i 2).val < win0_10.index t (2 : Fin 4) * 1024 + 1024; omega
  | ⟨3, _⟩ => show win0_10.index t (3 : Fin 4) * 128 ≤ (i 3).val ∧ (i 3).val < win0_10.index t (3 : Fin 4) * 128 + 128; omega

/-- The array of the packed values after the region is `ofEntries P`. -/
theorem final_10 (P : Fin 4 → Packed)
    (hP : ∀ (t : Fin cfg0.N) g n l, out0_10 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (ix4 0 g n l) = P (entry t) g n l) :
    (dat0 (F := Ideal) V c).arrAt 10 cfg0.N = ofEntries P :=
  (dat0 (F := Ideal) V c).arrAt_eq_of_cover 10 (ofEntries P) (fun t _ => flushed_10 V c P hP t) (cover_10)

/-! ## The three arrays as functions of the region's entry contents -/

variable (b : Fin 4)

theorem queries_array (hblk : ∀ x0 x1 x2 x3 x4 x5 x6 x7 g n l, out0_8 (F := Ideal) x0 x1 x2 x3 x4 x5 x6 x7 (ix4 0 g n l) = pack (queries (blockTok x0) (blockAng x1) (blockAng x2) (matOf x3) (rowOf x6)) g n l) :
    packedOf ((dat0 (F := Ideal) V c).arrAt 8 cfg0.N) b = pack (queries (tokOf (V c main_arg0) b) (angOf (V c main_arg1) b) (angOf (V c main_arg2) b) (matOf (V c main_v0)) (rowOf (V c main_arg4))) := by
  rw [final_8 V c (fun b => pack (queries (tokOf (V c main_arg0) b) (angOf (V c main_arg1) b) (angOf (V c main_arg2) b) (matOf (V c main_v0)) (rowOf (V c main_arg4))))
    (fun t g n l => by
      refine (hblk (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) g n l).trans ?_
      rw [tok_block V c t, cos_block V c t, sin_block V c t, wq_block V c t, bq_block V c t])]
  rfl

theorem keys_array (hblk : ∀ x0 x1 x2 x3 x4 x5 x6 x7 g n l, out0_9 (F := Ideal) x0 x1 x2 x3 x4 x5 x6 x7 (ix4 0 g n l) = pack (keys (blockTok x0) (blockAng x1) (blockAng x2) (matOf x4)) g n l) :
    packedOf ((dat0 (F := Ideal) V c).arrAt 9 cfg0.N) b = pack (keys (tokOf (V c main_arg0) b) (angOf (V c main_arg1) b) (angOf (V c main_arg2) b) (matOf (V c main_v1))) := by
  rw [final_9 V c (fun b => pack (keys (tokOf (V c main_arg0) b) (angOf (V c main_arg1) b) (angOf (V c main_arg2) b) (matOf (V c main_v1))))
    (fun t g n l => by
      refine (hblk (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) g n l).trans ?_
      rw [tok_block V c t, cos_block V c t, sin_block V c t, wk_block V c t])]
  rfl

theorem values_array (hblk : ∀ x0 x1 x2 x3 x4 x5 x6 x7 g n l, out0_10 (F := Ideal) x0 x1 x2 x3 x4 x5 x6 x7 (ix4 0 g n l) = pack (values (blockTok x0) (matOf x5) (rowOf x7)) g n l) :
    packedOf ((dat0 (F := Ideal) V c).arrAt 10 cfg0.N) b = pack (values (tokOf (V c main_arg0) b) (matOf (V c main_v2)) (rowOf (V c main_arg7))) := by
  rw [final_10 V c (fun b => pack (values (tokOf (V c main_arg0) b) (matOf (V c main_v2)) (rowOf (V c main_arg7))))
    (fun t g n l => by
      refine (hblk (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) g n l).trans ?_
      rw [tok_block V c t, wv_block V c t, bv_block V c t])]
  rfl

end Cert.KernelIdeal.ProjectionArrays

end
-- ==== Proof.AttentionArray.lean ====
/-
  Softmax attention on pairs of heads, from one block to the whole array.

  The attention region runs once per batch entry and pair of adjacent heads (4 × 8 points, the pair running fastest:
  point `t` is batch entry `t / 8`, pair `t % 8`). At a point it reads that batch entry's pair of each of the three
  packed [4, 8, 1024, 128] arrays (entry `(0, 0, n, l)` of a block is entry `(b, g, n, l)` of its array) and writes
  features `128 g … 128 g + 127` of that batch entry of the [4, 1024, 1024] output (entry `(0, n, l)` of the block is
  entry `(b, n, 128 g + l)` of the array). The index maps are decided once over the 32 points.

  GIVEN that the block the body leaves is `pairAfter` of the three blocks it read, the array after the region is ONE
  function of the arrays the region finds: at `(b, n, e)` it is the attention of pair `e / 128` of batch entry `b` at
  the pair's feature `e % 128` — the pairs' outputs laid back side by side, `attnOfPairs`. Every entry `(b, n, e)`
  lies in the block of the point `8 b + e / 128` (and every point writes its block back), so the blocks written cover
  the array and the array is that function everywhere.
-/
import proofs.«169902_j90718299226613_2_alg».proof.Proof.Gen.KernelIdeal.Frame
import proofs.«169902_j90718299226613_2_alg».proof.Proof.Spec
import Idealize.ShloMosaic.Lib.Pipeline.Value

set_option maxRecDepth 16384

noncomputable section

namespace Cert.KernelIdeal.AttentionArray

open Idealize.ShloMosaic Idealize.ShloMosaic.TcCoe Idealize.ShloMosaic.ValueIdx Idealize.SL.Sem RotaryAttention
open Idealize.ShloMosaic.Pipeline (Dat)
open Cert.KernelIdeal Cert.KernelIdeal.Gen

variable (V : (c : Dev nD) → (b : Ref sig .tc) → Buf (Elt Ideal) ((c : Thread nD τ).loc b)) (c : Dev nD) (b : Fin 4)

/-- Where each window of the attention region sits at grid point `t`: the grid is batch entry by pair of heads, the
    pair running fastest. -/
theorem attIdx : ∀ t : Fin cfg1.N,
    win1_0.index t (0 : Fin 4) = t.val / 8 ∧ win1_0.index t (1 : Fin 4) = t.val % 8 ∧ win1_0.index t (2 : Fin 4) = 0 ∧ win1_0.index t (3 : Fin 4) = 0
    ∧ win1_1.index t (0 : Fin 4) = t.val / 8 ∧ win1_1.index t (1 : Fin 4) = t.val % 8 ∧ win1_1.index t (2 : Fin 4) = 0 ∧ win1_1.index t (3 : Fin 4) = 0
    ∧ win1_2.index t (0 : Fin 4) = t.val / 8 ∧ win1_2.index t (1 : Fin 4) = t.val % 8 ∧ win1_2.index t (2 : Fin 4) = 0 ∧ win1_2.index t (3 : Fin 4) = 0
    ∧ win1_3.index t (0 : Fin 3) = t.val / 8 ∧ win1_3.index t (1 : Fin 3) = 0 ∧ win1_3.index t (2 : Fin 3) = t.val % 8 :=
  (by decide +kernel : ∀ t : Fin grid1.N, _)

/-- A grid point's batch entry. -/
def attBatch (t : Fin cfg1.N) : Fin 4 := ⟨t.val / 8, by have h : t.val < 32 := lt_of_lt_of_eq t.isLt N_1; omega⟩
/-- A grid point's pair of heads. -/
def attPair (t : Fin cfg1.N) : Fin 8 := ⟨t.val % 8, Nat.mod_lt _ (by norm_num)⟩

/-- A packed array's block at point `t` is its batch entry's pair of heads. -/
theorem attBlock0 (t : Fin cfg1.N) : blockPair (iblk1 (F := Ideal) V c 0 t) = packedOf (V c main_v4_0) (attBatch t) (attPair t) := by
  funext n l
  unfold blockPair packedOf iblk1
  rw [View.read_apply]
  show V c main_v4_0 _ = V c main_v4_0 _
  congr 1
  funext a
  apply Fin.ext
  obtain ⟨e0, e1, e2, e3, -⟩ := attIdx t
  match a with
  | ⟨0, _⟩ => show win1_0.index t (0 : Fin 4) * 1 + 1 * 0 = t.val / 8; omega
  | ⟨1, _⟩ => show win1_0.index t (1 : Fin 4) * 1 + 1 * 0 = t.val % 8; omega
  | ⟨2, _⟩ => show win1_0.index t (2 : Fin 4) * 1024 + 1 * n.val = n.val; omega
  | ⟨3, _⟩ => show win1_0.index t (3 : Fin 4) * 128 + 1 * l.val = l.val; omega

/-- The same for the second packed array. -/
theorem attBlock1 (t : Fin cfg1.N) : blockPair (iblk1 (F := Ideal) V c 1 t) = packedOf (V c main_v4_1) (attBatch t) (attPair t) := by
  funext n l
  unfold blockPair packedOf iblk1
  rw [View.read_apply]
  show V c main_v4_1 _ = V c main_v4_1 _
  congr 1
  funext a
  apply Fin.ext
  obtain ⟨-, -, -, -, e0, e1, e2, e3, -⟩ := attIdx t
  match a with
  | ⟨0, _⟩ => show win1_1.index t (0 : Fin 4) * 1 + 1 * 0 = t.val / 8; omega
  | ⟨1, _⟩ => show win1_1.index t (1 : Fin 4) * 1 + 1 * 0 = t.val % 8; omega
  | ⟨2, _⟩ => show win1_1.index t (2 : Fin 4) * 1024 + 1 * n.val = n.val; omega
  | ⟨3, _⟩ => show win1_1.index t (3 : Fin 4) * 128 + 1 * l.val = l.val; omega

/-- The same for the third packed array. -/
theorem attBlock2 (t : Fin cfg1.N) : blockPair (iblk1 (F := Ideal) V c 2 t) = packedOf (V c main_v4_2) (attBatch t) (attPair t) := by
  funext n l
  unfold blockPair packedOf iblk1
  rw [View.read_apply]
  show V c main_v4_2 _ = V c main_v4_2 _
  congr 1
  funext a
  apply Fin.ext
  obtain ⟨-, -, -, -, -, -, -, -, e0, e1, e2, e3, -⟩ := attIdx t
  match a with
  | ⟨0, _⟩ => show win1_2.index t (0 : Fin 4) * 1 + 1 * 0 = t.val / 8; omega
  | ⟨1, _⟩ => show win1_2.index t (1 : Fin 4) * 1 + 1 * 0 = t.val % 8; omega
  | ⟨2, _⟩ => show win1_2.index t (2 : Fin 4) * 1024 + 1 * n.val = n.val; omega
  | ⟨3, _⟩ => show win1_2.index t (3 : Fin 4) * 128 + 1 * l.val = l.val; omega

/-- The pairs' outputs laid side by side, read at feature `128 g + l`: pair `g`'s output at its feature `l`. -/
theorem attnOfPairs_at (qp kp vp : Packed) (g : Fin 8) (n : Fin 1024) (l : Fin 128) (e : Fin 1024) (he : e.val = 128 * g.val + l.val) :
    attnOfPairs qp kp vp n e = pairAfter (qp g) (kp g) (vp g) n l := by
  have hlt := l.isLt
  have hg : (⟨e.val / 128, by have := e.isLt; omega⟩ : Fin 8) = g := Fin.ext (by show e.val / 128 = g.val; omega)
  have hl : (⟨e.val % 128, Nat.mod_lt _ (by norm_num)⟩ : Fin 128) = l := Fin.ext (by show e.val % 128 = l.val; omega)
  show pairAfter (qp ⟨e.val / 128, _⟩) (kp ⟨e.val / 128, _⟩) (vp ⟨e.val / 128, _⟩) n ⟨e.val % 128, _⟩ = _
  rw [hg, hl]

/-- The whole attention output, as one function of the three packed arrays the region finds. -/
abbrev attG : S4x1024x1024.Idx → EReal := fun i =>
  attnOfPairs (packedOf (V c main_v4_0) (i 0)) (packedOf (V c main_v4_1) (i 0)) (packedOf (V c main_v4_2) (i 0)) (i 1) (i 2)

/-- What point `t` writes back is its block of `attG`, entry by entry. -/
theorem attFlushed_at (hblk : ∀ x0 x1 x2 n l, out1_3 (F := Ideal) x0 x1 x2 (ix3 0 n l) = pairAfter (blockPair x0) (blockPair x1) (blockPair x2) n l)
    (t : Fin cfg1.N) (j : S1x1024x128.Idx) :
    out1_3 (F := Ideal) (iblk1 V c 0 t) (iblk1 V c 1 t) (iblk1 V c 2 t) j = attG V c (((cfg1.win 3).blk t).view.emb j) := by
  obtain ⟨n, l, rfl⟩ : ∃ (n : Fin 1024) (l : Fin 128), j = ix3 0 n l :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  rw [hblk, attBlock0, attBlock1, attBlock2]
  obtain ⟨-, -, -, -, -, -, -, -, -, -, -, -, e0, e1, e2⟩ := attIdx t
  have h0 : (((cfg1.win 3).blk t).view.emb (ix3 0 n l) : S4x1024x1024.Idx) 0 = attBatch t :=
    Fin.ext (by show win1_3.index t (0 : Fin 3) * 1 + 1 * 0 = t.val / 8; omega)
  have h1 : (((cfg1.win 3).blk t).view.emb (ix3 0 n l) : S4x1024x1024.Idx) 1 = n :=
    Fin.ext (by show win1_3.index t (1 : Fin 3) * 1024 + 1 * n.val = n.val; omega)
  have h2 : ((((cfg1.win 3).blk t).view.emb (ix3 0 n l) : S4x1024x1024.Idx) 2).val = 128 * (attPair t).val + l.val := by
    show win1_3.index t (2 : Fin 3) * 128 + 1 * l.val = 128 * (t.val % 8) + l.val; omega
  show _ = attnOfPairs (packedOf (V c main_v4_0) _) (packedOf (V c main_v4_1) _) (packedOf (V c main_v4_2) _) _ _
  rw [h0, h1]
  exact (attnOfPairs_at _ _ _ (attPair t) n l _ h2).symm

/-- So what point `t` writes back is its block of `attG`. -/
theorem attFlushed (hblk : ∀ x0 x1 x2 n l, out1_3 (F := Ideal) x0 x1 x2 (ix3 0 n l) = pairAfter (blockPair x0) (blockPair x1) (blockPair x2) n l)
    (t : Fin cfg1.N) :
    (dat1 (F := Ideal) V c).flushed 3 t = ((cfg1.win 3).blk t).view.read (Elt Ideal) (attG V c) := by
  show (cfg1.win 3).cut (grid1.coords t) ((dat1 (F := Ideal) V c).after 3 t) = _
  rw [after1_3]
  funext j
  exact attFlushed_at V c hblk t j

/-- An index of the attention output is in point `t`'s block iff each coordinate is in the block's range on its axis. -/
theorem attMemBlock (t : Fin cfg1.N) (i : S4x1024x1024.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v5).slice (win1_3.rect t)).set ↔ _
  rw [View.set_slice_whole, Rect.mem_set_unit]
  exact Iff.rfl

/-- Every entry `(b, n, e)` of the attention output is written by the point of batch entry `b` and pair `e / 128`. -/
theorem attCover (i : S4x1024x1024.Idx) : ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  let t : Fin cfg1.N := ⟨8 * (i 0).val + (i 2).val / 128, lt_of_lt_of_eq (by omega : 8 * (i 0).val + (i 2).val / 128 < 32) N_1.symm⟩
  refine ⟨t, flush1_3 t, ?_⟩
  rw [attMemBlock]
  obtain ⟨-, -, -, -, -, -, -, -, -, -, -, -, e0, e1, e2⟩ := attIdx t
  have ht : t.val = 8 * (i 0).val + (i 2).val / 128 := rfl
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The array after the region is `attG`: the blocks written back cover it. -/
theorem attFinal (hblk : ∀ x0 x1 x2 n l, out1_3 (F := Ideal) x0 x1 x2 (ix3 0 n l) = pairAfter (blockPair x0) (blockPair x1) (blockPair x2) n l) :
    (dat1 (F := Ideal) V c).arrAt 3 cfg1.N = attG V c :=
  (dat1 (F := Ideal) V c).arrAt_eq_of_cover 3 (attG V c) (fun t _ => attFlushed V c hblk t) (attCover)

/-- Batch entry `b` of the attention output is the pairs' attention of batch entry `b` of the three packed arrays,
    laid side by side. -/
theorem attention_array (hblk : ∀ x0 x1 x2 n l, out1_3 (F := Ideal) x0 x1 x2 (ix3 0 n l) = pairAfter (blockPair x0) (blockPair x1) (blockPair x2) n l) :
    tokOf ((dat1 (F := Ideal) V c).arrAt 3 cfg1.N) b = attnOfPairs (packedOf (V c main_v4_0) b) (packedOf (V c main_v4_1) b) (packedOf (V c main_v4_2) b) := by
  rw [attFinal V c hblk]
  rfl

end Cert.KernelIdeal.AttentionArray

end
-- ==== Proof.OutputArray.lean ====
/-
  The output projection, from one block to the whole array.

  The last region runs once per batch entry. At point `t` it reads batch entry `t` of the attention output, the whole
  projection matrix and the whole bias row, and writes batch entry `t` of the [4, 1024, 1024] result: entry `(0, n, e)`
  of a block read or written at point `t` is entry `(t, n, e)` of its array, and an entry of the matrix or of the bias
  is the same entry at every point (the index maps, decided over the four points).

  GIVEN that the block the body leaves is `addBias (proj x w) β` of the blocks it read, the array after the region is
  ONE function of the arrays the region finds: at `(b, n, e)` it is `addBias (proj x_b w) β n e`, `x_b` batch entry
  `b` of the attention output. Every entry `(b, n, e)` of the result lies in the block of point `b` (and every point
  writes its block back), so the blocks written cover the array and the array is that function everywhere.
-/
import proofs.«169902_j90718299226613_2_alg».proof.Proof.Gen.KernelIdeal.Frame
import proofs.«169902_j90718299226613_2_alg».proof.Proof.Spec
import Idealize.ShloMosaic.Lib.Pipeline.Value

set_option maxRecDepth 16384

noncomputable section

namespace Cert.KernelIdeal.OutputArray

open Idealize.ShloMosaic Idealize.ShloMosaic.TcCoe Idealize.ShloMosaic.ValueIdx Idealize.SL.Sem RotaryAttention
open Idealize.ShloMosaic.Pipeline (Dat)
open Cert.KernelIdeal Cert.KernelIdeal.Gen

variable (V : (c : Dev nD) → (b : Ref sig .tc) → Buf (Elt Ideal) ((c : Thread nD τ).loc b)) (c : Dev nD) (b : Fin 4)

/-- Where each window of the last region sits at grid point `t`. -/
theorem outIdx : ∀ t : Fin cfg2.N, win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = t.val ∧ win2_3.index t (1 : Fin 3) = 0 ∧ win2_3.index t (2 : Fin 3) = 0 :=
  (by decide +kernel : ∀ t : Fin grid2.N, _)

/-- A grid point of the last region as a batch entry. -/
def outBatch (t : Fin cfg2.N) : Fin 4 := ⟨t.val, lt_of_lt_of_eq t.isLt N_2⟩

/-- The activations' block at point `t` is batch entry `t` of the attention output. -/
theorem outTokBlock (t : Fin cfg2.N) : blockTok (iblk2 (F := Ideal) V c 0 t) = tokOf (V c main_v5) (outBatch t) := by
  funext n d
  unfold blockTok tokOf iblk2
  rw [View.read_apply]
  show V c main_v5 _ = V c main_v5 _
  congr 1
  funext a
  apply Fin.ext
  obtain ⟨e0, e1, e2, -⟩ := outIdx t
  match a with
  | ⟨0, _⟩ => show win2_0.index t (0 : Fin 3) * 1 + 1 * 0 = t.val; omega
  | ⟨1, _⟩ => show win2_0.index t (1 : Fin 3) * 1024 + 1 * n.val = n.val; omega
  | ⟨2, _⟩ => show win2_0.index t (2 : Fin 3) * 1024 + 1 * d.val = d.val; omega

/-- The matrix's block is the whole matrix at every point. -/
theorem outMatBlock (t : Fin cfg2.N) : matOf (iblk2 (F := Ideal) V c 1 t) = matOf (V c main_v3) := by
  funext n d
  unfold matOf iblk2
  rw [View.read_apply]
  show V c main_v3 _ = V c main_v3 _
  congr 1
  funext a
  apply Fin.ext
  obtain ⟨-, -, -, e0, e1, -⟩ := outIdx t
  match a with
  | ⟨0, _⟩ => show win2_1.index t (0 : Fin 2) * 1024 + 1 * n.val = n.val; omega
  | ⟨1, _⟩ => show win2_1.index t (1 : Fin 2) * 1024 + 1 * d.val = d.val; omega

/-- The bias's block is the whole bias row at every point. -/
theorem outRowBlock (t : Fin cfg2.N) : rowOf (iblk2 (F := Ideal) V c 2 t) = rowOf (V c main_arg9) := by
  funext n
  unfold rowOf iblk2
  rw [View.read_apply]
  show V c main_arg9 _ = V c main_arg9 _
  congr 1
  funext a
  apply Fin.ext
  obtain ⟨-, -, -, -, -, e0, -⟩ := outIdx t
  match a with
  | ⟨0, _⟩ => show win2_2.index t (0 : Fin 1) * 1024 + 1 * n.val = n.val; omega

/-- The whole output array, as one function of the arrays the last region finds. -/
abbrev outG : S4x1024x1024.Idx → EReal := fun i =>
  addBias (proj (tokOf (V c main_v5) (i 0)) (matOf (V c main_v3))) (rowOf (V c main_arg9)) (i 1) (i 2)

/-- What point `t` writes back is batch entry `t` of `outG`, entry by entry. -/
theorem outFlushed_at (hblk : ∀ x0 x1 x2 n e, out2_3 (F := Ideal) x0 x1 x2 (ix3 0 n e) = addBias (proj (blockTok x0) (matOf x1)) (rowOf x2) n e)
    (t : Fin cfg2.N) (j : S1x1024x1024.Idx) :
    out2_3 (F := Ideal) (iblk2 V c 0 t) (iblk2 V c 1 t) (iblk2 V c 2 t) j = outG V c (((cfg2.win 3).blk t).view.emb j) := by
  obtain ⟨n, e, rfl⟩ : ∃ (n e : Fin 1024), j = ix3 0 n e :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  rw [hblk, outTokBlock, outMatBlock, outRowBlock]
  obtain ⟨-, -, -, -, -, -, e0, e1, e2⟩ := outIdx t
  have h0 : (((cfg2.win 3).blk t).view.emb (ix3 0 n e) : S4x1024x1024.Idx) 0 = outBatch t :=
    Fin.ext (by show win2_3.index t (0 : Fin 3) * 1 + 1 * 0 = t.val; omega)
  have h1 : (((cfg2.win 3).blk t).view.emb (ix3 0 n e) : S4x1024x1024.Idx) 1 = n :=
    Fin.ext (by show win2_3.index t (1 : Fin 3) * 1024 + 1 * n.val = n.val; omega)
  have h2 : (((cfg2.win 3).blk t).view.emb (ix3 0 n e) : S4x1024x1024.Idx) 2 = e :=
    Fin.ext (by show win2_3.index t (2 : Fin 3) * 1024 + 1 * e.val = e.val; omega)
  show _ = addBias (proj (tokOf (V c main_v5) _) (matOf (V c main_v3))) (rowOf (V c main_arg9)) _ _
  rw [h0, h1, h2]

/-- So what point `t` writes back is its block of `outG`. -/
theorem outFlushed (hblk : ∀ x0 x1 x2 n e, out2_3 (F := Ideal) x0 x1 x2 (ix3 0 n e) = addBias (proj (blockTok x0) (matOf x1)) (rowOf x2) n e)
    (t : Fin cfg2.N) :
    (dat2 (F := Ideal) V c).flushed 3 t = ((cfg2.win 3).blk t).view.read (Elt Ideal) (outG V c) := by
  show (cfg2.win 3).cut (grid2.coords t) ((dat2 (F := Ideal) V c).after 3 t) = _
  rw [after2_3]
  funext j
  exact outFlushed_at V c hblk t j

/-- An index of the output array is in point `t`'s block iff each coordinate is in the block's range on its axis. -/
theorem outMemBlock (t : Fin cfg2.N) (i : S4x1024x1024.Idx) :
    i ∈ ((cfg2.win 3).blk t).view.set ↔ ∀ a : Fin 3, win2_3.index t a * S1x1024x1024.size a ≤ (i a).val ∧ (i a).val < win2_3.index t a * S1x1024x1024.size a + S1x1024x1024.size a := by
  show i ∈ ((View.whole main_v6).slice (win2_3.rect t)).set ↔ _
  rw [View.set_slice_whole, Rect.mem_set_unit]
  exact Iff.rfl

/-- Every entry of the output array is written by the point of its batch entry. -/
theorem outCover (i : S4x1024x1024.Idx) : ∃ t : Fin cfg2.N, (cfg2.win 3).flush t = true ∧ i ∈ ((cfg2.win 3).blk t).view.set := by
  have hi0 : (i 0).val < 4 := (i 0).isLt
  have hi1 : (i 1).val < 1024 := (i 1).isLt
  have hi2 : (i 2).val < 1024 := (i 2).isLt
  let t : Fin cfg2.N := ⟨(i 0).val, lt_of_lt_of_eq hi0 N_2.symm⟩
  refine ⟨t, flush2_3 t, ?_⟩
  rw [outMemBlock]
  obtain ⟨-, -, -, -, -, -, e0, e1, e2⟩ := outIdx t
  have ht : t.val = (i 0).val := rfl
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 1024 ≤ (i 2).val ∧ (i 2).val < win2_3.index t (2 : Fin 3) * 1024 + 1024; omega

/-- The array after the region is `outG`: the blocks written back cover it. -/
theorem outFinal (hblk : ∀ x0 x1 x2 n e, out2_3 (F := Ideal) x0 x1 x2 (ix3 0 n e) = addBias (proj (blockTok x0) (matOf x1)) (rowOf x2) n e) :
    (dat2 (F := Ideal) V c).arrAt 3 cfg2.N = outG V c :=
  (dat2 (F := Ideal) V c).arrAt_eq_of_cover 3 (outG V c) (fun t _ => outFlushed V c hblk t) (outCover)

/-- Batch entry `b` of the result is the projection with bias of batch entry `b` of the attention output. -/
theorem output_array (hblk : ∀ x0 x1 x2 n e, out2_3 (F := Ideal) x0 x1 x2 (ix3 0 n e) = addBias (proj (blockTok x0) (matOf x1)) (rowOf x2) n e) :
    tokOf ((dat2 (F := Ideal) V c).arrAt 3 cfg2.N) b = addBias (proj (tokOf (V c main_v5) b) (matOf (V c main_v3))) (rowOf (V c main_arg9)) := by
  rw [outFinal V c hblk]
  rfl

end Cert.KernelIdeal.OutputArray

end
-- ==== Proof.KernelValue.lean ====
/-
  What the idealized kernel's result array holds, index by index, as a function of the ten argument arrays: the
  attention layer that divides after the weighted sum.

  The run folds the buffer contents through four segments. The host first casts the four weight matrices to the
  narrow format, which is the identity on extended reals, and touches nothing else. The first launch leaves, for every
  batch entry, the rotated queries, the rotated keys and the values, two heads side by side; the second leaves the
  attention of every pair of heads, the pairs laid back along the features, which is the attention of all sixteen
  heads; the third projects it and adds the bias. Each launch reads what the previous one left and the arguments as
  launched, so the result at batch entry `b`, token `n`, feature `e` is the layer's value there.
-/
import proofs.«169902_j90718299226613_2_alg».proof.Proof.Gen.KernelIdeal.Frame
import proofs.«169902_j90718299226613_2_alg».proof.Proof.Spec
import proofs.«169902_j90718299226613_2_alg».proof.Proof.QueryBlock
import proofs.«169902_j90718299226613_2_alg».proof.Proof.KeyBlock
import proofs.«169902_j90718299226613_2_alg».proof.Proof.ValueBlock
import proofs.«169902_j90718299226613_2_alg».proof.Proof.AttentionBlock
import proofs.«169902_j90718299226613_2_alg».proof.Proof.OutputBlock
import proofs.«169902_j90718299226613_2_alg».proof.Proof.ProjectionArrays
import proofs.«169902_j90718299226613_2_alg».proof.Proof.AttentionArray
import proofs.«169902_j90718299226613_2_alg».proof.Proof.OutputArray
set_option maxRecDepth 16384
noncomputable section
namespace Cert.KernelIdeal.Value
open Idealize.ShloMosaic Idealize.ShloMosaic.TcCoe Idealize.ShloMosaic.ValueIdx Idealize.SL.Sem RotaryAttention
open Cert.KernelIdeal Cert.KernelIdeal.Gen

variable (m : (ℓ : Loc nD τ sig) → Buf (Elt Ideal) ℓ) (ρ : Dev nD → PrngReg) (c : Dev nD)

/-! ## The first launch's entry contents: the host has cast the four weight matrices, nothing else moved -/

theorem cast_wq : (V1 m ρ c main_v0 : S1024x1024.Idx → EReal) = m ((c : Thread nD τ).loc main_arg3) := by
  show StableHlo.after hostOps0 (W0 m ρ c) (Proc.devRef .tc main_v0) = _
  dsimp only [hostOps0]; after_results; rfl
theorem cast_wk : (V1 m ρ c main_v1 : S1024x1024.Idx → EReal) = m ((c : Thread nD τ).loc main_arg5) := by
  show StableHlo.after hostOps0 (W0 m ρ c) (Proc.devRef .tc main_v1) = _
  dsimp only [hostOps0]; after_results; rfl
theorem cast_wv : (V1 m ρ c main_v2 : S1024x1024.Idx → EReal) = m ((c : Thread nD τ).loc main_arg6) := by
  show StableHlo.after hostOps0 (W0 m ρ c) (Proc.devRef .tc main_v2) = _
  dsimp only [hostOps0]; after_results; rfl
theorem cast_wo : (V1 m ρ c main_v3 : S1024x1024.Idx → EReal) = m ((c : Thread nD τ).loc main_arg8) := by
  show StableHlo.after hostOps0 (W0 m ρ c) (Proc.devRef .tc main_v3) = _
  dsimp only [hostOps0]; after_results; rfl

theorem entry_x : V1 m ρ c main_arg0 = m ((c : Thread nD τ).loc main_arg0) := by
  show StableHlo.after hostOps0 (W0 m ρ c) (Proc.devRef .tc main_arg0) = _
  dsimp only [hostOps0]; after_results
theorem entry_cos : V1 m ρ c main_arg1 = m ((c : Thread nD τ).loc main_arg1) := by
  show StableHlo.after hostOps0 (W0 m ρ c) (Proc.devRef .tc main_arg1) = _
  dsimp only [hostOps0]; after_results
theorem entry_sin : V1 m ρ c main_arg2 = m ((c : Thread nD τ).loc main_arg2) := by
  show StableHlo.after hostOps0 (W0 m ρ c) (Proc.devRef .tc main_arg2) = _
  dsimp only [hostOps0]; after_results
theorem entry_bq : V1 m ρ c main_arg4 = m ((c : Thread nD τ).loc main_arg4) := by
  show StableHlo.after hostOps0 (W0 m ρ c) (Proc.devRef .tc main_arg4) = _
  dsimp only [hostOps0]; after_results
theorem entry_bv : V1 m ρ c main_arg7 = m ((c : Thread nD τ).loc main_arg7) := by
  show StableHlo.after hostOps0 (W0 m ρ c) (Proc.devRef .tc main_arg7) = _
  dsimp only [hostOps0]; after_results
theorem entry_bo : V1 m ρ c main_arg9 = m ((c : Thread nD τ).loc main_arg9) := by
  show StableHlo.after hostOps0 (W0 m ρ c) (Proc.devRef .tc main_arg9) = _
  dsimp only [hostOps0]; after_results

/-! ## The first launch's exit: the rotated queries, rotated keys and values, two heads side by side -/

variable (b : Fin 4)

/-- The arguments read by coordinates, batch entry `b`. -/
abbrev X := tokOf (m ((c : Thread nD τ).loc main_arg0)) b
abbrev CS := angOf (m ((c : Thread nD τ).loc main_arg1)) b
abbrev SN := angOf (m ((c : Thread nD τ).loc main_arg2)) b
abbrev WQ := matOf (m ((c : Thread nD τ).loc main_arg3))
abbrev BQ := rowOf (m ((c : Thread nD τ).loc main_arg4))
abbrev WK := matOf (m ((c : Thread nD τ).loc main_arg5))
abbrev WV := matOf (m ((c : Thread nD τ).loc main_arg6))
abbrev BV := rowOf (m ((c : Thread nD τ).loc main_arg7))
abbrev WO := matOf (m ((c : Thread nD τ).loc main_arg8))
abbrev BO := rowOf (m ((c : Thread nD τ).loc main_arg9))

theorem queries_exit : packedOf (V2 m ρ c main_v4_0) b = pack (queries (X m c b) (CS m c b) (SN m c b) (WQ m c) (BQ m c)) := by
  have h := Cert.KernelIdeal.ProjectionArrays.queries_array (V1 m ρ) c b Cert.KernelIdeal.QueryBlock.queryBlock_apply
  rw [cast_wq, entry_x, entry_cos, entry_sin, entry_bq] at h
  exact (congrArg (fun a => packedOf a b) (W2_arr m ρ c 8)).trans h

theorem keys_exit : packedOf (V2 m ρ c main_v4_1) b = pack (keys (X m c b) (CS m c b) (SN m c b) (WK m c)) := by
  have h := Cert.KernelIdeal.ProjectionArrays.keys_array (V1 m ρ) c b Cert.KernelIdeal.KeyBlock.keyBlock_apply
  rw [cast_wk, entry_x, entry_cos, entry_sin] at h
  exact (congrArg (fun a => packedOf a b) (W2_arr m ρ c 9)).trans h

theorem values_exit : packedOf (V2 m ρ c main_v4_2) b = pack (values (X m c b) (WV m c) (BV m c)) := by
  have h := Cert.KernelIdeal.ProjectionArrays.values_array (V1 m ρ) c b Cert.KernelIdeal.ValueBlock.valueBlock_apply
  rw [cast_wv, entry_x, entry_bv] at h
  exact (congrArg (fun a => packedOf a b) (W2_arr m ρ c 10)).trans h

/-! ## The second launch's exit: attention, the pairs laid back along the features -/

theorem attention_exit : tokOf (V3 m ρ c main_v5) b
    = attnAfter (queries (X m c b) (CS m c b) (SN m c b) (WQ m c) (BQ m c)) (keys (X m c b) (CS m c b) (SN m c b) (WK m c)) (values (X m c b) (WV m c) (BV m c)) := by
  have h := Cert.KernelIdeal.AttentionArray.attention_array (V2 m ρ) c b Cert.KernelIdeal.AttentionBlock.attentionBlock_apply
  rw [queries_exit, keys_exit, values_exit, attnOfPairs_pack] at h
  exact (congrArg (fun a => tokOf a b) (W3_arr m ρ c 3)).trans h

/-- The output weights and bias reach the third launch as the host left them. -/
theorem wo_at_third : (V3 m ρ c main_v3 : S1024x1024.Idx → EReal) = m ((c : Thread nD τ).loc main_arg8) :=
  ((W3_of_ne m ρ c main_v3 (by decide)).trans (W2_of_ne m ρ c main_v3 (by decide))).trans (cast_wo m ρ c)
theorem bo_at_third : V3 m ρ c main_arg9 = m ((c : Thread nD τ).loc main_arg9) :=
  ((W3_of_ne m ρ c main_arg9 (by decide)).trans (W2_of_ne m ρ c main_arg9 (by decide))).trans (entry_bo m ρ c)

/-! ## The result -/

theorem result_value (n e : Fin 1024) :
    (W4 m ρ c (Proc.devRef .tc main_v6) : S4x1024x1024.Idx → EReal) (ix3 b n e)
      = layerAfter (X m c b) (CS m c b) (SN m c b) (WQ m c) (BQ m c) (WK m c) (WV m c) (BV m c) (WO m c) (BO m c) n e := by
  have h := Cert.KernelIdeal.OutputArray.output_array (V3 m ρ) c b Cert.KernelIdeal.OutputBlock.outputBlock_apply
  rw [attention_exit, wo_at_third, bo_at_third] at h
  exact congrFun (congrFun ((congrArg (fun a => tokOf a b) (W4_arr m ρ c 3)).trans h) n) e

end Cert.KernelIdeal.Value
end
-- ==== Proof.ReferenceProjections.lean ====
/-
  The reference program's rotated queries, rotated keys and values, read one entry at a time.

  Each of the three is built from a projection `x · wᵀ` of the [4, 1024, 1024] tokens (entry `(b, n, e)` is the sum over
  `d` of `x (b, n, d) * w (e, d)`, plus `β e` where there is a bias), reshaped to [4, 1024, 16, 64] and transposed to
  [4, 16, 1024, 64]. A reshape keeps row-major positions, and `((b · 1024 + n) · 16 + h) · 64 + j` is the position of
  `(b, n, 64 h + j)` in the [4, 1024, 1024] array; so entry `(b, h, n, j)` of the transposed array is entry
  `(b, n, 64 h + j)` of the projection: feature `j` of head `h`.

  The rotation's partner array is a concatenation along the last axis of two half-width pieces: the negated upper half
  (features 32 … 63 of the head) followed by the lower half (features 0 … 31). Read at `(b, h, n, j)` it is minus the
  entry at `j + 32` when `j < 32` and the entry at `j − 32` otherwise; since `(64 h + j) % 64 = j`, that is the
  specification's partner of feature `64 h + j`, whose place inside its head is `j`. The cosines and sines are broadcast
  over the heads, so at `(b, h, n, j)` they are the [4, 1024, 64] arrays at `(b, n, j)`. Multiplying and adding entry by
  entry gives the specification's rotary embedding at token `n`, feature `64 h + j`.
-/
import proofs.«169902_j90718299226613_2_alg».proof.Proof.Spec
import proofs.«169902_j90718299226613_2_alg».proof.Proof.Gen.ReferenceIdeal.Read

noncomputable section

open Idealize.ShloMosaic Idealize.ShloMosaic.TcCoe Idealize.ShloMosaic.ValueIdx RotaryAttention

namespace Cert.ReferenceIdeal.Projections

open Cert.ReferenceIdeal Cert.ReferenceIdeal.Read

/-! ## Values: projection with a bias, split into heads -/

theorem tr14 (b : Fin 4) (h : Fin 16) (n : Fin 1024) (j : Fin 64) :
    idx_main_v14 (ix4 b h n j) = ix4 b n h j :=
  funext fun a => Fin.ext (by match a with | ⟨0, _⟩ => rfl | ⟨1, _⟩ => rfl | ⟨2, _⟩ => rfl | ⟨3, _⟩ => rfl)

theorem rs13 (b : Fin 4) (n : Fin 1024) (h : Fin 16) (j : Fin 64) :
    idx_main_v13 (ix4 b n h j) = ix3 b n (feat h j) :=
  funext fun a => Fin.ext (by
    have hb := b.isLt; have hn := n.isLt; have hh := h.isLt; have hj := j.isLt
    match a with
    | ⟨0, _⟩ => show (((b.val * 1024 + n.val) * 16 + h.val) * 64 + j.val) / 1048576 = b.val; omega
    | ⟨1, _⟩ => show (((b.val * 1024 + n.val) * 16 + h.val) * 64 + j.val) / 1024 % 1024 = n.val; omega
    | ⟨2, _⟩ => show (((b.val * 1024 + n.val) * 16 + h.val) * 64 + j.val) % 1024 = 64 * h.val + j.val; omega)

theorem l5 (b : Fin 4) (n e k : Fin 1024) : lidx_main_v5 (ix3 b n e) k = ix3 b n k :=
  funext fun a => Fin.ext (by match a with | ⟨0, _⟩ => rfl | ⟨1, _⟩ => rfl | ⟨2, _⟩ => rfl)
theorem r5 (b : Fin 4) (n e k : Fin 1024) : ridx_main_v5 (ix3 b n e) k = ix2 e k :=
  funext fun a => Fin.ext (by match a with | ⟨0, _⟩ => rfl | ⟨1, _⟩ => rfl)

theorem b7 (b : Fin 4) (n e : Fin 1024) : idx_main_v6 (idx_main_v7 (ix3 b n e)) = ix1 e :=
  funext fun a => Fin.ext (by match a with | ⟨0, _⟩ => rfl)

theorem ref_values (x0 : (⟨S4x1024x1024, .f32⟩ : BufTy).Contents (Elt Ideal)) (x6 : (⟨S1024x1024, .f32⟩ : BufTy).Contents (Elt Ideal)) (x7 : (⟨S1024, .f32⟩ : BufTy).Contents (Elt Ideal)) (b : Fin 4) (h : Fin 16) (n : Fin 1024) (j : Fin 64) :
    Read.val_main_v14 (F := Ideal) x0 x6 x7 (ix4 b h n j)
      = values (tokOf x0 b) (matOf x6) (rowOf x7) n (feat h j) := by
  rw [val_main_v14_apply, val_main_v13_apply, val_main_v8_apply, val_main_v5_apply, val_main_v7_apply, val_main_v6_apply]
  simp only [tr14, rs13, l5, r5, b7, Ideal.addf_def]
  rfl

/-! ## The specification's rotation read at feature `j` of head `h` -/

theorem lane_feat (h : Fin 16) (j : Fin 64) : lane (feat h j) = j :=
  Fin.ext (by have := j.isLt; show (64 * h.val + j.val) % 64 = j.val; omega)

theorem rope_feat (P : Tok) (cs sn : Ang) (n : Fin 1024) (h : Fin 16) (j : Fin 64) :
    rope P cs sn n (feat h j) = P n (feat h j) * cs n j
      + (if hj : j.val < 32 then -(P n (feat h ⟨j.val + 32, by omega⟩))
         else P n (feat h ⟨j.val - 32, by have := j.isLt; omega⟩)) * sn n j := by
  have hj64 := j.isLt
  have hm : (feat h j).val % 64 = j.val := by show (64 * h.val + j.val) % 64 = j.val; omega
  unfold rope rotHalf
  rw [lane_feat]
  by_cases hj : j.val < 32
  · have e : ∀ pf : (feat h j).val + 32 < 1024,
        (⟨(feat h j).val + 32, pf⟩ : Fin 1024) = feat h ⟨j.val + 32, by omega⟩ :=
      fun pf => Fin.ext (by show 64 * h.val + j.val + 32 = 64 * h.val + (j.val + 32); omega)
    rw [dif_pos hj, dif_pos (by rw [hm]; exact hj), e]
  · have e : ∀ pf : (feat h j).val - 32 < 1024,
        (⟨(feat h j).val - 32, pf⟩ : Fin 1024) = feat h ⟨j.val - 32, by omega⟩ :=
      fun pf => Fin.ext (by show 64 * h.val + j.val - 32 = 64 * h.val + (j.val - 32); omega)
    rw [dif_neg hj, dif_neg (by rw [hm]; exact hj), e]

/-! ## Two half-width pieces joined along the last axis -/

theorem halves_apply {α : Type} (u v : S4x16x1024x32.Idx → α)
    (hc : Shape.Concatenates [S4x16x1024x32, S4x16x1024x32] S4x16x1024x64 3) (b : Fin 4) (h : Fin 16) (n : Fin 1024) (j : Fin 64) :
    concatenate S4x16x1024x64 3 [⟨S4x16x1024x32, u⟩, ⟨S4x16x1024x32, v⟩] hc (ix4 b h n j)
      = if hj : j.val < 32 then u (ix4 b h n (⟨j.val, hj⟩ : Fin 32))
        else v (ix4 b h n (⟨j.val - 32, by have := j.isLt; omega⟩ : Fin 32)) := by
  have hj64 := j.isLt
  by_cases hj : j.val < 32
  · rw [dif_pos hj]
    exact concatenate_pair_apply_left 3 u v hc (ix4 b h n j) rfl (ix4 b h n (⟨j.val, hj⟩ : Fin 32)) (fun a => by
      match a with
      | ⟨0, _⟩ => rfl
      | ⟨1, _⟩ => rfl
      | ⟨2, _⟩ => rfl
      | ⟨3, _⟩ => rfl)
  · rw [dif_neg hj]
    exact concatenate_pair_apply_right 3 u v hc (ix4 b h n j) rfl rfl
      (ix4 b h n (⟨j.val - 32, by omega⟩ : Fin 32)) (fun a ha => by
      match a with
      | ⟨0, _⟩ => rfl
      | ⟨1, _⟩ => rfl
      | ⟨2, _⟩ => rfl
      | ⟨3, _⟩ => exact absurd rfl ha) (by
      show (j.val - 32) + 32 = j.val
      omega)

/-! ## Keys -/

theorem tr12 (b : Fin 4) (h : Fin 16) (n : Fin 1024) (j : Fin 64) :
    idx_main_v12 (ix4 b h n j) = ix4 b n h j :=
  funext fun a => Fin.ext (by match a with | ⟨0, _⟩ => rfl | ⟨1, _⟩ => rfl | ⟨2, _⟩ => rfl | ⟨3, _⟩ => rfl)

theorem rs11 (b : Fin 4) (n : Fin 1024) (h : Fin 16) (j : Fin 64) :
    idx_main_v11 (ix4 b n h j) = ix3 b n (feat h j) :=
  funext fun a => Fin.ext (by
    have hb := b.isLt; have hn := n.isLt; have hh := h.isLt; have hj := j.isLt
    match a with
    | ⟨0, _⟩ => show (((b.val * 1024 + n.val) * 16 + h.val) * 64 + j.val) / 1048576 = b.val; omega
    | ⟨1, _⟩ => show (((b.val * 1024 + n.val) * 16 + h.val) * 64 + j.val) / 1024 % 1024 = n.val; omega
    | ⟨2, _⟩ => show (((b.val * 1024 + n.val) * 16 + h.val) * 64 + j.val) % 1024 = 64 * h.val + j.val; omega)

theorem l4 (b : Fin 4) (n e k : Fin 1024) : lidx_main_v4 (ix3 b n e) k = ix3 b n k :=
  funext fun a => Fin.ext (by match a with | ⟨0, _⟩ => rfl | ⟨1, _⟩ => rfl | ⟨2, _⟩ => rfl)
theorem r4 (b : Fin 4) (n e k : Fin 1024) : ridx_main_v4 (ix3 b n e) k = ix2 e k :=
  funext fun a => Fin.ext (by match a with | ⟨0, _⟩ => rfl | ⟨1, _⟩ => rfl)

theorem a26 (b : Fin 4) (h : Fin 16) (n : Fin 1024) (j : Fin 64) :
    idx_main_v15 (idx_main_v26 (ix4 b h n j)) = ix3 b n j :=
  funext fun a => Fin.ext (by match a with | ⟨0, _⟩ => rfl | ⟨1, _⟩ => rfl | ⟨2, _⟩ => rfl)

theorem a32 (b : Fin 4) (h : Fin 16) (n : Fin 1024) (j : Fin 64) :
    idx_main_v16 (idx_main_v32 (ix4 b h n j)) = ix3 b n j :=
  funext fun a => Fin.ext (by match a with | ⟨0, _⟩ => rfl | ⟨1, _⟩ => rfl | ⟨2, _⟩ => rfl)

theorem s29 (b : Fin 4) (h : Fin 16) (n : Fin 1024) (j : Fin 64) (hj : j.val < 32) :
    idx_main_v29 (ix4 b h n (⟨j.val, hj⟩ : Fin 32)) = ix4 b h n (⟨j.val + 32, by omega⟩ : Fin 64) :=
  funext fun a => Fin.ext (by
    match a with
    | ⟨0, _⟩ => rfl
    | ⟨1, _⟩ => rfl
    | ⟨2, _⟩ => rfl
    | ⟨3, _⟩ => show 32 + j.val = j.val + 32; omega)
theorem s28 (b : Fin 4) (h : Fin 16) (n : Fin 1024) (j : Fin 64) (hj : ¬ j.val < 32) :
    idx_main_v28 (ix4 b h n (⟨j.val - 32, by have := j.isLt; omega⟩ : Fin 32))
      = ix4 b h n (⟨j.val - 32, by have := j.isLt; omega⟩ : Fin 64) :=
  funext fun a => Fin.ext (by match a with | ⟨0, _⟩ => rfl | ⟨1, _⟩ => rfl | ⟨2, _⟩ => rfl | ⟨3, _⟩ => rfl)

/-- The key projection, split into heads. -/
theorem k_at (x0 : (⟨S4x1024x1024, .f32⟩ : BufTy).Contents (Elt Ideal)) (x5 : (⟨S1024x1024, .f32⟩ : BufTy).Contents (Elt Ideal)) (b : Fin 4) (h : Fin 16) (n : Fin 1024) (j : Fin 64) :
    val_main_v12 (F := Ideal) x0 x5 (ix4 b h n j) = proj (tokOf x0 b) (matOf x5) n (feat h j) := by
  rw [val_main_v12_apply, val_main_v11_apply, val_main_v4_apply]
  simp only [tr12, rs11, l4, r4]
  rfl

theorem v31_at (x0 : (⟨S4x1024x1024, .f32⟩ : BufTy).Contents (Elt Ideal)) (x5 : (⟨S1024x1024, .f32⟩ : BufTy).Contents (Elt Ideal)) (b : Fin 4) (h : Fin 16) (n : Fin 1024) (j : Fin 64) :
    val_main_v31 (F := Ideal) x0 x5 (ix4 b h n j)
      = if hj : j.val < 32 then -(val_main_v12 (F := Ideal) x0 x5 (ix4 b h n (⟨j.val + 32, by omega⟩ : Fin 64)))
        else val_main_v12 (F := Ideal) x0 x5 (ix4 b h n (⟨j.val - 32, by have := j.isLt; omega⟩ : Fin 64)) := by
  unfold val_main_v31
  rw [halves_apply]
  by_cases hj : j.val < 32
  · rw [dif_pos hj, dif_pos hj, val_main_v30_apply, val_main_v29_apply, s29 b h n j hj]
    rfl
  · rw [dif_neg hj, dif_neg hj, val_main_v28_apply, s28 b h n j hj]

theorem ref_keys (x0 : (⟨S4x1024x1024, .f32⟩ : BufTy).Contents (Elt Ideal)) (x1 : (⟨S4x1024x64, .f32⟩ : BufTy).Contents (Elt Ideal)) (x2 : (⟨S4x1024x64, .f32⟩ : BufTy).Contents (Elt Ideal)) (x5 : (⟨S1024x1024, .f32⟩ : BufTy).Contents (Elt Ideal)) (b : Fin 4) (h : Fin 16) (n : Fin 1024) (j : Fin 64) :
    Read.val_main_v34 (F := Ideal) x0 x1 x2 x5 (ix4 b h n j)
      = keys (tokOf x0 b) (angOf x1 b) (angOf x2 b) (matOf x5) n (feat h j) := by
  unfold keys
  rw [rope_feat, val_main_v34_apply, val_main_v27_apply, val_main_v33_apply, v31_at, val_main_v26_apply,
    val_main_v15_apply, val_main_v32_apply, val_main_v16_apply]
  simp only [k_at, a26, a32, Ideal.addf_def, Ideal.mulf_def]
  rfl

/-! ## Queries: as the keys, the projection carrying a bias -/

theorem tr10 (b : Fin 4) (h : Fin 16) (n : Fin 1024) (j : Fin 64) :
    idx_main_v10 (ix4 b h n j) = ix4 b n h j :=
  funext fun a => Fin.ext (by match a with | ⟨0, _⟩ => rfl | ⟨1, _⟩ => rfl | ⟨2, _⟩ => rfl | ⟨3, _⟩ => rfl)

theorem rs9 (b : Fin 4) (n : Fin 1024) (h : Fin 16) (j : Fin 64) :
    idx_main_v9 (ix4 b n h j) = ix3 b n (feat h j) :=
  funext fun a => Fin.ext (by
    have hb := b.isLt; have hn := n.isLt; have hh := h.isLt; have hj := j.isLt
    match a with
    | ⟨0, _⟩ => show (((b.val * 1024 + n.val) * 16 + h.val) * 64 + j.val) / 1048576 = b.val; omega
    | ⟨1, _⟩ => show (((b.val * 1024 + n.val) * 16 + h.val) * 64 + j.val) / 1024 % 1024 = n.val; omega
    | ⟨2, _⟩ => show (((b.val * 1024 + n.val) * 16 + h.val) * 64 + j.val) % 1024 = 64 * h.val + j.val; omega)

theorem l0 (b : Fin 4) (n e k : Fin 1024) : lidx_main_v0 (ix3 b n e) k = ix3 b n k :=
  funext fun a => Fin.ext (by match a with | ⟨0, _⟩ => rfl | ⟨1, _⟩ => rfl | ⟨2, _⟩ => rfl)
theorem r0 (b : Fin 4) (n e k : Fin 1024) : ridx_main_v0 (ix3 b n e) k = ix2 e k :=
  funext fun a => Fin.ext (by match a with | ⟨0, _⟩ => rfl | ⟨1, _⟩ => rfl)

theorem b2 (b : Fin 4) (n e : Fin 1024) : idx_main_v1 (idx_main_v2 (ix3 b n e)) = ix1 e :=
  funext fun a => Fin.ext (by match a with | ⟨0, _⟩ => rfl)

theorem a17 (b : Fin 4) (h : Fin 16) (n : Fin 1024) (j : Fin 64) :
    idx_main_v15 (idx_main_v17 (ix4 b h n j)) = ix3 b n j :=
  funext fun a => Fin.ext (by match a with | ⟨0, _⟩ => rfl | ⟨1, _⟩ => rfl | ⟨2, _⟩ => rfl)

theorem a23 (b : Fin 4) (h : Fin 16) (n : Fin 1024) (j : Fin 64) :
    idx_main_v16 (idx_main_v23 (ix4 b h n j)) = ix3 b n j :=
  funext fun a => Fin.ext (by match a with | ⟨0, _⟩ => rfl | ⟨1, _⟩ => rfl | ⟨2, _⟩ => rfl)

theorem s20 (b : Fin 4) (h : Fin 16) (n : Fin 1024) (j : Fin 64) (hj : j.val < 32) :
    idx_main_v20 (ix4 b h n (⟨j.val, hj⟩ : Fin 32)) = ix4 b h n (⟨j.val + 32, by omega⟩ : Fin 64) :=
  funext fun a => Fin.ext (by
    match a with
    | ⟨0, _⟩ => rfl
    | ⟨1, _⟩ => rfl
    | ⟨2, _⟩ => rfl
    | ⟨3, _⟩ => show 32 + j.val = j.val + 32; omega)
theorem s19 (b : Fin 4) (h : Fin 16) (n : Fin 1024) (j : Fin 64) (hj : ¬ j.val < 32) :
    idx_main_v19 (ix4 b h n (⟨j.val - 32, by have := j.isLt; omega⟩ : Fin 32))
      = ix4 b h n (⟨j.val - 32, by have := j.isLt; omega⟩ : Fin 64) :=
  funext fun a => Fin.ext (by match a with | ⟨0, _⟩ => rfl | ⟨1, _⟩ => rfl | ⟨2, _⟩ => rfl | ⟨3, _⟩ => rfl)

/-- The query projection with its bias, split into heads. -/
theorem q_at (x0 : (⟨S4x1024x1024, .f32⟩ : BufTy).Contents (Elt Ideal)) (x3 : (⟨S1024x1024, .f32⟩ : BufTy).Contents (Elt Ideal)) (x4 : (⟨S1024, .f32⟩ : BufTy).Contents (Elt Ideal)) (b : Fin 4) (h : Fin 16) (n : Fin 1024) (j : Fin 64) :
    val_main_v10 (F := Ideal) x0 x3 x4 (ix4 b h n j)
      = addBias (proj (tokOf x0 b) (matOf x3)) (rowOf x4) n (feat h j) := by
  rw [val_main_v10_apply, val_main_v9_apply, val_main_v3_apply, val_main_v0_apply, val_main_v2_apply, val_main_v1_apply]
  simp only [tr10, rs9, l0, r0, b2, Ideal.addf_def]
  rfl

theorem v22_at (x0 : (⟨S4x1024x1024, .f32⟩ : BufTy).Contents (Elt Ideal)) (x3 : (⟨S1024x1024, .f32⟩ : BufTy).Contents (Elt Ideal)) (x4 : (⟨S1024, .f32⟩ : BufTy).Contents (Elt Ideal)) (b : Fin 4) (h : Fin 16) (n : Fin 1024) (j : Fin 64) :
    val_main_v22 (F := Ideal) x0 x3 x4 (ix4 b h n j)
      = if hj : j.val < 32 then -(val_main_v10 (F := Ideal) x0 x3 x4 (ix4 b h n (⟨j.val + 32, by omega⟩ : Fin 64)))
        else val_main_v10 (F := Ideal) x0 x3 x4 (ix4 b h n (⟨j.val - 32, by have := j.isLt; omega⟩ : Fin 64)) := by
  unfold val_main_v22
  rw [halves_apply]
  by_cases hj : j.val < 32
  · rw [dif_pos hj, dif_pos hj, val_main_v21_apply, val_main_v20_apply, s20 b h n j hj]
    rfl
  · rw [dif_neg hj, dif_neg hj, val_main_v19_apply, s19 b h n j hj]

theorem ref_queries (x0 : (⟨S4x1024x1024, .f32⟩ : BufTy).Contents (Elt Ideal)) (x1 : (⟨S4x1024x64, .f32⟩ : BufTy).Contents (Elt Ideal)) (x2 : (⟨S4x1024x64, .f32⟩ : BufTy).Contents (Elt Ideal)) (x3 : (⟨S1024x1024, .f32⟩ : BufTy).Contents (Elt Ideal)) (x4 : (⟨S1024, .f32⟩ : BufTy).Contents (Elt Ideal)) (b : Fin 4) (h : Fin 16) (n : Fin 1024) (j : Fin 64) :
    Read.val_main_v25 (F := Ideal) x0 x1 x2 x3 x4 (ix4 b h n j)
      = queries (tokOf x0 b) (angOf x1 b) (angOf x2 b) (matOf x3) (rowOf x4) n (feat h j) := by
  unfold queries
  rw [rope_feat, val_main_v25_apply, val_main_v18_apply, val_main_v24_apply, v22_at, val_main_v17_apply,
    val_main_v15_apply, val_main_v23_apply, val_main_v16_apply]
  simp only [q_at, a17, a23, Ideal.addf_def, Ideal.mulf_def]
  rfl

end Cert.ReferenceIdeal.Projections

end
-- ==== Proof.ReferenceSoftmax.lean ====
/-
  The reference program's softmax and output stages, read one entry at a time.

  Given that its rotated queries, rotated keys and values are, entry by entry, the specification's
  (head h, token n, lane j of the [batch, head, token, lane] arrays is feature 64 h + j of token n), every later
  stage is identified with the specification's function of the same name:
  the scaled scores (a dot product over a head's 64 lanes times the 1/8 word), the row maximum (a fold of max from
  the −∞ word over the key tokens; taking the maximum with the same −∞ word once more changes nothing, because the
  fold already lies above its starting value), the weights exp (s − max), their sum (from the zero word, which is
  0), the divided weights, the combination with the value rows, the regrouping of (head, lane) back into a feature
  (e = 64 (e / 64) + e % 64), the last projection and its bias.
-/
import proofs.«169902_j90718299226613_2_alg».proof.Proof.Spec
import proofs.«169902_j90718299226613_2_alg».proof.Proof.Gen.ReferenceIdeal.Read

noncomputable section

namespace Cert.ReferenceIdeal.Softmax

open Cert.ReferenceIdeal Cert.ReferenceIdeal.Gen Idealize.ShloMosaic Idealize.ShloMosaic.TcCoe Idealize.ShloMosaic.ValueIdx RotaryAttention

variable (x0 : (⟨S4x1024x1024, .f32⟩ : BufTy).Contents (Elt Ideal)) (x1 x2 : (⟨S4x1024x64, .f32⟩ : BufTy).Contents (Elt Ideal))
  (x3 : (⟨S1024x1024, .f32⟩ : BufTy).Contents (Elt Ideal)) (x4 : (⟨S1024, .f32⟩ : BufTy).Contents (Elt Ideal))
  (x5 x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- Batch entry b's rotated queries, rotated keys and values, as the specification writes them. -/
abbrev qOf (b : Fin 4) : Tok := queries (tokOf x0 b) (angOf x1 b) (angOf x2 b) (matOf x3) (rowOf x4)
abbrev kOf (b : Fin 4) : Tok := keys (tokOf x0 b) (angOf x1 b) (angOf x2 b) (matOf x5)
abbrev vOf (b : Fin 4) : Tok := values (tokOf x0 b) (matOf x6) (rowOf x7)

/-- A maximum-reduce over the last axis of a [4, 16, 1024, 1024] array from the −∞ word, at (b, h, i), is the fold of
    max from that word over the last coordinate. -/
theorem reduce_max_last (x : S4x16x1024x1024.Idx → EReal) (b : Fin 4) (h : Fin 16) (i : Fin 1024) :
    Host.reduce (FloatOps.maximumf (F := Ideal) (φ := .f32)) x (Read.val_main_cst_0 (F := Ideal)) reducesTo_S4x16x1024x1024_S4x16x1024_d3 h_S_ (ix3 b h i)
      = (Finset.univ : Finset (Fin 1024)).fold max negInf (fun k => x (ix4 b h i k)) := by
  have hR : S4x16x1024x1024.Reduces [3] S4x16x1024 := by decide
  rw [Host.reduce_eq_fold_single (FloatOps.maximumf (F := Ideal) (φ := .f32)) x _ reducesTo_S4x16x1024x1024_S4x16x1024_d3 hR h_S_]
  have hf : (x ∘ hR.lift (ix3 b h i)) = fun k : Fin 1024 => x (ix4 b h i k) :=
    funext fun k => congrArg x (funext fun a => Fin.ext (by match a with | ⟨0, _⟩ => rfl | ⟨1, _⟩ => rfl | ⟨2, _⟩ => rfl | ⟨3, _⟩ => rfl))
  rw [hf]
  rfl

/-- The scaled score of query token i against key token k in head h. -/
theorem score_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j))
    (b : Fin 4) (h : Fin 16) (i k : Fin 1024) :
    Read.val_main_v37 (F := Ideal) x0 x1 x2 x3 x4 x5 (ix4 b h i k) = score (headOf (qOf x0 x1 x2 x3 x4 b) h) (headOf (kOf x0 x1 x2 x5 b) h) i k := by
  rw [Read.val_main_v37_apply, Read.val_main_v35_apply, Read.val_main_v36_apply, Read.val_main_cst_apply]
  have el : ∀ j : Fin 64, Read.lidx_main_v35 (ix4 b h i k) j = ix4 b h i j := fun j => funext fun a => Fin.ext (by match a with | ⟨0, _⟩ => rfl | ⟨1, _⟩ => rfl | ⟨2, _⟩ => rfl | ⟨3, _⟩ => rfl)
  have er : ∀ j : Fin 64, Read.ridx_main_v35 (ix4 b h i k) j = ix4 b h k j := fun j => funext fun a => Fin.ext (by match a with | ⟨0, _⟩ => rfl | ⟨1, _⟩ => rfl | ⟨2, _⟩ => rfl | ⟨3, _⟩ => rfl)
  simp only [el, er, hq, hk]
  rfl

/-- The row maximum; the second maximum with −∞ is absorbed. -/
theorem rowMax_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j))
    (b : Fin 4) (h : Fin 16) (i : Fin 1024) :
    Read.val_main_v40 (F := Ideal) x0 x1 x2 x3 x4 x5 (ix3 b h i) = rowMax (headOf (qOf x0 x1 x2 x3 x4 b) h) (headOf (kOf x0 x1 x2 x5 b) h) i := by
  rw [Read.val_main_v40_apply, Read.val_main_v39_apply, Read.val_main_cst_1_apply]
  unfold Read.val_main_v38
  rw [reduce_max_last]
  simp only [score_at x0 x1 x2 x3 x4 x5 hq hk]
  exact max_eq_right ((Finset.le_fold_max _).2 (Or.inl le_rfl))

/-- The unnormalised weight. -/
theorem weight_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j))
    (b : Fin 4) (h : Fin 16) (i k : Fin 1024) :
    Read.val_main_v44 (F := Ideal) x0 x1 x2 x3 x4 x5 (ix4 b h i k) = weight (headOf (qOf x0 x1 x2 x3 x4 b) h) (headOf (kOf x0 x1 x2 x5 b) h) i k := by
  rw [Read.val_main_v44_apply, Read.val_main_v43_apply, Read.val_main_v42_apply, Read.val_main_v41_apply]
  have e : Read.idx_main_v41 (Read.idx_main_v42 (ix4 b h i k)) = ix3 b h i := funext fun a => Fin.ext (by match a with | ⟨0, _⟩ => rfl | ⟨1, _⟩ => rfl | ⟨2, _⟩ => rfl)
  rw [e, rowMax_at x0 x1 x2 x3 x4 x5 hq hk, score_at x0 x1 x2 x3 x4 x5 hq hk]
  rfl

/-- The sum of a row's weights: the zero word is 0. -/
theorem denom_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j))
    (b : Fin 4) (h : Fin 16) (i : Fin 1024) :
    Read.val_main_v45 (F := Ideal) x0 x1 x2 x3 x4 x5 (ix3 b h i) = denom (headOf (qOf x0 x1 x2 x3 x4 b) h) (headOf (kOf x0 x1 x2 x5 b) h) i := by
  rw [Read.val_main_v45_apply, Read.val_main_cst_2_apply]
  have e : ∀ k : Fin 1024, Read.idx_main_v45 (ix3 b h i) k = ix4 b h i k := fun k => funext fun a => Fin.ext (by match a with | ⟨0, _⟩ => rfl | ⟨1, _⟩ => rfl | ⟨2, _⟩ => rfl | ⟨3, _⟩ => rfl)
  simp only [e, weight_at x0 x1 x2 x3 x4 x5 hq hk]
  rw [Ideal.ofBits_def, Ideal.ofBits_zero_f32, zero_add]
  rfl

/-- The divided weight. -/
theorem soft_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j))
    (b : Fin 4) (h : Fin 16) (i k : Fin 1024) :
    Read.val_main_v48 (F := Ideal) x0 x1 x2 x3 x4 x5 (ix4 b h i k)
      = Ideal.div (weight (headOf (qOf x0 x1 x2 x3 x4 b) h) (headOf (kOf x0 x1 x2 x5 b) h) i k) (denom (headOf (qOf x0 x1 x2 x3 x4 b) h) (headOf (kOf x0 x1 x2 x5 b) h) i) := by
  rw [Read.val_main_v48_apply, Read.val_main_v47_apply, Read.val_main_v46_apply]
  have e : Read.idx_main_v46 (Read.idx_main_v47 (ix4 b h i k)) = ix3 b h i := funext fun a => Fin.ext (by match a with | ⟨0, _⟩ => rfl | ⟨1, _⟩ => rfl | ⟨2, _⟩ => rfl)
  rw [e, weight_at x0 x1 x2 x3 x4 x5 hq hk, denom_at x0 x1 x2 x3 x4 x5 hq hk]
  rfl

/-- Lane j of head h of the combination with the value rows. -/
theorem head_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j)) (hv : ∀ (b : Fin 4) (h : Fin 16) (n : Fin 1024) (j : Fin 64), Read.val_main_v14 (F := Ideal) x0 x6 x7 (ix4 b h n j) = vOf x0 x6 x7 b n (feat h j))
    (b : Fin 4) (h : Fin 16) (i : Fin 1024) (j : Fin 64) :
    Read.val_main_v49 (F := Ideal) x0 x1 x2 x3 x4 x5 x6 x7 (ix4 b h i j)
      = headBefore (headOf (qOf x0 x1 x2 x3 x4 b) h) (headOf (kOf x0 x1 x2 x5 b) h) (fun kk => vOf x0 x6 x7 b kk (feat h j)) i := by
  rw [Read.val_main_v49_apply]
  have el : ∀ k : Fin 1024, Read.lidx_main_v49 (ix4 b h i j) k = ix4 b h i k := fun k => funext fun a => Fin.ext (by match a with | ⟨0, _⟩ => rfl | ⟨1, _⟩ => rfl | ⟨2, _⟩ => rfl | ⟨3, _⟩ => rfl)
  have er : ∀ k : Fin 1024, Read.ridx_main_v49 (ix4 b h i j) k = ix4 b h k j := fun k => funext fun a => Fin.ext (by match a with | ⟨0, _⟩ => rfl | ⟨1, _⟩ => rfl | ⟨2, _⟩ => rfl | ⟨3, _⟩ => rfl)
  simp only [el, er, soft_at x0 x1 x2 x3 x4 x5 hq hk, hv]
  rfl

/-- Back to [batch, token, feature]: feature e is lane e % 64 of head e / 64. -/
theorem attn_at (hq : ∀ (b : Fin 4) (h : Fin 16) (n : Fin 1024) (j : Fin 64), Read.val_main_v25 (F := Ideal) x0 x1 x2 x3 x4 (ix4 b h n j) = qOf x0 x1 x2 x3 x4 b n (feat h j)) (hk : ∀ (b : Fin 4) (h : Fin 16) (n : Fin 1024) (j : Fin 64), Read.val_main_v34 (F := Ideal) x0 x1 x2 x5 (ix4 b h n j) = kOf x0 x1 x2 x5 b n (feat h j)) (hv : ∀ (b : Fin 4) (h : Fin 16) (n : Fin 1024) (j : Fin 64), Read.val_main_v14 (F := Ideal) x0 x6 x7 (ix4 b h n j) = vOf x0 x6 x7 b n (feat h j))
    (b : Fin 4) (n e : Fin 1024) :
    Read.val_main_v51 (F := Ideal) x0 x1 x2 x3 x4 x5 x6 x7 (ix3 b n e)
      = attnBefore (qOf x0 x1 x2 x3 x4 b) (kOf x0 x1 x2 x5 b) (vOf x0 x6 x7 b) n e := by
  rw [Read.val_main_v51_apply, Read.val_main_v50_apply]
  have e' : Read.idx_main_v50 (Read.idx_main_v51 (ix3 b n e)) = ix4 b (head e) n (lane e) := funext fun a => Fin.ext (by
    have hb := b.isLt; have hn := n.isLt; have he := e.isLt
    match a with
    | ⟨0, _⟩ => show ((b.val * 1024 + n.val) * 1024 + e.val) / 1048576 = b.val; omega
    | ⟨1, _⟩ => show ((b.val * 1024 + n.val) * 1024 + e.val) / 64 % 16 = e.val / 64; omega
    | ⟨2, _⟩ => show ((b.val * 1024 + n.val) * 1024 + e.val) / 1024 % 1024 = n.val; omega
    | ⟨3, _⟩ => show ((b.val * 1024 + n.val) * 1024 + e.val) % 64 = e.val % 64; omega)
  rw [e', head_at x0 x1 x2 x3 x4 x5 x6 x7 hq hk hv]
  have hf : feat (head e) (lane e) = e := Fin.ext (Nat.div_add_mod e.val 64)
  rw [hf]
  rfl

/-- The reference's result at (b, n, e) is the specification's layer with the division taken weight by weight. -/
theorem ref_layer
    (hq : ∀ (b : Fin 4) (h : Fin 16) (n : Fin 1024) (j : Fin 64), Read.val_main_v25 x0 x1 x2 x3 x4 (ix4 b h n j) = queries (tokOf x0 b) (angOf x1 b) (angOf x2 b) (matOf x3) (rowOf x4) n (feat h j))
    (hk : ∀ (b : Fin 4) (h : Fin 16) (n : Fin 1024) (j : Fin 64), Read.val_main_v34 x0 x1 x2 x5 (ix4 b h n j) = keys (tokOf x0 b) (angOf x1 b) (angOf x2 b) (matOf x5) n (feat h j))
    (hv : ∀ (b : Fin 4) (h : Fin 16) (n : Fin 1024) (j : Fin 64), Read.val_main_v14 x0 x6 x7 (ix4 b h n j) = values (tokOf x0 b) (matOf x6) (rowOf x7) n (feat h j))
    (b : Fin 4) (n e : Fin 1024) :
    Read.val_main_v55 x0 x1 x2 x3 x4 x5 x6 x7 x8 x9 (ix3 b n e)
      = layerBefore (tokOf x0 b) (angOf x1 b) (angOf x2 b) (matOf x3) (rowOf x4) (matOf x5) (matOf x6) (rowOf x7) (matOf x8) (rowOf x9) n e := by
  rw [Read.val_main_v55_apply, Read.val_main_v52_apply, Read.val_main_v54_apply, Read.val_main_v53_apply]
  have el : ∀ d : Fin 1024, Read.lidx_main_v52 (ix3 b n e) d = ix3 b n d := fun d => funext fun a => Fin.ext (by match a with | ⟨0, _⟩ => rfl | ⟨1, _⟩ => rfl | ⟨2, _⟩ => rfl)
  have er : ∀ d : Fin 1024, Read.ridx_main_v52 (ix3 b n e) d = ix2 e d := fun d => funext fun a => Fin.ext (by match a with | ⟨0, _⟩ => rfl | ⟨1, _⟩ => rfl)
  have eb : Read.idx_main_v53 (Read.idx_main_v54 (ix3 b n e)) = ix1 e := funext fun a => Fin.ext (by match a with | ⟨0, _⟩ => rfl)
  simp only [el, er, eb, attn_at x0 x1 x2 x3 x4 x5 x6 x7 hq hk hv]
  rfl

end Cert.ReferenceIdeal.Softmax

end
-- ==== Proof.FiniteInputs.lean ====
/-
  Finite inputs are real inputs.

  The precondition says, of each of the ten argument arrays x, that "every entry of |x| is below plus infinity", and
  joins the ten statements with "and". Each statement is a conjunction over all entries of the array of the one-bit
  word comparing |x i| with the f32 word of plus infinity, and the joined word is 1.

  A conjunction of one-bit words is 1 only when every word in it is 1, so the comparison holds at every entry of every
  array. On the extended reals |a| is max a (-a), and the f32 word 0x7F800000 is the greatest extended real. Of the
  three kinds of extended real, minus infinity and plus infinity both have |a| equal to plus infinity, which is not
  below itself; what is left is the image of a real number. So every entry of every argument array is a real number.
-/
import proofs.«169902_j90718299226613_2_alg».proof.Defs
import proofs.«169902_j90718299226613_2_alg».proof.Proof.Spec
import proofs.«169902_j90718299226613_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Finite

open Idealize.ShloMosaic Idealize.ShloMosaic.TcCoe Idealize.ShloMosaic.ValueIdx RotaryAttention Cert.KernelIdeal

/-- An array with no axes has exactly one index. -/
instance subsingleton_scalar_idx : Subsingleton (⟨0, ![]⟩ : Shape).Idx := ⟨fun a b => funext fun d => d.elim0⟩

/-- The f32 word of plus infinity is the greatest extended real. -/
theorem ofBits_pos_inf_f32 : Ideal.ofBits .f32 0x7F800000#32 = ⊤ := by
  simp [Ideal.ofBits, Ideal.ieee]

/-- An extended real whose absolute value max x (-x) is strictly below plus infinity is a real number: at minus
    infinity and at plus infinity the absolute value is plus infinity itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- For an array x of any shape: when the conjunction over ALL entries of "|x i| is below plus infinity" is 1, every
    entry of x is a real number. The conjunction being 1 gives the comparison at the entry i; the comparison at i is
    the scalar fact above. -/
theorem real_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (h : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1)
    (i : s.Idx) : ∃ r : ℝ, (x : s.Idx → EReal) i = (r : EReal) := by
  have e := Host.reduce_andi_all _ _ hr hu ix0 h i
  refine real_of_abs_lt_top (x i) ?_
  rw [← ofBits_pos_inf_f32]
  exact e

/-- Under the precondition every entry of each of the ten argument arrays is a real number: the precondition's word is
    the "and" of ten all-entries conjunctions, one per array in argument order; it is 1, so each of the ten is 1, and
    the lemma above reads each of them entry by entry. -/
theorem real_of_pre [hP : Cert.Pre_finite_inputs.Facts] (m : (ℓ : Loc nD τ sig) → Buf (Elt Ideal) ℓ) (hpre : Cert.Pre_KernelIdeal m) (c : Dev nD) :
    (∀ i, ∃ r : ℝ, (m ((c.tc : Thread nD τ).loc main_arg0) : S4x1024x1024.Idx → EReal) i = (r : EReal))
    ∧ (∀ i, ∃ r : ℝ, (m ((c.tc : Thread nD τ).loc main_arg1) : S4x1024x64.Idx → EReal) i = (r : EReal))
    ∧ (∀ i, ∃ r : ℝ, (m ((c.tc : Thread nD τ).loc main_arg2) : S4x1024x64.Idx → EReal) i = (r : EReal))
    ∧ (∀ i, ∃ r : ℝ, (m ((c.tc : Thread nD τ).loc main_arg3) : S1024x1024.Idx → EReal) i = (r : EReal))
    ∧ (∀ i, ∃ r : ℝ, (m ((c.tc : Thread nD τ).loc main_arg4) : S1024.Idx → EReal) i = (r : EReal))
    ∧ (∀ i, ∃ r : ℝ, (m ((c.tc : Thread nD τ).loc main_arg5) : S1024x1024.Idx → EReal) i = (r : EReal))
    ∧ (∀ i, ∃ r : ℝ, (m ((c.tc : Thread nD τ).loc main_arg6) : S1024x1024.Idx → EReal) i = (r : EReal))
    ∧ (∀ i, ∃ r : ℝ, (m ((c.tc : Thread nD τ).loc main_arg7) : S1024.Idx → EReal) i = (r : EReal))
    ∧ (∀ i, ∃ r : ℝ, (m ((c.tc : Thread nD τ).loc main_arg8) : S1024x1024.Idx → EReal) i = (r : EReal))
    ∧ (∀ i, ∃ r : ℝ, (m ((c.tc : Thread nD τ).loc main_arg9) : S1024.Idx → EReal) i = (r : EReal)) := by
  have h := congrFun (hpre c) ValueIdx.ix0
  dsimp only [Cert.Pre_finite_inputs.fn, Cert.Pre_finite_inputs.fn_part1, Cert.Pre_finite_inputs.fn_part2] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9⟩

end Cert.KernelIdeal.Finite

end
-- ==== Proof.lean ====
/-
  The kernel — query, key and value projections with the rotary embedding, softmax attention on pairs of heads, the
  output projection, as three launches behind four casts of the weight matrices — against plain attention, on the
  extended reals.

  Both programs compute, for each of the 4 batch entries, the same attention layer over 1024 tokens of 1024 features
  in 16 heads of 64 (the specification module writes it index by index). They differ in layout, which the extended
  reals do not see (narrow formats are the identity, the kernel's pairs of heads side by side are the reference's
  heads re-indexed, a product against the transposed weights is the same sum), and in ONE arithmetic step: the kernel
  divides the weighted sum of the value rows by the sum of the softmax weights, the reference divides every weight
  first. The two orders agree because every input is a real number: then every score is real, a row's maximum is a
  real, every weight is a positive real and their sum a positive real, and division by a nonzero real distributes
  over a finite sum of reals.

  The three frames: the generated frame of each printed kernel program, and for the reference, which is host
  operations only, its run with the result forgotten. The idealization rewrote nothing, so it preserves trivially.
-/
import proofs.«169902_j90718299226613_2_alg».proof.Defs
import proofs.«169902_j90718299226613_2_alg».proof.Proof.Gen.Kernel
import proofs.«169902_j90718299226613_2_alg».proof.Proof.Gen.Kernel.Frame
import proofs.«169902_j90718299226613_2_alg».proof.Proof.Gen.KernelIdeal
import proofs.«169902_j90718299226613_2_alg».proof.Proof.Gen.KernelIdeal.Frame
import proofs.«169902_j90718299226613_2_alg».proof.Proof.Gen.ReferenceIdeal
import proofs.«169902_j90718299226613_2_alg».proof.Proof.Gen.ReferenceIdeal.Read
import proofs.«169902_j90718299226613_2_alg».proof.Proof.Gen.Pre_finite_inputs
import proofs.«169902_j90718299226613_2_alg».proof.Proof.KernelRun
import proofs.«169902_j90718299226613_2_alg».proof.Proof.DivideOrder
import proofs.«169902_j90718299226613_2_alg».proof.Proof.KernelValue
import proofs.«169902_j90718299226613_2_alg».proof.Proof.ReferenceProjections
import proofs.«169902_j90718299226613_2_alg».proof.Proof.ReferenceSoftmax
import proofs.«169902_j90718299226613_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem RotaryAttention

/-- The printed kernel runs to the end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem algebraic : Cert.algebraic_KernelIdeal_ReferenceIdeal := by
  intro m ρ m' ρ' hpre hagree
  refine ⟨fun c => Cert.KernelIdeal.Gen.W4 m ρ c (Proc.devRef .tc Cert.KernelIdeal.main_v6), Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq]
  obtain ⟨h0, h1, h2, h3, h4, h5, h6, h7, h8, h9⟩ := hagree c
  rw [h0, h1, h2, h3, h4, h5, h6, h7, h8, h9]
  obtain ⟨r0, r1, r2, r3, r4, r5, r6, r7, r8, r9⟩ := Cert.KernelIdeal.Finite.real_of_pre m hpre c
  funext i
  obtain ⟨b, n, e, rfl⟩ : ∃ (b : Fin 4) (n e : Fin 1024), i = ix3 b n e := ⟨i 0, i 1, i 2, eq_ix3 i⟩
  rw [Cert.ReferenceIdeal.Softmax.ref_layer _ _ _ _ _ _ _ _ _ _
    (fun b h n j => Cert.ReferenceIdeal.Projections.ref_queries _ _ _ _ _ b h n j)
    (fun b h n j => Cert.ReferenceIdeal.Projections.ref_keys _ _ _ _ b h n j)
    (fun b h n j => Cert.ReferenceIdeal.Projections.ref_values _ _ _ b h n j)]
  have hlaw := layer_divide_order (Cert.KernelIdeal.Value.X m c b) (Cert.KernelIdeal.Value.CS m c b) (Cert.KernelIdeal.Value.SN m c b)
    (Cert.KernelIdeal.Value.WQ m c) (Cert.KernelIdeal.Value.BQ m c) (Cert.KernelIdeal.Value.WK m c) (Cert.KernelIdeal.Value.WV m c)
    (Cert.KernelIdeal.Value.BV m c) (Cert.KernelIdeal.Value.WO m c) (Cert.KernelIdeal.Value.BO m c)
    (fun n e => r0 _) (fun n j => r1 _) (fun n j => r2 _) (fun e d => r3 _) (fun e => r4 _) (fun e d => r5 _) (fun e d => r6 _) (fun e => r7 _)
  exact (congrFun (congrFun hlaw n) e).symm.trans (Cert.KernelIdeal.Value.result_value m ρ c b n e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
